-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S3x64x64 : Shape := ⟨3, ![3, 64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S3x64x64 .f32) (main_arg3 : FVec F S64 .f32) (main_arg4 : FVec F S3x64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S3x64x64 : Shape := ⟨3, ![3, 64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S4000x64 : Shape := ⟨2, ![4000, 64]⟩
abbrev S50000x128 : Shape := ⟨2, ![50000, 128]⟩
abbrev S1x128 : Shape := ⟨2, ![1, 128]⟩
abbrev S2000x128 : Shape := ⟨2, ![2000, 128]⟩

abbrev nBuf : Space → Nat
  | .hbm => 221
  | .vmem => 36
  | .smem => 0
  | _ => 0

abbrev hbmTy0_0 (i : Nat) : BufTy := match i % 128 with
  | 0 => ⟨S100000x64, .f32⟩
  | 1 => ⟨S2x1600000, .i32⟩
  | 2 => ⟨S3x64x64, .f32⟩
  | 3 => ⟨S64, .f32⟩
  | 4 => ⟨S3x64x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S1600000x1, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S1600000x64, .f32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S1x64x64, .f32⟩
  | 84 => ⟨S64x64, .f32⟩
  | 85 => ⟨S1x64x64, .f32⟩
  | 86 => ⟨S64x64, .f32⟩
  | 87 => ⟨S64x64, .f32⟩
  | 88 => ⟨S1x64x64, .f32⟩
  | 89 => ⟨S64x64, .f32⟩
  | 90 => ⟨S1x64x64, .f32⟩
  | 91 => ⟨S64x64, .f32⟩
  | 92 => ⟨S_, .f32⟩
  | 93 => ⟨S64x64, .f32⟩
  | 94 => ⟨S64x64, .f32⟩
  | 95 => ⟨S1x64, .f32⟩
  | 96 => ⟨S100000x64, .f32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S_, .i32⟩
  | 104 => ⟨S_, .f32⟩
  | 105 => ⟨S64, .f32⟩
  | 106 => ⟨S1x64, .f32⟩
  | 107 => ⟨S_, .f32⟩
  | 108 => ⟨S1x64, .f32⟩
  | 109 => ⟨S1x64, .f32⟩
  | 110 => ⟨S100000x64, .f32⟩
  | 111 => ⟨S100000x64, .f32⟩
  | 112 => ⟨S100000x64, .f32⟩
  | 113 => ⟨S_, .f32⟩
  | 114 => ⟨S_, .f32⟩
  | 115 => ⟨S_, .f32⟩
  | 116 => ⟨S_, .f32⟩
  | 117 => ⟨S64, .f32⟩
  | 118 => ⟨S1x64, .f32⟩
  | 119 => ⟨S1x64, .f32⟩
  | 120 => ⟨S1x64, .f32⟩
  | 121 => ⟨S_, .f32⟩
  | 122 => ⟨S_, .i1⟩
  | 123 => ⟨S_, .f32⟩
  | 124 => ⟨S_, .f32⟩
  | 125 => ⟨S1x64, .f32⟩
  | 126 => ⟨S1x64, .f32⟩
  | 127 => ⟨S_, .f32⟩
  | _ => ⟨S100000x64, .f32⟩

abbrev hbmTy0_1 (i : Nat) : BufTy := match i % 128 with
  | 0 => ⟨S1x64, .f32⟩
  | 1 => ⟨S1x64, .f32⟩
  | 2 => ⟨S1x64, .f32⟩
  | 3 => ⟨S50000x128, .f32⟩
  | 4 => ⟨S1x128, .f32⟩
  | 5 => ⟨S1x128, .f32⟩
  | 6 => ⟨S50000x128, .f32⟩
  | 7 => ⟨S100000x64, .f32⟩
  | 8 => ⟨S1600000x1, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S1600000x64, .f32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S1600000x1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S1600000x64, .f32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S1x64x64, .f32⟩
  | 41 => ⟨S64x64, .f32⟩
  | 42 => ⟨S1x64x64, .f32⟩
  | 43 => ⟨S64x64, .f32⟩
  | 44 => ⟨S64x64, .f32⟩
  | 45 => ⟨S1x64x64, .f32⟩
  | 46 => ⟨S64x64, .f32⟩
  | 47 => ⟨S1x64x64, .f32⟩
  | 48 => ⟨S64x64, .f32⟩
  | 49 => ⟨S_, .f32⟩
  | 50 => ⟨S64x64, .f32⟩
  | 51 => ⟨S64x64, .f32⟩
  | 52 => ⟨S1x64, .f32⟩
  | 53 => ⟨S100000x64, .f32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S_, .i32⟩
  | 61 => ⟨S_, .f32⟩
  | 62 => ⟨S64, .f32⟩
  | 63 => ⟨S1x64, .f32⟩
  | 64 => ⟨S_, .f32⟩
  | 65 => ⟨S1x64, .f32⟩
  | 66 => ⟨S1x64, .f32⟩
  | 67 => ⟨S100000x64, .f32⟩
  | 68 => ⟨S100000x64, .f32⟩
  | 69 => ⟨S100000x64, .f32⟩
  | 70 => ⟨S_, .f32⟩
  | 71 => ⟨S_, .f32⟩
  | 72 => ⟨S_, .f32⟩
  | 73 => ⟨S_, .f32⟩
  | 74 => ⟨S64, .f32⟩
  | 75 => ⟨S1x64, .f32⟩
  | 76 => ⟨S1x64, .f32⟩
  | 77 => ⟨S1x64, .f32⟩
  | 78 => ⟨S_, .f32⟩
  | 79 => ⟨S_, .i1⟩
  | 80 => ⟨S_, .f32⟩
  | 81 => ⟨S_, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S1x64, .f32⟩
  | 88 => ⟨S50000x128, .f32⟩
  | 89 => ⟨S1x128, .f32⟩
  | 90 => ⟨S1x128, .f32⟩
  | 91 => ⟨S50000x128, .f32⟩
  | 92 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S64x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S4000x64, .f32⟩
  | .local _ .vmem, ⟨29, _⟩ => ⟨S4000x64, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_c_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_cst_1 : Ref sig .tc := ⟨.hbm, 114, rfl⟩
abbrev main_call2_v8 : Ref sig .tc := ⟨.hbm, 115, rfl⟩
abbrev main_call2_cst_2 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_v12 : Ref sig .tc := ⟨.hbm, 120, rfl⟩
abbrev main_call2_cst_3 : Ref sig .tc := ⟨.hbm, 121, rfl⟩
abbrev main_call2_v13 : Ref sig .tc := ⟨.hbm, 122, rfl⟩
abbrev main_call2_cst_4 : Ref sig .tc := ⟨.hbm, 123, rfl⟩
abbrev main_call2_call0_v0 : Ref sig .tc := ⟨.hbm, 124, rfl⟩
abbrev main_call2_call0_v1 : Ref sig .tc := ⟨.hbm, 125, rfl⟩
abbrev main_v74 : Ref sig .tc := ⟨.hbm, 126, rfl⟩
abbrev main_cst_18 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_19 : Ref sig .tc := ⟨.hbm, 137, rfl⟩
abbrev main_v84 : Ref sig .tc := ⟨.hbm, 138, rfl⟩
abbrev main_v85 : Ref sig .tc := ⟨.hbm, 139, rfl⟩
abbrev main_c_20 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_21 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_c_22 : Ref sig .tc := ⟨.hbm, 153, rfl⟩
abbrev main_v97 : Ref sig .tc := ⟨.hbm, 154, rfl⟩
abbrev main_v98 : Ref sig .tc := ⟨.hbm, 155, rfl⟩
abbrev main_c_23 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_24 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_cst_25 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_26 : Ref sig .tc := ⟨.hbm, 182, rfl⟩
abbrev main_v122 : Ref sig .tc := ⟨.hbm, 183, rfl⟩
abbrev main_v123 : Ref sig .tc := ⟨.hbm, 184, rfl⟩
abbrev main_cst_27 : Ref sig .tc := ⟨.hbm, 185, rfl⟩
abbrev main_v124 : Ref sig .tc := ⟨.hbm, 186, rfl⟩
abbrev main_v125 : Ref sig .tc := ⟨.hbm, 187, rfl⟩
abbrev main_c_28 : Ref sig .tc := ⟨.hbm, 188, rfl⟩
abbrev main_call3_cst : Ref sig .tc := ⟨.hbm, 189, rfl⟩
abbrev main_call3_v0 : Ref sig .tc := ⟨.hbm, 190, rfl⟩
abbrev main_call3_v1 : Ref sig .tc := ⟨.hbm, 191, rfl⟩
abbrev main_call3_cst_0 : Ref sig .tc := ⟨.hbm, 192, rfl⟩
abbrev main_call3_v2 : Ref sig .tc := ⟨.hbm, 193, rfl⟩
abbrev main_call3_v3 : Ref sig .tc := ⟨.hbm, 194, rfl⟩
abbrev main_call3_v4 : Ref sig .tc := ⟨.hbm, 195, rfl⟩
abbrev main_call3_v5 : Ref sig .tc := ⟨.hbm, 196, rfl⟩
abbrev main_call3_v6 : Ref sig .tc := ⟨.hbm, 197, rfl⟩
abbrev main_call3_v7 : Ref sig .tc := ⟨.hbm, 198, rfl⟩
abbrev main_call3_cst_1 : Ref sig .tc := ⟨.hbm, 199, rfl⟩
abbrev main_call3_v8 : Ref sig .tc := ⟨.hbm, 200, rfl⟩
abbrev main_call3_cst_2 : Ref sig .tc := ⟨.hbm, 201, rfl⟩
abbrev main_call3_v9 : Ref sig .tc := ⟨.hbm, 202, rfl⟩
abbrev main_call3_v10 : Ref sig .tc := ⟨.hbm, 203, rfl⟩
abbrev main_call3_v11 : Ref sig .tc := ⟨.hbm, 204, rfl⟩
abbrev main_call3_v12 : Ref sig .tc := ⟨.hbm, 205, rfl⟩
abbrev main_call3_cst_3 : Ref sig .tc := ⟨.hbm, 206, rfl⟩
abbrev main_call3_v13 : Ref sig .tc := ⟨.hbm, 207, rfl⟩
abbrev main_call3_cst_4 : Ref sig .tc := ⟨.hbm, 208, rfl⟩
abbrev main_call3_call0_v0 : Ref sig .tc := ⟨.hbm, 209, rfl⟩
abbrev main_call3_call0_v1 : Ref sig .tc := ⟨.hbm, 210, rfl⟩
abbrev main_v126 : Ref sig .tc := ⟨.hbm, 211, rfl⟩
abbrev main_cst_29 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64x64_S1x64x64_2_0_0 : S3x64x64.Slices ![2, 0, 0] S1x64x64
  slices_S3x64x64_S1x64x64_1_0_0 : S3x64x64.Slices ![1, 0, 0] S1x64x64
  bcast_S_S64x64 : S_.BroadcastsInDim S64x64 (![] : Fin 0 → Fin S64x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S100000x64_S50000x128 : S100000x64.ShapeCasts S50000x128
  concatenates_S1x64_S1x64_S1x128_d1 : Shape.Concatenates [S1x64, S1x64] S1x128 1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S50000x128_S100000x64 : S50000x128.ShapeCasts S100000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S100000x64.size a
  hwx0_7 : ∀ i : grid0.Coords, EltTy.bits .f32 = 32 ∨ (Rect.block (s := S100000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x64.size a ≤ S100000x64.size a
  hwx2_7 : ∀ i : grid2.Coords, EltTy.bits .f32 = 32 ∨ (Rect.block (s := S100000x64) S4000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v61) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v63) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v67) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v68) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v69) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v78) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v80) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v81) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v82) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v108) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v113) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v115) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v119) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v120) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v121) S4000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v130) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v131) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v132) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v133) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S3x64x64 : Shape := ⟨3, ![3, 64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 233
  | .vmem => 0
  | .smem => 0
  | _ => 0

abbrev hbmTy0_0 (i : Nat) : BufTy := match i % 128 with
  | 0 => ⟨S100000x64, .f32⟩
  | 1 => ⟨S2x1600000, .i32⟩
  | 2 => ⟨S3x64x64, .f32⟩
  | 3 => ⟨S64, .f32⟩
  | 4 => ⟨S3x64x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S1600000x1, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S1600000x64, .f32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S1x64x64, .f32⟩
  | 88 => ⟨S64x64, .f32⟩
  | 89 => ⟨S100000x64, .f32⟩
  | 90 => ⟨S1x64x64, .f32⟩
  | 91 => ⟨S64x64, .f32⟩
  | 92 => ⟨S100000x64, .f32⟩
  | 93 => ⟨S100000x64, .f32⟩
  | 94 => ⟨S1x64x64, .f32⟩
  | 95 => ⟨S64x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S64, .f32⟩
  | 106 => ⟨S1x64, .f32⟩
  | 107 => ⟨S_, .f32⟩
  | 108 => ⟨S1x64, .f32⟩
  | 109 => ⟨S1x64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S_, .f32⟩
  | 122 => ⟨S_, .f32⟩
  | 123 => ⟨S_, .f32⟩
  | 124 => ⟨S64, .f32⟩
  | 125 => ⟨S1x64, .f32⟩
  | 126 => ⟨S1x64, .f32⟩
  | 127 => ⟨S1x64, .f32⟩
  | _ => ⟨S100000x64, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S1x64, .f32⟩
  | 5 => ⟨S1x64, .f32⟩
  | 6 => ⟨S100000x64, .f32⟩
  | 7 => ⟨S100000x64, .f32⟩
  | 8 => ⟨S_, .f32⟩
  | 9 => ⟨S1x64, .f32⟩
  | 10 => ⟨S1x64, .f32⟩
  | 11 => ⟨S1x64, .f32⟩
  | 12 => ⟨S100000x64, .f32⟩
  | 13 => ⟨S100000x64, .f32⟩
  | 14 => ⟨S1600000x1, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S1600000x1, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S1600000x64, .f32⟩
  | 41 => ⟨S1600000x64, .f32⟩
  | 42 => ⟨S_, .f32⟩
  | 43 => ⟨S100000x64, .f32⟩
  | 44 => ⟨S1600000x1, .i32⟩
  | 45 => ⟨S100000x64, .f32⟩
  | 46 => ⟨S_, .f32⟩
  | 47 => ⟨S100000x64, .f32⟩
  | 48 => ⟨S100000x64, .f32⟩
  | 49 => ⟨S100000x64, .f32⟩
  | 50 => ⟨S1x64x64, .f32⟩
  | 51 => ⟨S64x64, .f32⟩
  | 52 => ⟨S100000x64, .f32⟩
  | 53 => ⟨S1x64x64, .f32⟩
  | 54 => ⟨S64x64, .f32⟩
  | 55 => ⟨S100000x64, .f32⟩
  | 56 => ⟨S100000x64, .f32⟩
  | 57 => ⟨S1x64x64, .f32⟩
  | 58 => ⟨S64x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S_, .f32⟩
  | 68 => ⟨S64, .f32⟩
  | 69 => ⟨S1x64, .f32⟩
  | 70 => ⟨S_, .f32⟩
  | 71 => ⟨S1x64, .f32⟩
  | 72 => ⟨S1x64, .f32⟩
  | 73 => ⟨S_, .i32⟩
  | 74 => ⟨S_, .f32⟩
  | 75 => ⟨S64, .f32⟩
  | 76 => ⟨S1x64, .f32⟩
  | 77 => ⟨S_, .f32⟩
  | 78 => ⟨S1x64, .f32⟩
  | 79 => ⟨S1x64, .f32⟩
  | 80 => ⟨S100000x64, .f32⟩
  | 81 => ⟨S100000x64, .f32⟩
  | 82 => ⟨S100000x64, .f32⟩
  | 83 => ⟨S_, .f32⟩
  | 84 => ⟨S_, .f32⟩
  | 85 => ⟨S_, .f32⟩
  | 86 => ⟨S_, .f32⟩
  | 87 => ⟨S64, .f32⟩
  | 88 => ⟨S1x64, .f32⟩
  | 89 => ⟨S1x64, .f32⟩
  | 90 => ⟨S1x64, .f32⟩
  | 91 => ⟨S_, .f32⟩
  | 92 => ⟨S_, .i1⟩
  | 93 => ⟨S_, .f32⟩
  | 94 => ⟨S_, .f32⟩
  | 95 => ⟨S1x64, .f32⟩
  | 96 => ⟨S1x64, .f32⟩
  | 97 => ⟨S100000x64, .f32⟩
  | 98 => ⟨S100000x64, .f32⟩
  | 99 => ⟨S_, .f32⟩
  | 100 => ⟨S1x64, .f32⟩
  | 101 => ⟨S1x64, .f32⟩
  | 102 => ⟨S1x64, .f32⟩
  | 103 => ⟨S100000x64, .f32⟩
  | 104 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_c_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call2_cst : Ref sig .tc := ⟨.hbm, 101, rfl⟩
abbrev main_call2_v0 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_cst_16 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_call3_cst : Ref sig .tc := ⟨.hbm, 111, rfl⟩
abbrev main_call3_v0 : Ref sig .tc := ⟨.hbm, 112, rfl⟩
abbrev main_call3_v1 : Ref sig .tc := ⟨.hbm, 113, rfl⟩
abbrev main_call3_cst_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_cst_1 : Ref sig .tc := ⟨.hbm, 121, rfl⟩
abbrev main_call3_v8 : Ref sig .tc := ⟨.hbm, 122, rfl⟩
abbrev main_call3_cst_2 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_v12 : Ref sig .tc := ⟨.hbm, 127, rfl⟩
abbrev main_call3_cst_3 : Ref sig .tc := ⟨.hbm, 128, rfl⟩
abbrev main_call3_v13 : Ref sig .tc := ⟨.hbm, 129, rfl⟩
abbrev main_call3_cst_4 : Ref sig .tc := ⟨.hbm, 130, rfl⟩
abbrev main_call3_call0_v0 : Ref sig .tc := ⟨.hbm, 131, rfl⟩
abbrev main_call3_call0_v1 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_18 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_c_19 : Ref sig .tc := ⟨.hbm, 143, rfl⟩
abbrev main_v88 : Ref sig .tc := ⟨.hbm, 144, rfl⟩
abbrev main_v89 : Ref sig .tc := ⟨.hbm, 145, rfl⟩
abbrev main_c_20 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_21 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_c_22 : Ref sig .tc := ⟨.hbm, 159, rfl⟩
abbrev main_v101 : Ref sig .tc := ⟨.hbm, 160, rfl⟩
abbrev main_v102 : Ref sig .tc := ⟨.hbm, 161, rfl⟩
abbrev main_c_23 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_24 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_25 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_call4_cst : Ref sig .tc := ⟨.hbm, 192, rfl⟩
abbrev main_call4_v0 : Ref sig .tc := ⟨.hbm, 193, rfl⟩
abbrev main_v130 : Ref sig .tc := ⟨.hbm, 194, rfl⟩
abbrev main_cst_26 : Ref sig .tc := ⟨.hbm, 195, rfl⟩
abbrev main_v131 : Ref sig .tc := ⟨.hbm, 196, rfl⟩
abbrev main_v132 : Ref sig .tc := ⟨.hbm, 197, rfl⟩
abbrev main_cst_27 : Ref sig .tc := ⟨.hbm, 198, rfl⟩
abbrev main_v133 : Ref sig .tc := ⟨.hbm, 199, rfl⟩
abbrev main_v134 : Ref sig .tc := ⟨.hbm, 200, rfl⟩
abbrev main_c_28 : Ref sig .tc := ⟨.hbm, 201, rfl⟩
abbrev main_call5_cst : Ref sig .tc := ⟨.hbm, 202, rfl⟩
abbrev main_call5_v0 : Ref sig .tc := ⟨.hbm, 203, rfl⟩
abbrev main_call5_v1 : Ref sig .tc := ⟨.hbm, 204, rfl⟩
abbrev main_call5_cst_0 : Ref sig .tc := ⟨.hbm, 205, rfl⟩
abbrev main_call5_v2 : Ref sig .tc := ⟨.hbm, 206, rfl⟩
abbrev main_call5_v3 : Ref sig .tc := ⟨.hbm, 207, rfl⟩
abbrev main_call5_v4 : Ref sig .tc := ⟨.hbm, 208, rfl⟩
abbrev main_call5_v5 : Ref sig .tc := ⟨.hbm, 209, rfl⟩
abbrev main_call5_v6 : Ref sig .tc := ⟨.hbm, 210, rfl⟩
abbrev main_call5_v7 : Ref sig .tc := ⟨.hbm, 211, rfl⟩
abbrev main_call5_cst_1 : Ref sig .tc := ⟨.hbm, 212, rfl⟩
abbrev main_call5_v8 : Ref sig .tc := ⟨.hbm, 213, rfl⟩
abbrev main_call5_cst_2 : Ref sig .tc := ⟨.hbm, 214, rfl⟩
abbrev main_call5_v9 : Ref sig .tc := ⟨.hbm, 215, rfl⟩
abbrev main_call5_v10 : Ref sig .tc := ⟨.hbm, 216, rfl⟩
abbrev main_call5_v11 : Ref sig .tc := ⟨.hbm, 217, rfl⟩
abbrev main_call5_v12 : Ref sig .tc := ⟨.hbm, 218, rfl⟩
abbrev main_call5_cst_3 : Ref sig .tc := ⟨.hbm, 219, rfl⟩
abbrev main_call5_v13 : Ref sig .tc := ⟨.hbm, 220, rfl⟩
abbrev main_call5_cst_4 : Ref sig .tc := ⟨.hbm, 221, rfl⟩
abbrev main_call5_call0_v0 : Ref sig .tc := ⟨.hbm, 222, rfl⟩
abbrev main_call5_call0_v1 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_cst_29 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel's run with its result named: every weakly fair execution of @main terminates, nothing
  faulting, the argument arrays end as launched, and the result buffer ends at the last boundary's contents
  (`Gen.W17`: the launch memory folded through the thirteen host stretches and the four regions).
  The launch over the segments is the frame's; only the read-off of the last thread state differs: the result
  buffer is read beside the arguments.
-/
import proofs.«133803_j9560597201237_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v134) = W17 m ρ c (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v134 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c)⟩)

end Cert.KernelIdeal.KRun

end
-- ==== Proof.Spec.lean ====
/-
  The shared vocabulary of this certificate's value proof, at the ideal instance (entries are extended reals).

  A graph of N = 100000 nodes and E = 1600000 directed edges (row 0 of the index array: sources, row 1: targets).
  Both programs compute, with the SAME host operations,
    deg    : the number of edges into each node (a scatter-add of ones at the targets),
    dinv   : deg^(-1/2) where deg > 0, else 0,
    wEdge  : -dinv(src) * dinv(dst) per edge (gathers at the wrapped indices),
    prop h : the scatter-add, at the targets, of wEdge times the rows of h gathered at the sources,
    meanRow, varRow, invRow : the column mean, the column variance (two passes) and (var + eps)^(-1/2) of an N x 64 array.
  They differ in the dense part of a layer: the kernel multiplies (h, prop h, prop (prop h)) by the reweighted
  matrices (W0 - W2, W1, 2 W2) block by block (`mmAt`), the reference multiplies (h, prop h, 2 prop (prop h) - h) by
  (W0, W1, W2); and in the normalisation, which the kernel does on the array re-laid as N/2 x 128 (`nmAt`).
-/
import proofs.«133803_j9560597201237_2_alg».proof.KernelIdeal
import proofs.«133803_j9560597201237_2_alg».proof.ReferenceIdeal
import proofs.«133803_j9560597201237_2_alg».proof.Proof.Gen.KernelIdeal
import proofs.«133803_j9560597201237_2_alg».proof.Proof.Gen.ReferenceIdeal
import Idealize.ShloMosaic.Lib.ValueIdx

noncomputable section

namespace Cert.Spec

open Idealize.ShloMosaic Idealize.ShloMosaic.ValueIdx
open Cert.KernelIdeal Cert.KernelIdeal.Facts₀

/-! ## The edge list -/

/-- The sources: row 0 of the 2 x E index array. -/
def row0 (ei : IVec S2x1600000 32) : IVec S1600000 32 :=
  shapeCast S1600000 (extractStridedSlice S1x1600000 ![0, 0] ei slices_S2x1600000_S1x1600000_0_0) shapeCasts_S1x1600000_S1600000
/-- The targets: row 1. -/
def row1 (ei : IVec S2x1600000 32) : IVec S1600000 32 :=
  shapeCast S1600000 (extractStridedSlice S1x1600000 ![1, 0] ei slices_S2x1600000_S1x1600000_1_0) shapeCasts_S1x1600000_S1600000
/-- An index vector as a gather's E x 1 index column, a negative entry first wrapped by + N. -/
def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- An index vector as a scatter's E x 1 index column, as it is. -/
def rawCol (v : IVec S1600000 32) : IVec S1600000x1 32 :=
  broadcastInDim S1600000x1 ![0] bcast_S1600000_S1600000x1_0 v

/-! ## Degrees and edge weights -/

def zerosN : FVec Ideal S100000 .f32 := broadcastInDim S100000 ![] bcast_S_S100000 (constant (F := Ideal) S_ .f32 0x00000000#32)
/-- The in-degree of every node: ones scattered-added at the targets. -/
def deg (ei : IVec S2x1600000 32) : FVec Ideal S100000 .f32 :=
  Host.scatterAdd scatter_S100000_S1600000x1_S1600000_n_0_0_1 zerosN (rawCol (row1 ei))
    (broadcastInDim S1600000 ![] bcast_S_S1600000 (constant (F := Ideal) S_ .f32 0x3F800000#32))
/-- deg where positive, else 1. -/
def safeDeg (ei : IVec S2x1600000 32) : FVec Ideal S100000 .f32 :=
  select (cmpf .ogt (deg ei) zerosN) (deg ei) (broadcastInDim S100000 ![] bcast_S_S100000 (constant (F := Ideal) S_ .f32 0x3F800000#32))
/-- deg^(-1/2) where deg is positive, else 0. -/
def dinv (ei : IVec S2x1600000 32) : FVec Ideal S100000 .f32 :=
  select (cmpf .ogt (deg ei) zerosN) (Host.rsqrt (safeDeg ei)) zerosN
/-- The weight of every edge: -dinv(source) * dinv(target). -/
def wEdge (ei : IVec S2x1600000 32) : FVec Ideal S1600000 .f32 :=
  mulf (Host.negf (Host.gather gather_S100000_S1600000x1_S1600000_n_0_n_n_0_1_1 (dinv ei) (wrapCol (row0 ei))))
    (Host.gather gather_S100000_S1600000x1_S1600000_n_0_n_n_0_1_1 (dinv ei) (wrapCol (row1 ei)))

/-! ## One propagation step -/

def zerosNC : FVec Ideal S100000x64 .f32 := broadcastInDim S100000x64 ![] bcast_S_S100000x64 (constant (F := Ideal) S_ .f32 0x00000000#32)
/-- Row i of the result: the sum over the edges into i of the edge's weight times row (source) of h. -/
def prop (ei : IVec S2x1600000 32) (h : FVec Ideal S100000x64 .f32) : FVec Ideal S100000x64 .f32 :=
  Host.scatterAdd scatter_S100000x64_S1600000x1_S1600000x64_1_0_0_1 zerosNC (rawCol (row1 ei))
    (mulf (broadcastInDim S1600000x64 ![0, 1] bcast_S1600000x1_S1600000x64_0_1
            (broadcastInDim S1600000x1 ![0] bcast_S1600000_S1600000x1_0 (wEdge ei)))
      (Host.gather gather_S100000x64_S1600000x1_S1600000x64_1_0_n_n_0_1_164 h (wrapCol (row0 ei))))

/-! ## The weights -/

def w_0 (W : FVec Ideal S3x64x64 .f32) : FVec Ideal S64x64 .f32 :=
  shapeCast S64x64 (extractStridedSlice S1x64x64 ![0, 0, 0] W slices_S3x64x64_S1x64x64_0_0_0) shapeCasts_S1x64x64_S64x64
def w_1 (W : FVec Ideal S3x64x64 .f32) : FVec Ideal S64x64 .f32 :=
  shapeCast S64x64 (extractStridedSlice S1x64x64 ![1, 0, 0] W slices_S3x64x64_S1x64x64_1_0_0) shapeCasts_S1x64x64_S64x64
def w_2 (W : FVec Ideal S3x64x64 .f32) : FVec Ideal S64x64 .f32 :=
  shapeCast S64x64 (extractStridedSlice S1x64x64 ![2, 0, 0] W slices_S3x64x64_S1x64x64_2_0_0) shapeCasts_S1x64x64_S64x64
/-- The kernel's first matrix, W0 - W2. -/
def w0p (W : FVec Ideal S3x64x64 .f32) : FVec Ideal S64x64 .f32 := subf (w_0 W) (w_2 W)
/-- The kernel's third matrix, 2 W2. -/
def w2p (W : FVec Ideal S3x64x64 .f32) : FVec Ideal S64x64 .f32 :=
  mulf (broadcastInDim S64x64 ![] bcast_S_S64x64 (constant (F := Ideal) S_ .f32 0x40000000#32)) (w_2 W)
/-- The bias as a 1 x 64 row. -/
def brow (b : FVec Ideal S64 .f32) : FVec Ideal S1x64 .f32 := shapeCast S1x64 b shapeCasts_S64_S1x64

/-! ## Column statistics of an N x 64 array -/

def colSum (H : FVec Ideal S100000x64 .f32) : FVec Ideal S1x64 .f32 :=
  broadcastInDim S1x64 ![1] bcast_S64_S1x64_1 (Host.reduceAdd H (constant (F := Ideal) S_ .f32 0x00000000#32) reducesTo_S100000x64_S64_d0 h_S_)
/-- The column means, a 1 x 64 row. -/
def meanRow (H : FVec Ideal S100000x64 .f32) : FVec Ideal S1x64 .f32 :=
  Host.divf (colSum H) (broadcastInDim S1x64 ![] bcast_S_S1x64 (constant (F := Ideal) S_ .f32 0x47C35000#32))
/-- N minus the zero degrees-of-freedom word, as a float. -/
def nrm : FVec Ideal S_ .f32 := subf (constant (F := Ideal) S_ .f32 0x47C35000#32) (sitofp .f32 (constantI S_ 32 0#32))
/-- The column variances (the mean of the squared deviations from the column mean), a 1 x 64 row. -/
def varRow (H : FVec Ideal S100000x64 .f32) : FVec Ideal S1x64 .f32 :=
  select (broadcastInDim S1x64 ![] bcast_S_S1x64 (cmpf .ogt nrm (constant (F := Ideal) S_ .f32 0x00000000#32)))
    (Host.divf
      (colSum (mulf (subf H (broadcastInDim S100000x64 ![0, 1] bcast_S1x64_S100000x64_0_1 (meanRow H)))
                    (subf H (broadcastInDim S100000x64 ![0, 1] bcast_S1x64_S100000x64_0_1 (meanRow H)))))
      (broadcastInDim S1x64 ![] bcast_S_S1x64 nrm))
    (broadcastInDim S1x64 ![] bcast_S_S1x64 (constant (F := Ideal) S_ .f32 0x7FC00000#32))
/-- (variance + eps)^(-1/2), a 1 x 64 row. -/
def invRow (H : FVec Ideal S100000x64 .f32) : FVec Ideal S1x64 .f32 :=
  Host.rsqrt (addf (varRow H) (broadcastInDim S1x64 ![] bcast_S_S1x64 (constant (F := Ideal) S_ .f32 0x3727C5AC#32)))

/-! ## The kernel's two bodies as functions of whole arrays -/

/-- Entry (p, q) of the dense body: max (x0 w0 + x1 w1 + x2 w2 + b, 0). -/
def mmAt (x0 x1 x2 : FVec Ideal S100000x64 .f32) (w0 w1 w2 : FVec Ideal S64x64 .f32) (b : FVec Ideal S1x64 .f32)
    (p : Fin 100000) (q : Fin 64) : EReal :=
  max ((((∑ k : Fin 64, x0 (ix2 p k) * w0 (ix2 k q)) + ∑ k : Fin 64, x1 (ix2 p k) * w1 (ix2 k q))
        + ∑ k : Fin 64, x2 (ix2 p k) * w2 (ix2 k q)) + b (ix2 0 q)) 0
def mm (x0 x1 x2 : FVec Ideal S100000x64 .f32) (w0 w1 w2 : FVec Ideal S64x64 .f32) (b : FVec Ideal S1x64 .f32) :
    FVec Ideal S100000x64 .f32 := fun i => mmAt x0 x1 x2 w0 w1 w2 b (i 0) (i 1)
/-- Entry (r, l) of the normalising body on the re-laid array: (h - mean) * inv, the row statistics indexed by the lane. -/
def nm (h2 : FVec Ideal S50000x128 .f32) (mu2 iv2 : FVec Ideal S1x128 .f32) : FVec Ideal S50000x128 .f32 :=
  fun i => (h2 i - mu2 (ix2 0 (i 1))) * iv2 (ix2 0 (i 1))

/-- The 1 x 64 row twice, side by side. -/
def twice (r : FVec Ideal S1x64 .f32) : FVec Ideal S1x128 .f32 :=
  concatenate S1x128 1 [⟨S1x64, r⟩, ⟨S1x64, r⟩] concatenates_S1x64_S1x64_S1x128_d1

/-! ## A layer, as each program computes it -/

/-- The dense part as the kernel computes it. -/
def denseK (ei : IVec S2x1600000 32) (h : FVec Ideal S100000x64 .f32) (W : FVec Ideal S3x64x64 .f32) (b : FVec Ideal S64 .f32) :
    FVec Ideal S100000x64 .f32 :=
  mm h (prop ei h) (prop ei (prop ei h)) (w0p W) (w_1 W) (w2p W) (brow b)
/-- The normalisation as the kernel computes it: on the N/2 x 128 re-laying, then laid back. -/
def normK (H : FVec Ideal S100000x64 .f32) : FVec Ideal S100000x64 .f32 :=
  shapeCast S100000x64 (nm (shapeCast S50000x128 H shapeCasts_S100000x64_S50000x128) (twice (meanRow H)) (twice (invRow H)))
    shapeCasts_S50000x128_S100000x64
def layerK (ei : IVec S2x1600000 32) (h : FVec Ideal S100000x64 .f32) (W : FVec Ideal S3x64x64 .f32) (b : FVec Ideal S64 .f32) :
    FVec Ideal S100000x64 .f32 := normK (denseK ei h W b)

/-- The dense part as the reference computes it. -/
def denseR (ei : IVec S2x1600000 32) (h : FVec Ideal S100000x64 .f32) (W : FVec Ideal S3x64x64 .f32) (b : FVec Ideal S64 .f32) :
    FVec Ideal S100000x64 .f32 :=
  maximumf
    (addf
      (addf
        (addf (Host.dotGeneral Cert.ReferenceIdeal.dot_S100000x64_S64x64_S100000x64_1_0_0_1_n_n none h (w_0 W))
              (Host.dotGeneral Cert.ReferenceIdeal.dot_S100000x64_S64x64_S100000x64_1_0_0_1_n_n none (prop ei h) (w_1 W)))
        (Host.dotGeneral Cert.ReferenceIdeal.dot_S100000x64_S64x64_S100000x64_1_0_0_1_n_n none
          (subf (mulf (broadcastInDim S100000x64 ![] bcast_S_S100000x64 (constant (F := Ideal) S_ .f32 0x40000000#32)) (prop ei (prop ei h))) h)
          (w_2 W)))
      (broadcastInDim S100000x64 ![0, 1] bcast_S1x64_S100000x64_0_1 (broadcastInDim S1x64 ![1] bcast_S64_S1x64_1 b)))
    zerosNC
/-- The normalisation as the reference computes it. -/
def normR (H : FVec Ideal S100000x64 .f32) : FVec Ideal S100000x64 .f32 :=
  mulf (subf H (broadcastInDim S100000x64 ![0, 1] bcast_S1x64_S100000x64_0_1 (meanRow H)))
    (broadcastInDim S100000x64 ![0, 1] bcast_S1x64_S100000x64_0_1 (invRow H))
def layerR (ei : IVec S2x1600000 32) (h : FVec Ideal S100000x64 .f32) (W : FVec Ideal S3x64x64 .f32) (b : FVec Ideal S64 .f32) :
    FVec Ideal S100000x64 .f32 := normR (denseR ei h W b)

/-- Every entry is a real number. -/
def Fin' {s : Shape} (x : FVec Ideal s .f32) : Prop := ∀ i, ∃ r : ℝ, x i = (r : EReal)

end Cert.Spec

end
-- ==== Proof.KStageDefs.lean ====
/-
  Three of the shared host chains with the values they start from as parameters, so that a stretch of host operations
  can be read over ANY contents of its input buffers: the edge weights from a given dinv and given edge rows, one
  propagation step from given weights, and the column variance with a given degrees-of-freedom word. At the values
  the program really has they are the specification's functions.
-/
import proofs.«133803_j9560597201237_2_alg».proof.Proof.Gen.KernelIdeal.Frame
import proofs.«133803_j9560597201237_2_alg».proof.Proof.Spec

set_option maxRecDepth 16384

noncomputable section

namespace Cert.KernelIdeal.KStage

open Idealize.ShloMosaic Idealize.ShloMosaic.TcCoe Idealize.SL.Sem
open Cert.KernelIdeal Cert.KernelIdeal.Facts₀

/-- The fold of a literal stretch of host operations at one buffer: every operation's result at its own buffer is its
    function of the operands' contents, and at any other buffer what was there. -/
macro "reads " ops:ident : tactic =>
  `(tactic| (simp only [$ops:ident, List.flatten_cons, List.flatten_nil, List.append_nil, List.cons_append, List.nil_append]
             after_results_simp))

/-- -dinv(source) * dinv(target) per edge, from a given dinv and given source / target rows. -/
def wOf (dv : FVec Ideal S100000 .f32) (s t : IVec S1600000 32) : FVec Ideal S1600000 .f32 :=
  mulf (Host.negf (Host.gather gather_S100000_S1600000x1_S1600000_n_0_n_n_0_1_1 dv (Cert.Spec.wrapCol s))) (Host.gather gather_S100000_S1600000x1_S1600000_n_0_n_n_0_1_1 dv (Cert.Spec.wrapCol t))
theorem wOf_eq (ei : IVec S2x1600000 32) : wOf (Cert.Spec.dinv ei) (Cert.Spec.row0 ei) (Cert.Spec.row1 ei) = Cert.Spec.wEdge ei := rfl

/-- One propagation step from given edge weights and rows: the weighted source rows scattered-added at the targets. -/
def propOf (w : FVec Ideal S1600000 .f32) (s t : IVec S1600000 32) (h : FVec Ideal S100000x64 .f32) : FVec Ideal S100000x64 .f32 :=
  Host.scatterAdd scatter_S100000x64_S1600000x1_S1600000x64_1_0_0_1 Cert.Spec.zerosNC (Cert.Spec.rawCol t)
    (mulf (broadcastInDim S1600000x64 ![0, 1] bcast_S1600000x1_S1600000x64_0_1 (broadcastInDim S1600000x1 ![0] bcast_S1600000_S1600000x1_0 w))
      (Host.gather gather_S100000x64_S1600000x1_S1600000x64_1_0_n_n_0_1_164 h (Cert.Spec.wrapCol s)))
theorem propOf_eq (ei : IVec S2x1600000 32) (h : FVec Ideal S100000x64 .f32) :
    propOf (Cert.Spec.wEdge ei) (Cert.Spec.row0 ei) (Cert.Spec.row1 ei) h = Cert.Spec.prop ei h := rfl

/-- The column variance with the degrees-of-freedom word a parameter. -/
def varOf (H : FVec Ideal S100000x64 .f32) (dd : IVec S_ 32) : FVec Ideal S1x64 .f32 :=
  select (broadcastInDim S1x64 ![] bcast_S_S1x64 (cmpf .ogt (subf (constant (F := Ideal) S_ .f32 0x47C35000#32) (sitofp .f32 dd)) (constant (F := Ideal) S_ .f32 0x00000000#32)))
    (Host.divf
      (Cert.Spec.colSum (mulf (subf H (broadcastInDim S100000x64 ![0, 1] bcast_S1x64_S100000x64_0_1 (Cert.Spec.meanRow H)))
                    (subf H (broadcastInDim S100000x64 ![0, 1] bcast_S1x64_S100000x64_0_1 (Cert.Spec.meanRow H)))))
      (broadcastInDim S1x64 ![] bcast_S_S1x64 (subf (constant (F := Ideal) S_ .f32 0x47C35000#32) (sitofp .f32 dd))))
    (broadcastInDim S1x64 ![] bcast_S_S1x64 (constant (F := Ideal) S_ .f32 0x7FC00000#32))
theorem varOf_eq (H : FVec Ideal S100000x64 .f32) : varOf H (constantI S_ 32 0#32) = Cert.Spec.varRow H := rfl

/-- (variance + eps)^(-1/2) from a given variance row. -/
def invOf (vr : FVec Ideal S1x64 .f32) : FVec Ideal S1x64 .f32 :=
  Host.rsqrt (addf vr (broadcastInDim S1x64 ![] bcast_S_S1x64 (constant (F := Ideal) S_ .f32 0x3727C5AC#32)))
theorem invOf_eq (H : FVec Ideal S100000x64 .f32) : invOf (Cert.Spec.varRow H) = Cert.Spec.invRow H := rfl

end Cert.KernelIdeal.KStage
end
-- ==== Proof.KStage0.lean ====
/-
  The host operations before the first dense region, read stretch by stretch over ANY contents V of the buffers
  (so that every term stays small), then chained from the launch memory: at the first region's entry the three
  blocked operands are x, prop x and prop (prop x), the three matrices W0 - W2, W1 and 2 W2, the bias a 1 x 64 row;
  the edge rows and the edge weights are carried for the second layer.
-/
import proofs.«133803_j9560597201237_2_alg».proof.Proof.Gen.KernelIdeal.Frame
import proofs.«133803_j9560597201237_2_alg».proof.Proof.Spec
import proofs.«133803_j9560597201237_2_alg».proof.Proof.KStageDefs

set_option maxRecDepth 16384

noncomputable section

namespace Cert.KernelIdeal.KStage

open Idealize.ShloMosaic Idealize.ShloMosaic.TcCoe Idealize.SL.Sem
open Cert.KernelIdeal Cert.KernelIdeal.Facts₀

/-! ## Stretch by stretch, over any contents -/

-- the first stretch: the edge rows, the degrees and the mask deg > 0
theorem r_hostOps0_v1 (V : Valuation τ sig (Elt Ideal)) : (StableHlo.after Gen.hostOps0 V (Proc.devRef .tc main_v1) : IVec S1600000 32) = Cert.Spec.row0 (V (Proc.devRef .tc main_arg1) : IVec S2x1600000 32) := by
  reads Gen.hostOps0 <;> rfl
theorem r_hostOps0_v3 (V : Valuation τ sig (Elt Ideal)) : (StableHlo.after Gen.hostOps0 V (Proc.devRef .tc main_v3) : IVec S1600000 32) = Cert.Spec.row1 (V (Proc.devRef .tc main_arg1) : IVec S2x1600000 32) := by
  reads Gen.hostOps0 <;> rfl
theorem r_hostOps0_v7 (V : Valuation τ sig (Elt Ideal)) : (StableHlo.after Gen.hostOps0 V (Proc.devRef .tc main_v7) : FVec Ideal S100000 .f32) = Cert.Spec.deg (V (Proc.devRef .tc main_arg1) : IVec S2x1600000 32) := by
  reads Gen.hostOps0 <;> rfl
theorem r_hostOps0_v9 (V : Valuation τ sig (Elt Ideal)) : (StableHlo.after Gen.hostOps0 V (Proc.devRef .tc main_v9) : IVec S100000 1) = cmpf .ogt (Cert.Spec.deg (V (Proc.devRef .tc main_arg1) : IVec S2x1600000 32)) Cert.Spec.zerosN := by
  reads Gen.hostOps0 <;> rfl
theorem r_hostOps0_cst_2 (V : Valuation τ sig (Elt Ideal)) : (StableHlo.after Gen.hostOps0 V (Proc.devRef .tc main_cst_2) : FVec Ideal S_ .f32) = constant (F := Ideal) S_ .f32 0x3F800000#32 := by
  reads Gen.hostOps0 <;> rfl
theorem k_hostOps0_arg0 (V : Valuation τ sig (Elt Ideal)) : StableHlo.after Gen.hostOps0 V (Proc.devRef .tc main_arg0) = V (Proc.devRef .tc main_arg0) := by reads Gen.hostOps0
theorem k_hostOps0_arg2 (V : Valuation τ sig (Elt Ideal)) : StableHlo.after Gen.hostOps0 V (Proc.devRef .tc main_arg2) = V (Proc.devRef .tc main_arg2) := by reads Gen.hostOps0
theorem k_hostOps0_arg3 (V : Valuation τ sig (Elt Ideal)) : StableHlo.after Gen.hostOps0 V (Proc.devRef .tc main_arg3) = V (Proc.devRef .tc main_arg3) := by reads Gen.hostOps0
theorem k_hostOps0_arg4 (V : Valuation τ sig (Elt Ideal)) : StableHlo.after Gen.hostOps0 V (Proc.devRef .tc main_arg4) = V (Proc.devRef .tc main_arg4) := by reads Gen.hostOps0
theorem k_hostOps0_arg5 (V : Valuation τ sig (Elt Ideal)) : StableHlo.after Gen.hostOps0 V (Proc.devRef .tc main_arg5) = V (Proc.devRef .tc main_arg5) := by reads Gen.hostOps0

-- deg where positive, else 1
theorem r_hostOps0_1_v10 (V : Valuation τ sig (Elt Ideal)) : (StableHlo.after Gen.hostOps0_1 V (Proc.devRef .tc main_v10) : FVec Ideal S100000 .f32) = select (V (Proc.devRef .tc main_v9) : IVec S100000 1) (V (Proc.devRef .tc main_v7) : FVec Ideal S100000 .f32) (broadcastInDim S100000 ![] bcast_S_S100000 (V (Proc.devRef .tc main_cst_2) : FVec Ideal S_ .f32)) := by
  reads Gen.hostOps0_1
  simp only [cast_cast, cast_eq, id] <;> rfl
theorem k_hostOps0_1_v1 (V : Valuation τ sig (Elt Ideal)) : StableHlo.after Gen.hostOps0_1 V (Proc.devRef .tc main_v1) = V (Proc.devRef .tc main_v1) := by reads Gen.hostOps0_1
theorem k_hostOps0_1_v3 (V : Valuation τ sig (Elt Ideal)) : StableHlo.after Gen.hostOps0_1 V (Proc.devRef .tc main_v3) = V (Proc.devRef .tc main_v3) := by reads Gen.hostOps0_1
theorem k_hostOps0_1_v7 (V : Valuation τ sig (Elt Ideal)) : StableHlo.after Gen.hostOps0_1 V (Proc.devRef .tc main_v7) = V (Proc.devRef .tc main_v7) := by reads Gen.hostOps0_1
theorem k_hostOps0_1_arg0 (V : Valuation τ sig (Elt Ideal)) : StableHlo.after Gen.hostOps0_1 V (Proc.devRef .tc main_arg0) = V (Proc.devRef .tc main_arg0) := by reads Gen.hostOps0_1
theorem k_hostOps0_1_arg2 (V : Valuation τ sig (Elt Ideal)) : StableHlo.after Gen.hostOps0_1 V (Proc.devRef .tc main_arg2) = V (Proc.devRef .tc main_arg2) := by reads Gen.hostOps0_1
theorem k_hostOps0_1_arg3 (V : Valuation τ sig (Elt Ideal)) : StableHlo.after Gen.hostOps0_1 V (Proc.devRef .tc main_arg3) = V (Proc.devRef .tc main_arg3) := by reads Gen.hostOps0_1
theorem k_hostOps0_1_arg4 (V : Valuation τ sig (Elt Ideal)) : StableHlo.after Gen.hostOps0_1 V (Proc.devRef .tc main_arg4) = V (Proc.devRef .tc main_arg4) := by reads Gen.hostOps0_1
theorem k_hostOps0_1_arg5 (V : Valuation τ sig (Elt Ideal)) : StableHlo.after Gen.hostOps0_1 V (Proc.devRef .tc main_arg5) = V (Proc.devRef .tc main_arg5) := by reads Gen.hostOps0_1

-- the mask again, and the inverse square root
theorem r_hostOps0_2_v12 (V : Valuation τ sig (Elt Ideal)) : (StableHlo.after Gen.hostOps0_2 V (Proc.devRef .tc main_v12) : IVec S100000 1) = cmpf .ogt (V (Proc.devRef .tc main_v7) : FVec Ideal S100000 .f32) (broadcastInDim S100000 ![] bcast_S_S100000 (constant (F := Ideal) S_ .f32 0x00000000#32)) := by
  reads Gen.hostOps0_2 <;> rfl
theorem r_hostOps0_2_v13 (V : Valuation τ sig (Elt Ideal)) : (StableHlo.after Gen.hostOps0_2 V (Proc.devRef .tc main_v13) : FVec Ideal S100000 .f32) = (Host.rsqrt (V (Proc.devRef .tc main_v10) : FVec Ideal S100000 .f32) : FVec Ideal S100000 .f32) := by
  reads Gen.hostOps0_2 <;> rfl
theorem r_hostOps0_2_cst_4 (V : Valuation τ sig (Elt Ideal)) : (StableHlo.after Gen.hostOps0_2 V (Proc.devRef .tc main_cst_4) : FVec Ideal S_ .f32) = constant (F := Ideal) S_ .f32 0x00000000#32 := by
  reads Gen.hostOps0_2 <;> rfl
theorem k_hostOps0_2_v1 (V : Valuation τ sig (Elt Ideal)) : StableHlo.after Gen.hostOps0_2 V (Proc.devRef .tc main_v1) = V (Proc.devRef .tc main_v1) := by reads Gen.hostOps0_2
theorem k_hostOps0_2_v3 (V : Valuation τ sig (Elt Ideal)) : StableHlo.after Gen.hostOps0_2 V (Proc.devRef .tc main_v3) = V (Proc.devRef .tc main_v3) := by reads Gen.hostOps0_2
theorem k_hostOps0_2_arg0 (V : Valuation τ sig (Elt Ideal)) : StableHlo.after Gen.hostOps0_2 V (Proc.devRef .tc main_arg0) = V (Proc.devRef .tc main_arg0) := by reads Gen.hostOps0_2
theorem k_hostOps0_2_arg2 (V : Valuation τ sig (Elt Ideal)) : StableHlo.after Gen.hostOps0_2 V (Proc.devRef .tc main_arg2) = V (Proc.devRef .tc main_arg2) := by reads Gen.hostOps0_2
theorem k_hostOps0_2_arg3 (V : Valuation τ sig (Elt Ideal)) : StableHlo.after Gen.hostOps0_2 V (Proc.devRef .tc main_arg3) = V (Proc.devRef .tc main_arg3) := by reads Gen.hostOps0_2
theorem k_hostOps0_2_arg4 (V : Valuation τ sig (Elt Ideal)) : StableHlo.after Gen.hostOps0_2 V (Proc.devRef .tc main_arg4) = V (Proc.devRef .tc main_arg4) := by reads Gen.hostOps0_2
theorem k_hostOps0_2_arg5 (V : Valuation τ sig (Elt Ideal)) : StableHlo.after Gen.hostOps0_2 V (Proc.devRef .tc main_arg5) = V (Proc.devRef .tc main_arg5) := by reads Gen.hostOps0_2

-- deg^(-1/2) where deg is positive, else 0
theorem r_hostOps0_3_v14 (V : Valuation τ sig (Elt Ideal)) : (StableHlo.after Gen.hostOps0_3 V (Proc.devRef .tc main_v14) : FVec Ideal S100000 .f32) = select (V (Proc.devRef .tc main_v12) : IVec S100000 1) (V (Proc.devRef .tc main_v13) : FVec Ideal S100000 .f32) (broadcastInDim S100000 ![] bcast_S_S100000 (V (Proc.devRef .tc main_cst_4) : FVec Ideal S_ .f32)) := by
  reads Gen.hostOps0_3
  simp only [cast_cast, cast_eq, id] <;> rfl
theorem k_hostOps0_3_v1 (V : Valuation τ sig (Elt Ideal)) : StableHlo.after Gen.hostOps0_3 V (Proc.devRef .tc main_v1) = V (Proc.devRef .tc main_v1) := by reads Gen.hostOps0_3
theorem k_hostOps0_3_v3 (V : Valuation τ sig (Elt Ideal)) : StableHlo.after Gen.hostOps0_3 V (Proc.devRef .tc main_v3) = V (Proc.devRef .tc main_v3) := by reads Gen.hostOps0_3
theorem k_hostOps0_3_arg0 (V : Valuation τ sig (Elt Ideal)) : StableHlo.after Gen.hostOps0_3 V (Proc.devRef .tc main_arg0) = V (Proc.devRef .tc main_arg0) := by reads Gen.hostOps0_3
theorem k_hostOps0_3_arg2 (V : Valuation τ sig (Elt Ideal)) : StableHlo.after Gen.hostOps0_3 V (Proc.devRef .tc main_arg2) = V (Proc.devRef .tc main_arg2) := by reads Gen.hostOps0_3
theorem k_hostOps0_3_arg3 (V : Valuation τ sig (Elt Ideal)) : StableHlo.after Gen.hostOps0_3 V (Proc.devRef .tc main_arg3) = V (Proc.devRef .tc main_arg3) := by reads Gen.hostOps0_3
theorem k_hostOps0_3_arg4 (V : Valuation τ sig (Elt Ideal)) : StableHlo.after Gen.hostOps0_3 V (Proc.devRef .tc main_arg4) = V (Proc.devRef .tc main_arg4) := by reads Gen.hostOps0_3
theorem k_hostOps0_3_arg5 (V : Valuation τ sig (Elt Ideal)) : StableHlo.after Gen.hostOps0_3 V (Proc.devRef .tc main_arg5) = V (Proc.devRef .tc main_arg5) := by reads Gen.hostOps0_3

-- the edge weights, the two propagation steps, the reweighted matrices and the bias row
theorem r_hostOps0_4_v30 (V : Valuation τ sig (Elt Ideal)) : (StableHlo.after Gen.hostOps0_4 V (Proc.devRef .tc main_v30) : FVec Ideal S1600000 .f32) = ((wOf (V (Proc.devRef .tc main_v14) : FVec Ideal S100000 .f32) (V (Proc.devRef .tc main_v1) : IVec S1600000 32) (V (Proc.devRef .tc main_v3) : IVec S1600000 32)) : FVec Ideal S1600000 .f32) := by
  reads Gen.hostOps0_4 <;> rfl
theorem r_hostOps0_4_v43 (V : Valuation τ sig (Elt Ideal)) : (StableHlo.after Gen.hostOps0_4 V (Proc.devRef .tc main_v43) : FVec Ideal S100000x64 .f32) = ((propOf (wOf (V (Proc.devRef .tc main_v14) : FVec Ideal S100000 .f32) (V (Proc.devRef .tc main_v1) : IVec S1600000 32) (V (Proc.devRef .tc main_v3) : IVec S1600000 32)) (V (Proc.devRef .tc main_v1) : IVec S1600000 32) (V (Proc.devRef .tc main_v3) : IVec S1600000 32) (V (Proc.devRef .tc main_arg0) : FVec Ideal S100000x64 .f32)) : FVec Ideal S100000x64 .f32) := by
  reads Gen.hostOps0_4 <;> rfl
theorem r_hostOps0_4_v56 (V : Valuation τ sig (Elt Ideal)) : (StableHlo.after Gen.hostOps0_4 V (Proc.devRef .tc main_v56) : FVec Ideal S100000x64 .f32) = (propOf (wOf (V (Proc.devRef .tc main_v14) : FVec Ideal S100000 .f32) (V (Proc.devRef .tc main_v1) : IVec S1600000 32) (V (Proc.devRef .tc main_v3) : IVec S1600000 32)) (V (Proc.devRef .tc main_v1) : IVec S1600000 32) (V (Proc.devRef .tc main_v3) : IVec S1600000 32) (propOf (wOf (V (Proc.devRef .tc main_v14) : FVec Ideal S100000 .f32) (V (Proc.devRef .tc main_v1) : IVec S1600000 32) (V (Proc.devRef .tc main_v3) : IVec S1600000 32)) (V (Proc.devRef .tc main_v1) : IVec S1600000 32) (V (Proc.devRef .tc main_v3) : IVec S1600000 32) (V (Proc.devRef .tc main_arg0) : FVec Ideal S100000x64 .f32)) : FVec Ideal S100000x64 .f32) := by
  reads Gen.hostOps0_4 <;> rfl
theorem r_hostOps0_4_v61 (V : Valuation τ sig (Elt Ideal)) : (StableHlo.after Gen.hostOps0_4 V (Proc.devRef .tc main_v61) : FVec Ideal S64x64 .f32) = (Cert.Spec.w0p (V (Proc.devRef .tc main_arg2) : FVec Ideal S3x64x64 .f32) : FVec Ideal S64x64 .f32) := by
  reads Gen.hostOps0_4 <;> rfl
theorem r_hostOps0_4_v63 (V : Valuation τ sig (Elt Ideal)) : (StableHlo.after Gen.hostOps0_4 V (Proc.devRef .tc main_v63) : FVec Ideal S64x64 .f32) = (Cert.Spec.w_1 (V (Proc.devRef .tc main_arg2) : FVec Ideal S3x64x64 .f32) : FVec Ideal S64x64 .f32) := by
  reads Gen.hostOps0_4 <;> rfl
theorem r_hostOps0_4_v67 (V : Valuation τ sig (Elt Ideal)) : (StableHlo.after Gen.hostOps0_4 V (Proc.devRef .tc main_v67) : FVec Ideal S64x64 .f32) = (Cert.Spec.w2p (V (Proc.devRef .tc main_arg2) : FVec Ideal S3x64x64 .f32) : FVec Ideal S64x64 .f32) := by
  reads Gen.hostOps0_4 <;> rfl
theorem r_hostOps0_4_v68 (V : Valuation τ sig (Elt Ideal)) : (StableHlo.after Gen.hostOps0_4 V (Proc.devRef .tc main_v68) : FVec Ideal S1x64 .f32) = (Cert.Spec.brow (V (Proc.devRef .tc main_arg3) : FVec Ideal S64 .f32) : FVec Ideal S1x64 .f32) := by
  reads Gen.hostOps0_4 <;> rfl
theorem k_hostOps0_4_v1 (V : Valuation τ sig (Elt Ideal)) : StableHlo.after Gen.hostOps0_4 V (Proc.devRef .tc main_v1) = V (Proc.devRef .tc main_v1) := by reads Gen.hostOps0_4
theorem k_hostOps0_4_v3 (V : Valuation τ sig (Elt Ideal)) : StableHlo.after Gen.hostOps0_4 V (Proc.devRef .tc main_v3) = V (Proc.devRef .tc main_v3) := by reads Gen.hostOps0_4
theorem k_hostOps0_4_arg0 (V : Valuation τ sig (Elt Ideal)) : StableHlo.after Gen.hostOps0_4 V (Proc.devRef .tc main_arg0) = V (Proc.devRef .tc main_arg0) := by reads Gen.hostOps0_4
theorem k_hostOps0_4_arg4 (V : Valuation τ sig (Elt Ideal)) : StableHlo.after Gen.hostOps0_4 V (Proc.devRef .tc main_arg4) = V (Proc.devRef .tc main_arg4) := by reads Gen.hostOps0_4
theorem k_hostOps0_4_arg5 (V : Valuation τ sig (Elt Ideal)) : StableHlo.after Gen.hostOps0_4 V (Proc.devRef .tc main_arg5) = V (Proc.devRef .tc main_arg5) := by reads Gen.hostOps0_4

end Cert.KernelIdeal.KStage
end
-- ==== Proof.KStage1.lean ====
/-
  The host operations between the first dense region and the first normalising region, over ANY contents of the
  buffers: the column means, the column variances (the outlined two-pass variance), (var + eps)^(-1/2), the array
  re-laid as N/2 x 128 and the two statistics rows doubled; the edge rows, the edge weights and the second layer's
  parameters pass through untouched.
-/
import proofs.«133803_j9560597201237_2_alg».proof.Proof.Gen.KernelIdeal.Frame
import proofs.«133803_j9560597201237_2_alg».proof.Proof.Spec
import proofs.«133803_j9560597201237_2_alg».proof.Proof.KStageDefs

set_option maxRecDepth 16384

noncomputable section

namespace Cert.KernelIdeal.KStage

open Idealize.ShloMosaic Idealize.ShloMosaic.TcCoe Idealize.SL.Sem
open Cert.KernelIdeal Cert.KernelIdeal.Facts₀

theorem r_hostOps1_v73 (V : Valuation τ sig (Elt Ideal)) : (StableHlo.after Gen.hostOps1 V (Proc.devRef .tc main_v73) : FVec Ideal S1x64 .f32) = (Cert.Spec.meanRow (V (Proc.devRef .tc main_v69) : FVec Ideal S100000x64 .f32) : FVec Ideal S1x64 .f32) := by
  reads Gen.hostOps1 <;> rfl
theorem r_hostOps1_c_17 (V : Valuation τ sig (Elt Ideal)) : (StableHlo.after Gen.hostOps1 V (Proc.devRef .tc main_c_17) : IVec S_ 32) = (constantI S_ 32 0#32 : IVec S_ 32) := by
  reads Gen.hostOps1 <;> rfl
theorem k_hostOps1_v69 (V : Valuation τ sig (Elt Ideal)) : StableHlo.after Gen.hostOps1 V (Proc.devRef .tc main_v69) = V (Proc.devRef .tc main_v69) := by reads Gen.hostOps1
theorem k_hostOps1_v1 (V : Valuation τ sig (Elt Ideal)) : StableHlo.after Gen.hostOps1 V (Proc.devRef .tc main_v1) = V (Proc.devRef .tc main_v1) := by reads Gen.hostOps1
theorem k_hostOps1_v3 (V : Valuation τ sig (Elt Ideal)) : StableHlo.after Gen.hostOps1 V (Proc.devRef .tc main_v3) = V (Proc.devRef .tc main_v3) := by reads Gen.hostOps1
theorem k_hostOps1_v30 (V : Valuation τ sig (Elt Ideal)) : StableHlo.after Gen.hostOps1 V (Proc.devRef .tc main_v30) = V (Proc.devRef .tc main_v30) := by reads Gen.hostOps1
theorem k_hostOps1_arg4 (V : Valuation τ sig (Elt Ideal)) : StableHlo.after Gen.hostOps1 V (Proc.devRef .tc main_arg4) = V (Proc.devRef .tc main_arg4) := by reads Gen.hostOps1
theorem k_hostOps1_arg5 (V : Valuation τ sig (Elt Ideal)) : StableHlo.after Gen.hostOps1 V (Proc.devRef .tc main_arg5) = V (Proc.devRef .tc main_arg5) := by reads Gen.hostOps1

theorem r_hostOps1_1_v74 (V : Valuation τ sig (Elt Ideal)) : (StableHlo.after Gen.hostOps1_1 V (Proc.devRef .tc main_v74) : FVec Ideal S1x64 .f32) = (varOf (V (Proc.devRef .tc main_v69) : FVec Ideal S100000x64 .f32) (V (Proc.devRef .tc main_c_17) : IVec S_ 32) : FVec Ideal S1x64 .f32) := by
  reads Gen.hostOps1_1
  simp only [cast_cast, cast_eq, id] <;> rfl
theorem k_hostOps1_1_v69 (V : Valuation τ sig (Elt Ideal)) : StableHlo.after Gen.hostOps1_1 V (Proc.devRef .tc main_v69) = V (Proc.devRef .tc main_v69) := by reads Gen.hostOps1_1
theorem k_hostOps1_1_v73 (V : Valuation τ sig (Elt Ideal)) : StableHlo.after Gen.hostOps1_1 V (Proc.devRef .tc main_v73) = V (Proc.devRef .tc main_v73) := by reads Gen.hostOps1_1
theorem k_hostOps1_1_v1 (V : Valuation τ sig (Elt Ideal)) : StableHlo.after Gen.hostOps1_1 V (Proc.devRef .tc main_v1) = V (Proc.devRef .tc main_v1) := by reads Gen.hostOps1_1
theorem k_hostOps1_1_v3 (V : Valuation τ sig (Elt Ideal)) : StableHlo.after Gen.hostOps1_1 V (Proc.devRef .tc main_v3) = V (Proc.devRef .tc main_v3) := by reads Gen.hostOps1_1
theorem k_hostOps1_1_v30 (V : Valuation τ sig (Elt Ideal)) : StableHlo.after Gen.hostOps1_1 V (Proc.devRef .tc main_v30) = V (Proc.devRef .tc main_v30) := by reads Gen.hostOps1_1
theorem k_hostOps1_1_arg4 (V : Valuation τ sig (Elt Ideal)) : StableHlo.after Gen.hostOps1_1 V (Proc.devRef .tc main_arg4) = V (Proc.devRef .tc main_arg4) := by reads Gen.hostOps1_1
theorem k_hostOps1_1_arg5 (V : Valuation τ sig (Elt Ideal)) : StableHlo.after Gen.hostOps1_1 V (Proc.devRef .tc main_arg5) = V (Proc.devRef .tc main_arg5) := by reads Gen.hostOps1_1

theorem r_hostOps1_2_v78 (V : Valuation τ sig (Elt Ideal)) : (StableHlo.after Gen.hostOps1_2 V (Proc.devRef .tc main_v78) : FVec Ideal S50000x128 .f32) = (shapeCast S50000x128 (V (Proc.devRef .tc main_v69) : FVec Ideal S100000x64 .f32) shapeCasts_S100000x64_S50000x128 : FVec Ideal S50000x128 .f32) := by
  reads Gen.hostOps1_2 <;> rfl
theorem r_hostOps1_2_v79 (V : Valuation τ sig (Elt Ideal)) : (StableHlo.after Gen.hostOps1_2 V (Proc.devRef .tc main_v79) : FVec Ideal S1x128 .f32) = (Cert.Spec.twice (V (Proc.devRef .tc main_v73) : FVec Ideal S1x64 .f32) : FVec Ideal S1x128 .f32) := by
  reads Gen.hostOps1_2 <;> rfl
theorem r_hostOps1_2_v80 (V : Valuation τ sig (Elt Ideal)) : (StableHlo.after Gen.hostOps1_2 V (Proc.devRef .tc main_v80) : FVec Ideal S1x128 .f32) = (Cert.Spec.twice (invOf (V (Proc.devRef .tc main_v74) : FVec Ideal S1x64 .f32)) : FVec Ideal S1x128 .f32) := by
  reads Gen.hostOps1_2 <;> rfl
theorem k_hostOps1_2_v1 (V : Valuation τ sig (Elt Ideal)) : StableHlo.after Gen.hostOps1_2 V (Proc.devRef .tc main_v1) = V (Proc.devRef .tc main_v1) := by reads Gen.hostOps1_2
theorem k_hostOps1_2_v3 (V : Valuation τ sig (Elt Ideal)) : StableHlo.after Gen.hostOps1_2 V (Proc.devRef .tc main_v3) = V (Proc.devRef .tc main_v3) := by reads Gen.hostOps1_2
theorem k_hostOps1_2_v30 (V : Valuation τ sig (Elt Ideal)) : StableHlo.after Gen.hostOps1_2 V (Proc.devRef .tc main_v30) = V (Proc.devRef .tc main_v30) := by reads Gen.hostOps1_2
theorem k_hostOps1_2_arg4 (V : Valuation τ sig (Elt Ideal)) : StableHlo.after Gen.hostOps1_2 V (Proc.devRef .tc main_arg4) = V (Proc.devRef .tc main_arg4) := by reads Gen.hostOps1_2
theorem k_hostOps1_2_arg5 (V : Valuation τ sig (Elt Ideal)) : StableHlo.after Gen.hostOps1_2 V (Proc.devRef .tc main_arg5) = V (Proc.devRef .tc main_arg5) := by reads Gen.hostOps1_2

end Cert.KernelIdeal.KStage
end
-- ==== Proof.KStage2.lean ====
/-
  The host operations between the first normalising region and the second dense region, over ANY contents of the
  buffers: the normalised array laid back as N x 64 (the second layer's input), its two propagation steps with the
  carried edge weights and rows, the second layer's reweighted matrices and bias row.
-/
import proofs.«133803_j9560597201237_2_alg».proof.Proof.Gen.KernelIdeal.Frame
import proofs.«133803_j9560597201237_2_alg».proof.Proof.Spec
import proofs.«133803_j9560597201237_2_alg».proof.Proof.KStageDefs

set_option maxRecDepth 16384

noncomputable section

namespace Cert.KernelIdeal.KStage

open Idealize.ShloMosaic Idealize.ShloMosaic.TcCoe Idealize.SL.Sem
open Cert.KernelIdeal Cert.KernelIdeal.Facts₀

theorem r_hostOps2_v82 (V : Valuation τ sig (Elt Ideal)) : (StableHlo.after Gen.hostOps2 V (Proc.devRef .tc main_v82) : FVec Ideal S100000x64 .f32) = ((shapeCast S100000x64 (V (Proc.devRef .tc main_v81) : FVec Ideal S50000x128 .f32) shapeCasts_S50000x128_S100000x64 : FVec Ideal S100000x64 .f32) : FVec Ideal S100000x64 .f32) := by
  reads Gen.hostOps2 <;> rfl
theorem r_hostOps2_v95 (V : Valuation τ sig (Elt Ideal)) : (StableHlo.after Gen.hostOps2 V (Proc.devRef .tc main_v95) : FVec Ideal S100000x64 .f32) = ((propOf (V (Proc.devRef .tc main_v30) : FVec Ideal S1600000 .f32) (V (Proc.devRef .tc main_v1) : IVec S1600000 32) (V (Proc.devRef .tc main_v3) : IVec S1600000 32) (shapeCast S100000x64 (V (Proc.devRef .tc main_v81) : FVec Ideal S50000x128 .f32) shapeCasts_S50000x128_S100000x64 : FVec Ideal S100000x64 .f32)) : FVec Ideal S100000x64 .f32) := by
  reads Gen.hostOps2 <;> rfl
theorem r_hostOps2_v108 (V : Valuation τ sig (Elt Ideal)) : (StableHlo.after Gen.hostOps2 V (Proc.devRef .tc main_v108) : FVec Ideal S100000x64 .f32) = (propOf (V (Proc.devRef .tc main_v30) : FVec Ideal S1600000 .f32) (V (Proc.devRef .tc main_v1) : IVec S1600000 32) (V (Proc.devRef .tc main_v3) : IVec S1600000 32) (propOf (V (Proc.devRef .tc main_v30) : FVec Ideal S1600000 .f32) (V (Proc.devRef .tc main_v1) : IVec S1600000 32) (V (Proc.devRef .tc main_v3) : IVec S1600000 32) (shapeCast S100000x64 (V (Proc.devRef .tc main_v81) : FVec Ideal S50000x128 .f32) shapeCasts_S50000x128_S100000x64 : FVec Ideal S100000x64 .f32)) : FVec Ideal S100000x64 .f32) := by
  reads Gen.hostOps2 <;> rfl
theorem r_hostOps2_v113 (V : Valuation τ sig (Elt Ideal)) : (StableHlo.after Gen.hostOps2 V (Proc.devRef .tc main_v113) : FVec Ideal S64x64 .f32) = (Cert.Spec.w0p (V (Proc.devRef .tc main_arg4) : FVec Ideal S3x64x64 .f32) : FVec Ideal S64x64 .f32) := by
  reads Gen.hostOps2 <;> rfl
theorem r_hostOps2_v115 (V : Valuation τ sig (Elt Ideal)) : (StableHlo.after Gen.hostOps2 V (Proc.devRef .tc main_v115) : FVec Ideal S64x64 .f32) = (Cert.Spec.w_1 (V (Proc.devRef .tc main_arg4) : FVec Ideal S3x64x64 .f32) : FVec Ideal S64x64 .f32) := by
  reads Gen.hostOps2 <;> rfl
theorem r_hostOps2_v119 (V : Valuation τ sig (Elt Ideal)) : (StableHlo.after Gen.hostOps2 V (Proc.devRef .tc main_v119) : FVec Ideal S64x64 .f32) = (Cert.Spec.w2p (V (Proc.devRef .tc main_arg4) : FVec Ideal S3x64x64 .f32) : FVec Ideal S64x64 .f32) := by
  reads Gen.hostOps2 <;> rfl
theorem r_hostOps2_v120 (V : Valuation τ sig (Elt Ideal)) : (StableHlo.after Gen.hostOps2 V (Proc.devRef .tc main_v120) : FVec Ideal S1x64 .f32) = (Cert.Spec.brow (V (Proc.devRef .tc main_arg5) : FVec Ideal S64 .f32) : FVec Ideal S1x64 .f32) := by
  reads Gen.hostOps2 <;> rfl

end Cert.KernelIdeal.KStage
end
-- ==== Proof.KStage3.lean ====
/-
  The host operations between the second dense region and the second normalising region, and the one after it, over
  ANY contents of the buffers: the second layer's column statistics, the re-laying and the doubled rows; at the end
  the normalised array laid back as N x 64, the program's result.
-/
import proofs.«133803_j9560597201237_2_alg».proof.Proof.Gen.KernelIdeal.Frame
import proofs.«133803_j9560597201237_2_alg».proof.Proof.Spec
import proofs.«133803_j9560597201237_2_alg».proof.Proof.KStageDefs

set_option maxRecDepth 16384

noncomputable section

namespace Cert.KernelIdeal.KStage

open Idealize.ShloMosaic Idealize.ShloMosaic.TcCoe Idealize.SL.Sem
open Cert.KernelIdeal Cert.KernelIdeal.Facts₀

theorem r_hostOps3_v125 (V : Valuation τ sig (Elt Ideal)) : (StableHlo.after Gen.hostOps3 V (Proc.devRef .tc main_v125) : FVec Ideal S1x64 .f32) = (Cert.Spec.meanRow (V (Proc.devRef .tc main_v121) : FVec Ideal S100000x64 .f32) : FVec Ideal S1x64 .f32) := by
  reads Gen.hostOps3 <;> rfl
theorem r_hostOps3_c_28 (V : Valuation τ sig (Elt Ideal)) : (StableHlo.after Gen.hostOps3 V (Proc.devRef .tc main_c_28) : IVec S_ 32) = (constantI S_ 32 0#32 : IVec S_ 32) := by
  reads Gen.hostOps3 <;> rfl
theorem k_hostOps3_v121 (V : Valuation τ sig (Elt Ideal)) : StableHlo.after Gen.hostOps3 V (Proc.devRef .tc main_v121) = V (Proc.devRef .tc main_v121) := by reads Gen.hostOps3

theorem r_hostOps3_1_v126 (V : Valuation τ sig (Elt Ideal)) : (StableHlo.after Gen.hostOps3_1 V (Proc.devRef .tc main_v126) : FVec Ideal S1x64 .f32) = (varOf (V (Proc.devRef .tc main_v121) : FVec Ideal S100000x64 .f32) (V (Proc.devRef .tc main_c_28) : IVec S_ 32) : FVec Ideal S1x64 .f32) := by
  reads Gen.hostOps3_1
  simp only [cast_cast, cast_eq, id] <;> rfl
theorem k_hostOps3_1_v121 (V : Valuation τ sig (Elt Ideal)) : StableHlo.after Gen.hostOps3_1 V (Proc.devRef .tc main_v121) = V (Proc.devRef .tc main_v121) := by reads Gen.hostOps3_1
theorem k_hostOps3_1_v125 (V : Valuation τ sig (Elt Ideal)) : StableHlo.after Gen.hostOps3_1 V (Proc.devRef .tc main_v125) = V (Proc.devRef .tc main_v125) := by reads Gen.hostOps3_1

theorem r_hostOps3_2_v130 (V : Valuation τ sig (Elt Ideal)) : (StableHlo.after Gen.hostOps3_2 V (Proc.devRef .tc main_v130) : FVec Ideal S50000x128 .f32) = (shapeCast S50000x128 (V (Proc.devRef .tc main_v121) : FVec Ideal S100000x64 .f32) shapeCasts_S100000x64_S50000x128 : FVec Ideal S50000x128 .f32) := by
  reads Gen.hostOps3_2 <;> rfl
theorem r_hostOps3_2_v131 (V : Valuation τ sig (Elt Ideal)) : (StableHlo.after Gen.hostOps3_2 V (Proc.devRef .tc main_v131) : FVec Ideal S1x128 .f32) = (Cert.Spec.twice (V (Proc.devRef .tc main_v125) : FVec Ideal S1x64 .f32) : FVec Ideal S1x128 .f32) := by
  reads Gen.hostOps3_2 <;> rfl
theorem r_hostOps3_2_v132 (V : Valuation τ sig (Elt Ideal)) : (StableHlo.after Gen.hostOps3_2 V (Proc.devRef .tc main_v132) : FVec Ideal S1x128 .f32) = (Cert.Spec.twice (invOf (V (Proc.devRef .tc main_v126) : FVec Ideal S1x64 .f32)) : FVec Ideal S1x128 .f32) := by
  reads Gen.hostOps3_2 <;> rfl

theorem r_hostOps4_v134 (V : Valuation τ sig (Elt Ideal)) : (StableHlo.after Gen.hostOps4 V (Proc.devRef .tc main_v134) : FVec Ideal S100000x64 .f32) = (shapeCast S100000x64 (V (Proc.devRef .tc main_v133) : FVec Ideal S50000x128 .f32) shapeCasts_S50000x128_S100000x64 : FVec Ideal S100000x64 .f32) := by
  reads Gen.hostOps4 <;> rfl

end Cert.KernelIdeal.KStage
end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.LibDenseAt.lean ====
/-
  Dense layers read at an entry, over arbitrary extents.

  A dense layer is a matrix product plus a bias row, optionally followed by a maximum against zero. On the extended
  reals — where a change of float format is the identity and a product into a zero accumulator is the bare sum — a
  layer as a kernel writes it (the product into a zero accumulator, the bias given a unit axis and repeated over the
  rows) and as a host program writes it (the host's product, the bias broadcast in two steps) are both, at entry
  `(p, q)`, the textbook `(∑ k, x (p, k) * w (k, q)) + b q` (`lin`); a maximum against a broadcast zero is the maximum
  with `0`. Stated over arbitrary extents `M K N` and any dimension-number record with the plain contraction lists.
-/
import proofs.«133803_j9560597201237_2_alg».proof.Proof.LibPlainDot
import Idealize.ShloMosaic.Lib.ValueIdx
import Idealize.ShloMosaic.Lib.ValueLayout
import Idealize.ShloMosaic.PureOps.Ideal.Laws

noncomputable section

namespace Cert.DenseAt

open Idealize.ShloMosaic Idealize.ShloMosaic.ValueIdx

/-- The affine map of a dense layer at entry `(p, q)`: the sum over `k` of `x (p, k) * w (k, q)`, plus the bias
    at `q`. -/
def lin {M K N : Nat} (x : (⟨2, ![M, K]⟩ : Shape).Idx → EReal) (w : (⟨2, ![K, N]⟩ : Shape).Idx → EReal)
    (b : (⟨1, ![N]⟩ : Shape).Idx → EReal) (p : Fin M) (q : Fin N) : EReal :=
  (∑ k : Fin K, x (ix2 p k) * w (ix2 k q)) + b (ix1 q)

/-! ## Over arbitrary extents -/

section Generic
variable {M K N : Nat}

/-- A matrix-unit product into the zero accumulator, with plain contraction lists, is at `(p, q)` the sum over
    `k` of the left operand at `(p, k)` times the right at `(k, q)`. -/
theorem matmul_zero_at {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans
    (Cert.LibPlainDot.sum_plain (R := EReal) d hlc hrc hln hrn hlb hrb l r p q)

/-- The host's product with plain contraction lists is at `(p, q)` the same sum. -/
theorem dot_at {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    Host.dotGeneral (F := Ideal) d prec l r (ix2 p q) = ∑ k : Fin K, l (ix2 p k) * r (ix2 k q) :=
  (Ideal.dotGeneral_apply d prec .single l r (ix2 p q)).trans
    (Cert.LibPlainDot.sum_plain (R := EReal) d hlc hrc hln hrn hlb hrb l r p q)

/-- A bias vector given a leading unit axis and then repeated over `M` rows reads, at `(p, q)`, the vector at
    `q`. -/
theorem bias_rows_at {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc 0 q)

/-- The same bias written as two `broadcast_in_dim`s — the vector onto axis 1 of a one-row matrix, that matrix onto
    both axes of an `M`-row one — reads, at `(p, q)`, the vector at `q`. -/
theorem bias_in_dim_at {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => exact (if_pos rfl).symm
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- The scalar zero constant broadcast to a matrix reads `0` at every entry. -/
theorem zero_in_dim_at (h : (⟨0, ![]⟩ : Shape).BroadcastsInDim ⟨2, ![M, N]⟩ ![]) (j : (⟨2, ![M, N]⟩ : Shape).Idx) :
    broadcastInDim ⟨2, ![M, N]⟩ ![] h (constant (F := Ideal) ⟨0, ![]⟩ .f32 0x00000000#32) j = 0 :=
  (broadcastInDim_apply _ h _ j ix0 fun a => a.elim0).trans Ideal.ofBits_zero_f32

end Generic

/-! ## A dense layer on each side, over arbitrary extents -/

section Dense
variable {M K N : Nat}

/-- A maximum against the broadcast scalar zero reads, at any index, the maximum of the operand there and `0`. -/
theorem relu_splat_at {s : Shape} (v : FVec Ideal s .f32) (j : s.Idx) :
    maximumf v (broadcast s (Scalar.ofBits (F := Ideal) .f32 0x00000000#32)) j = max (v j) 0 := by
  rw [maximumf_apply, broadcast_apply]
  show max (v j) (Ideal.ofBits .f32 0x00000000#32) = max (v j) 0
  rw [Ideal.ofBits_zero_f32]

/-- A maximum against the scalar zero constant broadcast to a matrix reads, at any entry, the maximum of the operand
    there and `0`. -/
theorem relu_in_dim_at (v : FVec Ideal ⟨2, ![M, N]⟩ .f32) (h : (⟨0, ![]⟩ : Shape).BroadcastsInDim ⟨2, ![M, N]⟩ ![])
    (j : (⟨2, ![M, N]⟩ : Shape).Idx) :
    maximumf v (broadcastInDim ⟨2, ![M, N]⟩ ![] h (constant (F := Ideal) ⟨0, ![]⟩ .f32 0x00000000#32)) j = max (v j) 0 := by
  rw [maximumf_apply, zero_in_dim_at]

/-- A dense layer as the kernel writes it — the product into a zero accumulator, the bias given a unit axis and
    repeated over the rows, the sum — is `lin` at `(p, q)`. -/
theorem dense_kernel_at {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l r (constant (F := Ideal) ⟨2, ![M, N]⟩ .f32 0x00000000#32))
        (broadcastTo ⟨2, ![M, N]⟩ (shapeCast ⟨2, ![1, N]⟩ b hc) hb) (ix2 p q)
      = lin l r b p q := by
  rw [addf_apply, matmul_zero_at d hlc hrc hln hrn hlb hrb, bias_rows_at]
  rfl

/-- A dense layer as the reference writes it — the host's product, the bias broadcast in two steps, the sum — is
    `lin` at `(p, q)`. -/
theorem dense_ref_at {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) d prec l r)
        (broadcastInDim ⟨2, ![M, N]⟩ ![0, 1] h2 (broadcastInDim ⟨2, ![1, N]⟩ ![1] h1 b)) (ix2 p q)
      = lin l r b p q := by
  rw [addf_apply, dot_at d hlc hrc hln hrn hlb hrb, bias_in_dim_at]
  rfl

end Dense

end Cert.DenseAt

end
-- ==== Proof.RegionValueMm.lean ====
/-
  The dense body read at one entry of its block: with x0, x1, x2 the three loaded 4000 x 64 blocks, w0, w1, w2 the
  three loaded 64 x 64 matrices and b the loaded 1 x 64 row, the stored value at (p, q) is
  max ((((sum_k x0(p,k) w0(k,q)) + sum_k x1(p,k) w1(k,q)) + sum_k x2(p,k) w2(k,q)) + b(0,q)) 0.
  A narrowing of format is the identity on extended reals, a same-shape cast is the identity, a matrix product into a
  zero accumulator is the bare sum over the contracted axis, a row broadcast reads the row at the column, and a maximum
  against a broadcast zero is the maximum with 0.  Stated once for each of the two (textually almost identical) bodies.
-/
import proofs.«133803_j9560597201237_2_alg».proof.Proof.Gen.KernelIdeal.Skeleton
import proofs.«133803_j9560597201237_2_alg».proof.Proof.LibDenseAt
import Idealize.ShloMosaic.Lib.ValueLayout

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Facts₀

/-- The dense body of the first call at entry (p, q). -/
theorem mm_pay0_at (x0 x1 x2 : Vec Ideal S4000x64 .f32) (w0 w1 w2 : Vec Ideal S64x64 .f32) (b : Vec Ideal S1x64 .f32)
    (p : Fin 4000) (q : Fin 64) :
    Gen.k0_pay1 (F := Ideal) x0 x1 x2 w0 w1 w2 b (ix2 p q)
      = max ((((∑ k : Fin 64, x0 (ix2 p k) * w0 (ix2 k q)) + ∑ k : Fin 64, x1 (ix2 p k) * w1 (ix2 k q))
          + ∑ k : Fin 64, x2 (ix2 p k) * w2 (ix2 k q)) + b (ix2 0 q)) 0 := by
  unfold Gen.k0_pay1
  simp only [shapeCast_self]
  rw [Cert.DenseAt.relu_splat_at, addf_apply, addf_apply, addf_apply, broadcastTo_1b_ab_apply,
    Cert.DenseAt.matmul_zero_at _ rfl rfl rfl rfl rfl rfl, Cert.DenseAt.matmul_zero_at _ rfl rfl rfl rfl rfl rfl,
    Cert.DenseAt.matmul_zero_at _ rfl rfl rfl rfl rfl rfl]
  rfl

/-- The dense body of the second call at entry (p, q). -/
theorem mm_pay2_at (x0 x1 x2 : Vec Ideal S4000x64 .f32) (w0 w1 w2 : Vec Ideal S64x64 .f32) (b : Vec Ideal S1x64 .f32)
    (p : Fin 4000) (q : Fin 64) :
    Gen.k2_pay1 (F := Ideal) x0 x1 x2 w0 w1 w2 b (ix2 p q)
      = max ((((∑ k : Fin 64, x0 (ix2 p k) * w0 (ix2 k q)) + ∑ k : Fin 64, x1 (ix2 p k) * w1 (ix2 k q))
          + ∑ k : Fin 64, x2 (ix2 p k) * w2 (ix2 k q)) + b (ix2 0 q)) 0 := by
  unfold Gen.k2_pay1
  simp only [shapeCast_self]
  rw [Cert.DenseAt.relu_splat_at, addf_apply, addf_apply, addf_apply, broadcastTo_1b_ab_apply,
    Cert.DenseAt.matmul_zero_at _ rfl rfl rfl rfl rfl rfl, Cert.DenseAt.matmul_zero_at _ rfl rfl rfl rfl rfl rfl,
    Cert.DenseAt.matmul_zero_at _ rfl rfl rfl rfl rfl rfl]
  rfl

end Cert.KernelIdeal.RegionValue

end
-- ==== Proof.RegionValue0.lean ====
/-
  The array the first dense call leaves: entry (p, q) of the N x 64 result is
  max ((((sum_k x0(p,k) w0(k,q)) + sum_k x1(p,k) w1(k,q)) + sum_k x2(p,k) w2(k,q)) + b(0,q)) 0 of the seven arrays the call
  finds.  Grid point t loads rows 4000 t .. 4000 t + 3999 of the three N x 64 arrays, the three whole matrices and the
  whole bias row, its body stores the block of the result, and the write-back puts it at the same rows; the 25 blocks
  tile the array.
-/
import proofs.«133803_j9560597201237_2_alg».proof.Proof.Gen.KernelIdeal.Frame
import proofs.«133803_j9560597201237_2_alg».proof.Proof.Spec
import proofs.«133803_j9560597201237_2_alg».proof.Proof.RegionValueMm
import Idealize.ShloMosaic.Lib.Pipeline.Value

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Facts₀

variable (V : (c : Dev nD) → (b : Ref sig .tc) → Buf (Elt Ideal) ((c : Thread nD τ).loc b))

/-- The printed index maps over the grid: the three N x 64 arrays and the result move one block of rows per point, the
    matrices and the bias row stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- One entry of the stored block against one entry of the whole-array function, the loaded blocks and the arrays
    variables: x0, x1, x2 are rows 4000 T .. of A0, A1, A2, the matrices and the row are the whole arrays. -/
theorem mm0_block (x0 x1 x2 : Vec Ideal S4000x64 .f32) (w0 w1 w2 : Vec Ideal S64x64 .f32) (b : Vec Ideal S1x64 .f32)
    (A0 A1 A2 : S100000x64.Idx → EReal) (B0 B1 B2 : S64x64.Idx → EReal) (Bb : S1x64.Idx → EReal) (T : Nat)
    (hx0 : ∀ (p : Fin 4000) (k : Fin 64) (i : S100000x64.Idx), (i 0).val = T * 4000 + p.val → (i 1).val = k.val →
      x0 (ix2 p k) = A0 i)
    (hx1 : ∀ (p : Fin 4000) (k : Fin 64) (i : S100000x64.Idx), (i 0).val = T * 4000 + p.val → (i 1).val = k.val →
      x1 (ix2 p k) = A1 i)
    (hx2 : ∀ (p : Fin 4000) (k : Fin 64) (i : S100000x64.Idx), (i 0).val = T * 4000 + p.val → (i 1).val = k.val →
      x2 (ix2 p k) = A2 i)
    (hw0 : w0 = B0) (hw1 : w1 = B1) (hw2 : w2 = B2) (hb : b = Bb)
    (j : S4000x64.Idx) (i : S100000x64.Idx) (h0 : (i 0).val = T * 4000 + (j 0).val) (h1 : (i 1).val = (j 1).val) :
    Gen.k0_pay1 (F := Ideal) x0 x1 x2 w0 w1 w2 b j = Cert.Spec.mm A0 A1 A2 B0 B1 B2 Bb i := by
  obtain ⟨p, q, rfl⟩ : ∃ (p : Fin 4000) (q : Fin 64), j = ix2 p q := ⟨j 0, j 1, eq_ix2 j⟩
  rw [mm_pay0_at]
  subst hw0 hw1 hw2 hb
  have e : (i 1 : Fin 64) = q := Fin.ext h1
  have s0 : ∀ k : Fin 64, x0 (ix2 p k) = A0 (ix2 (i 0 : Fin 100000) k) := fun k => hx0 p k _ h0 rfl
  have s1 : ∀ k : Fin 64, x1 (ix2 p k) = A1 (ix2 (i 0 : Fin 100000) k) := fun k => hx1 p k _ h0 rfl
  have s2 : ∀ k : Fin 64, x2 (ix2 p k) = A2 (ix2 (i 0 : Fin 100000) k) := fun k => hx2 p k _ h0 rfl
  show _ = Cert.Spec.mmAt A0 A1 A2 w0 w1 w2 b (i 0) (i 1)
  unfold Cert.Spec.mmAt
  rw [e]
  simp only [s0, s1, s2]

/-- Window 0's block at point t is rows 4000 t .. of its array. -/
theorem rows0_0 (c : Dev nD) (t : Fin cfg0.N) (p : Fin 4000) (k : Fin 64) (i : S100000x64.Idx)
    (h0 : (i 0).val = t.val * 4000 + p.val) (h1 : (i 1).val = k.val) :
    Gen.iblk0 V c 0 t (ix2 p k) = V c (Pipeline.arrRef spec0 0) i := by
  obtain ⟨e0, e1, e2, e3, e4, e5, e6, e7, e8, e9, e10, e11, e12, e13, e14, e15⟩ := idx0 t
  refine congrArg (V c (Pipeline.arrRef spec0 0)) (funext fun a => Fin.ext ?_)
  match a with
  | ⟨0, _⟩ => show win0_0.index t (0 : Fin 2) * 4000 + 1 * p.val = (i 0).val; omega
  | ⟨1, _⟩ => show win0_0.index t (1 : Fin 2) * 64 + 1 * k.val = (i 1).val; omega

/-- Window 1's block at point t is rows 4000 t .. of its array. -/
theorem rows0_1 (c : Dev nD) (t : Fin cfg0.N) (p : Fin 4000) (k : Fin 64) (i : S100000x64.Idx)
    (h0 : (i 0).val = t.val * 4000 + p.val) (h1 : (i 1).val = k.val) :
    Gen.iblk0 V c 1 t (ix2 p k) = V c (Pipeline.arrRef spec0 1) i := by
  obtain ⟨e0, e1, e2, e3, e4, e5, e6, e7, e8, e9, e10, e11, e12, e13, e14, e15⟩ := idx0 t
  refine congrArg (V c (Pipeline.arrRef spec0 1)) (funext fun a => Fin.ext ?_)
  match a with
  | ⟨0, _⟩ => show win0_1.index t (0 : Fin 2) * 4000 + 1 * p.val = (i 0).val; omega
  | ⟨1, _⟩ => show win0_1.index t (1 : Fin 2) * 64 + 1 * k.val = (i 1).val; omega

/-- Window 2's block at point t is rows 4000 t .. of its array. -/
theorem rows0_2 (c : Dev nD) (t : Fin cfg0.N) (p : Fin 4000) (k : Fin 64) (i : S100000x64.Idx)
    (h0 : (i 0).val = t.val * 4000 + p.val) (h1 : (i 1).val = k.val) :
    Gen.iblk0 V c 2 t (ix2 p k) = V c (Pipeline.arrRef spec0 2) i := by
  obtain ⟨e0, e1, e2, e3, e4, e5, e6, e7, e8, e9, e10, e11, e12, e13, e14, e15⟩ := idx0 t
  refine congrArg (V c (Pipeline.arrRef spec0 2)) (funext fun a => Fin.ext ?_)
  match a with
  | ⟨0, _⟩ => show win0_2.index t (0 : Fin 2) * 4000 + 1 * p.val = (i 0).val; omega
  | ⟨1, _⟩ => show win0_2.index t (1 : Fin 2) * 64 + 1 * k.val = (i 1).val; omega

/-- Window 3's block at every point is its whole array. -/
theorem whole0_3 (c : Dev nD) (t : Fin cfg0.N) :
    (Gen.iblk0 V c 3 t : Vec Ideal S64x64 .f32) = (V c (Pipeline.arrRef spec0 3) : S64x64.Idx → EReal) := by
  obtain ⟨e0, e1, e2, e3, e4, e5, e6, e7, e8, e9, e10, e11, e12, e13, e14, e15⟩ := idx0 t
  funext y
  refine congrArg (V c (Pipeline.arrRef spec0 3)) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Window 4's block at every point is its whole array. -/
theorem whole0_4 (c : Dev nD) (t : Fin cfg0.N) :
    (Gen.iblk0 V c 4 t : Vec Ideal S64x64 .f32) = (V c (Pipeline.arrRef spec0 4) : S64x64.Idx → EReal) := by
  obtain ⟨e0, e1, e2, e3, e4, e5, e6, e7, e8, e9, e10, e11, e12, e13, e14, e15⟩ := idx0 t
  funext y
  refine congrArg (V c (Pipeline.arrRef spec0 4)) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 5's block at every point is its whole array. -/
theorem whole0_5 (c : Dev nD) (t : Fin cfg0.N) :
    (Gen.iblk0 V c 5 t : Vec Ideal S64x64 .f32) = (V c (Pipeline.arrRef spec0 5) : S64x64.Idx → EReal) := by
  obtain ⟨e0, e1, e2, e3, e4, e5, e6, e7, e8, e9, e10, e11, e12, e13, e14, e15⟩ := idx0 t
  funext y
  refine congrArg (V c (Pipeline.arrRef spec0 5)) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- Window 6's block at every point is its whole array. -/
theorem whole0_6 (c : Dev nD) (t : Fin cfg0.N) :
    (Gen.iblk0 V c 6 t : Vec Ideal S1x64 .f32) = (V c (Pipeline.arrRef spec0 6) : S1x64.Idx → EReal) := by
  obtain ⟨e0, e1, e2, e3, e4, e5, e6, e7, e8, e9, e10, e11, e12, e13, e14, e15⟩ := idx0 t
  funext y
  refine congrArg (V c (Pipeline.arrRef spec0 6)) (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- The body's one store, through the whole staging buffer, leaves its payload of the loaded blocks. -/
theorem out0_pay (x0 x1 x2 : Vec Ideal S4000x64 .f32) (w0 w1 w2 : Vec Ideal S64x64 .f32) (b : Vec Ideal S1x64 .f32) :
    Gen.out0_7 (F := Ideal) x0 x1 x2 w0 w1 w2 b = Gen.k0_pay1 x0 x1 x2 w0 w1 w2 b := by
  have hz : (![0, 0] : Fin 2 → Nat) = fun _ => 0 := funext fun a => by fin_cases a <;> rfl
  unfold Gen.out0_7
  rw [View.canon_unit_zero hz]
  simp only [View.ld_unit_zero (S := S4000x64) hz, View.ld_unit_zero (S := S64x64) hz, View.ld_unit_zero (S := S1x64) hz]

/-- Where an entry of the result's block at point t sits in the array: row 4000 t + its row, … -/
theorem emb0_row (t : Fin cfg0.N) (j : ((cfg0.win 7).xblock (grid0.coords t)).Idx) :
    ((((cfg0.win 7).blk t).view.emb j) 0).val = t.val * 4000 + (j 0).val := by
  obtain ⟨e0, e1, e2, e3, e4, e5, e6, e7, e8, e9, e10, e11, e12, e13, e14, e15⟩ := idx0 t
  show win0_7.index t (0 : Fin 2) * 4000 + 1 * (j 0).val = t.val * 4000 + (j 0).val
  omega

/-- … and its own column. -/
theorem emb0_col (t : Fin cfg0.N) (j : ((cfg0.win 7).xblock (grid0.coords t)).Idx) :
    ((((cfg0.win 7).blk t).view.emb j) 1).val = (j 1).val := by
  obtain ⟨e0, e1, e2, e3, e4, e5, e6, e7, e8, e9, e10, e11, e12, e13, e14, e15⟩ := idx0 t
  show win0_7.index t (1 : Fin 2) * 64 + 1 * (j 1).val = (j 1).val
  omega

/-- What point t writes back is the block of ANY whole-array function the payload agrees with entry by entry (the
    function a variable, so that nothing of it is opened here). -/
theorem flushed0_of (c : Dev nD) (t : Fin cfg0.N) (G : S100000x64.Idx → EReal)
    (h : ∀ j : ((cfg0.win 7).xblock (grid0.coords t)).Idx,
      Gen.k0_pay1 (F := Ideal) (Gen.iblk0 V c 0 t) (Gen.iblk0 V c 1 t) (Gen.iblk0 V c 2 t) (Gen.iblk0 V c 3 t) (Gen.iblk0 V c 4 t) (Gen.iblk0 V c 5 t) (Gen.iblk0 V c 6 t) j = G (((cfg0.win 7).blk t).view.emb j)) :
    (Gen.dat0 (F := Ideal) V c).flushed 7 t = ((cfg0.win 7).blk t).view.read (Elt Ideal) G := by
  show (cfg0.win 7).cut (grid0.coords t) ((Gen.dat0 V c).after 7 t) = _
  rw [Gen.after0_7, out0_pay]
  funext j
  exact h j

/-- What point t writes back is block t of the whole-array function. -/
theorem flushed0_eq (c : Dev nD) (t : Fin cfg0.N) :
    (Gen.dat0 (F := Ideal) V c).flushed 7 t = ((cfg0.win 7).blk t).view.read (Elt Ideal)
      (Cert.Spec.mm (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) :=
  flushed0_of V c t _ fun j =>
    mm0_block (Gen.iblk0 V c 0 t) (Gen.iblk0 V c 1 t) (Gen.iblk0 V c 2 t) (Gen.iblk0 V c 3 t) (Gen.iblk0 V c 4 t) (Gen.iblk0 V c 5 t) (Gen.iblk0 V c 6 t)
      (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) t.val
      (rows0_0 V c t) (rows0_1 V c t) (rows0_2 V c t) (whole0_3 V c t) (whole0_4 V c t) (whole0_5 V c t)
      (whole0_6 V c t) j (((cfg0.win 7).blk t).view.emb j) (emb0_row t j) (emb0_col t j)

/-- Every entry of the array is in the block of the point its row names. -/
theorem cover0 (i : S100000x64.Idx) :
    ∃ t : Fin cfg0.N, (cfg0.win 7).flush t = true ∧ i ∈ ((cfg0.win 7).blk t).view.set := by
  have hN : grid0.N = 25 := Gen.N_0
  have hi0 : (i 0).val < 100000 := (i 0).isLt
  have hi1 : (i 1).val < 64 := (i 1).isLt
  have ht : (i 0).val / 4000 < cfg0.N := by show (i 0).val / 4000 < grid0.N; omega
  obtain ⟨e0, e1, e2, e3, e4, e5, e6, e7, e8, e9, e10, e11, e12, e13, e14, e15⟩ := idx0 ⟨(i 0).val / 4000, ht⟩
  have e14' : win0_7.index ⟨(i 0).val / 4000, ht⟩ (0 : Fin 2) = (i 0).val / 4000 := e14
  refine ⟨⟨(i 0).val / 4000, ht⟩, Gen.flush0_7 _, ?_⟩
  show i ∈ ((View.whole main_v69).slice (win0_7.rect ⟨(i 0).val / 4000, ht⟩)).set
  rw [View.set_slice_whole, Rect.mem_set_unit]
  intro a
  match a with
  | ⟨0, _⟩ =>
    show win0_7.index ⟨(i 0).val / 4000, ht⟩ (0 : Fin 2) * 4000 ≤ (i 0).val
      ∧ (i 0).val < win0_7.index ⟨(i 0).val / 4000, ht⟩ (0 : Fin 2) * 4000 + 4000
    omega
  | ⟨1, _⟩ =>
    show win0_7.index ⟨(i 0).val / 4000, ht⟩ (1 : Fin 2) * 64 ≤ (i 1).val
      ∧ (i 1).val < win0_7.index ⟨(i 0).val / 4000, ht⟩ (1 : Fin 2) * 64 + 64
    omega

/-- The array after the call. -/
theorem arr0 (c : Dev nD) : (Gen.dat0 (F := Ideal) V c).arrAt 7 cfg0.N =
    Cert.Spec.mm (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (Gen.dat0 (F := Ideal) V c).arrAt_eq_of_cover 7 _ (fun t _ => flushed0_eq V c t) cover0

end Cert.KernelIdeal.RegionValue

end
-- ==== Proof.RegionValueNm.lean ====
/-
  The normalising body read at one entry of its block: with x the loaded 2000 x 128 block and mu, iv the two
  loaded 1 x 128 rows, the stored value at (p, l) is (x(p, l) - mu(0, l)) * iv(0, l).  The four same-shape casts are the
  identity and a row broadcast reads the row at the lane.  Stated once for the body of the first normalising call and
  once for the (textually identical) body of the second.
-/
import proofs.«133803_j9560597201237_2_alg».proof.Proof.Gen.KernelIdeal.Skeleton
import Idealize.ShloMosaic.Lib.ValueLayout

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Facts₀

/-- The normalising body of the first call at entry (p, l). -/
theorem nm_pay1_at (x : Vec Ideal S2000x128 .f32) (mu iv : Vec Ideal S1x128 .f32) (p : Fin 2000) (l : Fin 128) :
    Gen.k1_pay1 (F := Ideal) x mu iv (ix2 p l) = (x (ix2 p l) - mu (ix2 0 l)) * iv (ix2 0 l) := by
  unfold Gen.k1_pay1
  simp only [shapeCast_self]
  rw [mulf_apply, subf_apply, broadcastTo_1b_ab_apply, broadcastTo_1b_ab_apply]

/-- The normalising body of the second call at entry (p, l). -/
theorem nm_pay3_at (x : Vec Ideal S2000x128 .f32) (mu iv : Vec Ideal S1x128 .f32) (p : Fin 2000) (l : Fin 128) :
    Gen.k3_pay1 (F := Ideal) x mu iv (ix2 p l) = (x (ix2 p l) - mu (ix2 0 l)) * iv (ix2 0 l) := by
  unfold Gen.k3_pay1
  simp only [shapeCast_self]
  rw [mulf_apply, subf_apply, broadcastTo_1b_ab_apply, broadcastTo_1b_ab_apply]

end Cert.KernelIdeal.RegionValue

end
-- ==== Proof.RegionValue1.lean ====
/-
  The array the first normalising call leaves: entry (r, l) of the N/2 x 128 result is (h2(r, l) - mu2(0, l)) * iv2(0, l) of
  the three arrays the call finds.  Grid point t loads rows 2000 t .. 2000 t + 1999 of the array and the two whole rows,
  its body stores the normalised block, and the write-back puts it at the same rows; the 25 blocks tile the array.
-/
import proofs.«133803_j9560597201237_2_alg».proof.Proof.Gen.KernelIdeal.Frame
import proofs.«133803_j9560597201237_2_alg».proof.Proof.Spec
import proofs.«133803_j9560597201237_2_alg».proof.Proof.RegionValueNm
import Idealize.ShloMosaic.Lib.Pipeline.Value

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Facts₀

variable (V : (c : Dev nD) → (b : Ref sig .tc) → Buf (Elt Ideal) ((c : Thread nD τ).loc b))

/-- The printed index maps over the grid: the array and the result move one block of rows per point, the two rows
    stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of the stored block against one entry of the whole-array function, the loaded blocks and the arrays
    variables: x is rows 2000 T .. of A0 (hx), mu and iv are A1 and A2. -/
theorem nm1_block (x : Vec Ideal S2000x128 .f32) (mu iv : Vec Ideal S1x128 .f32)
    (A0 : S50000x128.Idx → EReal) (A1 A2 : S1x128.Idx → EReal) (T : Nat)
    (hx : ∀ (p : Fin 2000) (l : Fin 128) (i : S50000x128.Idx), (i 0).val = T * 2000 + p.val → (i 1).val = l.val →
      x (ix2 p l) = A0 i)
    (hmu : mu = A1) (hiv : iv = A2)
    (j : S2000x128.Idx) (i : S50000x128.Idx) (h0 : (i 0).val = T * 2000 + (j 0).val) (h1 : (i 1).val = (j 1).val) :
    Gen.k1_pay1 (F := Ideal) x mu iv j = Cert.Spec.nm A0 A1 A2 i := by
  obtain ⟨p, l, rfl⟩ : ∃ (p : Fin 2000) (l : Fin 128), j = ix2 p l := ⟨j 0, j 1, eq_ix2 j⟩
  rw [nm_pay1_at, hx p l i h0 h1, hmu, hiv]
  have e : (i 1 : Fin 128) = l := Fin.ext h1
  show (A0 i - A1 (ix2 0 l)) * A2 (ix2 0 l) = (A0 i - A1 (ix2 0 (i 1))) * A2 (ix2 0 (i 1))
  rw [e]

/-- Window 0's block at point t is rows 2000 t .. of its array. -/
theorem rows1_0 (c : Dev nD) (t : Fin cfg1.N) (p : Fin 2000) (l : Fin 128) (i : S50000x128.Idx)
    (h0 : (i 0).val = t.val * 2000 + p.val) (h1 : (i 1).val = l.val) :
    Gen.iblk1 V c 0 t (ix2 p l) = V c (Pipeline.arrRef spec1 0) i := by
  obtain ⟨e0, e1, e2, e3, e4, e5, e6, e7⟩ := idx1 t
  refine congrArg (V c (Pipeline.arrRef spec1 0)) (funext fun a => Fin.ext ?_)
  match a with
  | ⟨0, _⟩ => show win1_0.index t (0 : Fin 2) * 2000 + 1 * p.val = (i 0).val; omega
  | ⟨1, _⟩ => show win1_0.index t (1 : Fin 2) * 128 + 1 * l.val = (i 1).val; omega

/-- Window 1's block at every point is its whole array. -/
theorem whole1_1 (c : Dev nD) (t : Fin cfg1.N) :
    (Gen.iblk1 V c 1 t : Vec Ideal S1x128 .f32) = (V c (Pipeline.arrRef spec1 1) : S1x128.Idx → EReal) := by
  obtain ⟨e0, e1, e2, e3, e4, e5, e6, e7⟩ := idx1 t
  funext y
  refine congrArg (V c (Pipeline.arrRef spec1 1)) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Window 2's block at every point is its whole array. -/
theorem whole1_2 (c : Dev nD) (t : Fin cfg1.N) :
    (Gen.iblk1 V c 2 t : Vec Ideal S1x128 .f32) = (V c (Pipeline.arrRef spec1 2) : S1x128.Idx → EReal) := by
  obtain ⟨e0, e1, e2, e3, e4, e5, e6, e7⟩ := idx1 t
  funext y
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The body's one store, through the whole staging buffer, leaves its payload of the loaded blocks. -/
theorem out1_pay (x : Vec Ideal S2000x128 .f32) (mu iv : Vec Ideal S1x128 .f32) :
    Gen.out1_3 (F := Ideal) x mu iv = Gen.k1_pay1 x mu iv := by
  have hz : (![0, 0] : Fin 2 → Nat) = fun _ => 0 := funext fun a => by fin_cases a <;> rfl
  unfold Gen.out1_3
  rw [View.canon_unit_zero hz]
  simp only [View.ld_unit_zero (S := S2000x128) hz, View.ld_unit_zero (S := S1x128) hz]

/-- Where an entry of the result's block at point t sits in the array: row 2000 t + its row, … -/
theorem emb1_row (t : Fin cfg1.N) (j : ((cfg1.win 3).xblock (grid1.coords t)).Idx) :
    ((((cfg1.win 3).blk t).view.emb j) 0).val = t.val * 2000 + (j 0).val := by
  obtain ⟨e0, e1, e2, e3, e4, e5, e6, e7⟩ := idx1 t
  show win1_3.index t (0 : Fin 2) * 2000 + 1 * (j 0).val = t.val * 2000 + (j 0).val
  omega

/-- … and its own lane. -/
theorem emb1_col (t : Fin cfg1.N) (j : ((cfg1.win 3).xblock (grid1.coords t)).Idx) :
    ((((cfg1.win 3).blk t).view.emb j) 1).val = (j 1).val := by
  obtain ⟨e0, e1, e2, e3, e4, e5, e6, e7⟩ := idx1 t
  show win1_3.index t (1 : Fin 2) * 128 + 1 * (j 1).val = (j 1).val
  omega

/-- What point t writes back is the block of ANY whole-array function the payload agrees with entry by entry (the
    function a variable, so that nothing of it is opened here). -/
theorem flushed1_of (c : Dev nD) (t : Fin cfg1.N) (G : S50000x128.Idx → EReal)
    (h : ∀ j : ((cfg1.win 3).xblock (grid1.coords t)).Idx,
      Gen.k1_pay1 (F := Ideal) (Gen.iblk1 V c 0 t) (Gen.iblk1 V c 1 t) (Gen.iblk1 V c 2 t) j = G (((cfg1.win 3).blk t).view.emb j)) :
    (Gen.dat1 (F := Ideal) V c).flushed 3 t = ((cfg1.win 3).blk t).view.read (Elt Ideal) G := by
  show (cfg1.win 3).cut (grid1.coords t) ((Gen.dat1 V c).after 3 t) = _
  rw [Gen.after1_3, out1_pay]
  funext j
  exact h j

/-- What point t writes back is block t of the whole-array function. -/
theorem flushed1_eq (c : Dev nD) (t : Fin cfg1.N) :
    (Gen.dat1 (F := Ideal) V c).flushed 3 t = ((cfg1.win 3).blk t).view.read (Elt Ideal)
      (Cert.Spec.nm (V c (Pipeline.arrRef spec1 0)) (V c (Pipeline.arrRef spec1 1)) (V c (Pipeline.arrRef spec1 2))) :=
  flushed1_of V c t _ fun j =>
    nm1_block (Gen.iblk1 V c 0 t) (Gen.iblk1 V c 1 t) (Gen.iblk1 V c 2 t)
      (V c (Pipeline.arrRef spec1 0)) (V c (Pipeline.arrRef spec1 1)) (V c (Pipeline.arrRef spec1 2)) t.val
      (rows1_0 V c t) (whole1_1 V c t) (whole1_2 V c t) j (((cfg1.win 3).blk t).view.emb j)
      (emb1_row t j) (emb1_col t j)

/-- Every entry of the array is in the block of the point its row names. -/
theorem cover1 (i : S50000x128.Idx) :
    ∃ t : Fin cfg1.N, (cfg1.win 3).flush t = true ∧ i ∈ ((cfg1.win 3).blk t).view.set := by
  have hN : grid1.N = 25 := Gen.N_1
  have hi0 : (i 0).val < 50000 := (i 0).isLt
  have hi1 : (i 1).val < 128 := (i 1).isLt
  have ht : (i 0).val / 2000 < cfg1.N := by show (i 0).val / 2000 < grid1.N; omega
  obtain ⟨e0, e1, e2, e3, e4, e5, e6, e7⟩ := idx1 ⟨(i 0).val / 2000, ht⟩
  have e6' : win1_3.index ⟨(i 0).val / 2000, ht⟩ (0 : Fin 2) = (i 0).val / 2000 := e6
  refine ⟨⟨(i 0).val / 2000, ht⟩, Gen.flush1_3 _, ?_⟩
  show i ∈ ((View.whole main_v81).slice (win1_3.rect ⟨(i 0).val / 2000, ht⟩)).set
  rw [View.set_slice_whole, Rect.mem_set_unit]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    omega

/-- The array after the call. -/
theorem arr1 (c : Dev nD) : (Gen.dat1 (F := Ideal) V c).arrAt 3 cfg1.N =
    Cert.Spec.nm (V c (Pipeline.arrRef spec1 0)) (V c (Pipeline.arrRef spec1 1)) (V c (Pipeline.arrRef spec1 2)) :=
  (Gen.dat1 (F := Ideal) V c).arrAt_eq_of_cover 3 _ (fun t _ => flushed1_eq V c t) cover1

end Cert.KernelIdeal.RegionValue

end
-- ==== Proof.RegionValue2.lean ====
/-
  The array the second dense call leaves: entry (p, q) of the N x 64 result is
  max ((((sum_k x0(p,k) w0(k,q)) + sum_k x1(p,k) w1(k,q)) + sum_k x2(p,k) w2(k,q)) + b(0,q)) 0 of the seven arrays the call
  finds.  Grid point t loads rows 4000 t .. 4000 t + 3999 of the three N x 64 arrays, the three whole matrices and the
  whole bias row, its body stores the block of the result, and the write-back puts it at the same rows; the 25 blocks
  tile the array.
-/
import proofs.«133803_j9560597201237_2_alg».proof.Proof.Gen.KernelIdeal.Frame
import proofs.«133803_j9560597201237_2_alg».proof.Proof.Spec
import proofs.«133803_j9560597201237_2_alg».proof.Proof.RegionValueMm
import Idealize.ShloMosaic.Lib.Pipeline.Value

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Facts₀

variable (V : (c : Dev nD) → (b : Ref sig .tc) → Buf (Elt Ideal) ((c : Thread nD τ).loc b))

/-- The printed index maps over the grid: the three N x 64 arrays and the result move one block of rows per point, the
    matrices and the bias row stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- One entry of the stored block against one entry of the whole-array function, the loaded blocks and the arrays
    variables: x0, x1, x2 are rows 4000 T .. of A0, A1, A2, the matrices and the row are the whole arrays. -/
theorem mm2_block (x0 x1 x2 : Vec Ideal S4000x64 .f32) (w0 w1 w2 : Vec Ideal S64x64 .f32) (b : Vec Ideal S1x64 .f32)
    (A0 A1 A2 : S100000x64.Idx → EReal) (B0 B1 B2 : S64x64.Idx → EReal) (Bb : S1x64.Idx → EReal) (T : Nat)
    (hx0 : ∀ (p : Fin 4000) (k : Fin 64) (i : S100000x64.Idx), (i 0).val = T * 4000 + p.val → (i 1).val = k.val →
      x0 (ix2 p k) = A0 i)
    (hx1 : ∀ (p : Fin 4000) (k : Fin 64) (i : S100000x64.Idx), (i 0).val = T * 4000 + p.val → (i 1).val = k.val →
      x1 (ix2 p k) = A1 i)
    (hx2 : ∀ (p : Fin 4000) (k : Fin 64) (i : S100000x64.Idx), (i 0).val = T * 4000 + p.val → (i 1).val = k.val →
      x2 (ix2 p k) = A2 i)
    (hw0 : w0 = B0) (hw1 : w1 = B1) (hw2 : w2 = B2) (hb : b = Bb)
    (j : S4000x64.Idx) (i : S100000x64.Idx) (h0 : (i 0).val = T * 4000 + (j 0).val) (h1 : (i 1).val = (j 1).val) :
    Gen.k2_pay1 (F := Ideal) x0 x1 x2 w0 w1 w2 b j = Cert.Spec.mm A0 A1 A2 B0 B1 B2 Bb i := by
  obtain ⟨p, q, rfl⟩ : ∃ (p : Fin 4000) (q : Fin 64), j = ix2 p q := ⟨j 0, j 1, eq_ix2 j⟩
  rw [mm_pay2_at]
  subst hw0 hw1 hw2 hb
  have e : (i 1 : Fin 64) = q := Fin.ext h1
  have s0 : ∀ k : Fin 64, x0 (ix2 p k) = A0 (ix2 (i 0 : Fin 100000) k) := fun k => hx0 p k _ h0 rfl
  have s1 : ∀ k : Fin 64, x1 (ix2 p k) = A1 (ix2 (i 0 : Fin 100000) k) := fun k => hx1 p k _ h0 rfl
  have s2 : ∀ k : Fin 64, x2 (ix2 p k) = A2 (ix2 (i 0 : Fin 100000) k) := fun k => hx2 p k _ h0 rfl
  show _ = Cert.Spec.mmAt A0 A1 A2 w0 w1 w2 b (i 0) (i 1)
  unfold Cert.Spec.mmAt
  rw [e]
  simp only [s0, s1, s2]

/-- Window 0's block at point t is rows 4000 t .. of its array. -/
theorem rows2_0 (c : Dev nD) (t : Fin cfg2.N) (p : Fin 4000) (k : Fin 64) (i : S100000x64.Idx)
    (h0 : (i 0).val = t.val * 4000 + p.val) (h1 : (i 1).val = k.val) :
    Gen.iblk2 V c 0 t (ix2 p k) = V c (Pipeline.arrRef spec2 0) i := by
  obtain ⟨e0, e1, e2, e3, e4, e5, e6, e7, e8, e9, e10, e11, e12, e13, e14, e15⟩ := idx2 t
  refine congrArg (V c (Pipeline.arrRef spec2 0)) (funext fun a => Fin.ext ?_)
  match a with
  | ⟨0, _⟩ => show win2_0.index t (0 : Fin 2) * 4000 + 1 * p.val = (i 0).val; omega
  | ⟨1, _⟩ => show win2_0.index t (1 : Fin 2) * 64 + 1 * k.val = (i 1).val; omega

/-- Window 1's block at point t is rows 4000 t .. of its array. -/
theorem rows2_1 (c : Dev nD) (t : Fin cfg2.N) (p : Fin 4000) (k : Fin 64) (i : S100000x64.Idx)
    (h0 : (i 0).val = t.val * 4000 + p.val) (h1 : (i 1).val = k.val) :
    Gen.iblk2 V c 1 t (ix2 p k) = V c (Pipeline.arrRef spec2 1) i := by
  obtain ⟨e0, e1, e2, e3, e4, e5, e6, e7, e8, e9, e10, e11, e12, e13, e14, e15⟩ := idx2 t
  refine congrArg (V c (Pipeline.arrRef spec2 1)) (funext fun a => Fin.ext ?_)
  match a with
  | ⟨0, _⟩ => show win2_1.index t (0 : Fin 2) * 4000 + 1 * p.val = (i 0).val; omega
  | ⟨1, _⟩ => show win2_1.index t (1 : Fin 2) * 64 + 1 * k.val = (i 1).val; omega

/-- Window 2's block at point t is rows 4000 t .. of its array. -/
theorem rows2_2 (c : Dev nD) (t : Fin cfg2.N) (p : Fin 4000) (k : Fin 64) (i : S100000x64.Idx)
    (h0 : (i 0).val = t.val * 4000 + p.val) (h1 : (i 1).val = k.val) :
    Gen.iblk2 V c 2 t (ix2 p k) = V c (Pipeline.arrRef spec2 2) i := by
  obtain ⟨e0, e1, e2, e3, e4, e5, e6, e7, e8, e9, e10, e11, e12, e13, e14, e15⟩ := idx2 t
  refine congrArg (V c (Pipeline.arrRef spec2 2)) (funext fun a => Fin.ext ?_)
  match a with
  | ⟨0, _⟩ => show win2_2.index t (0 : Fin 2) * 4000 + 1 * p.val = (i 0).val; omega
  | ⟨1, _⟩ => show win2_2.index t (1 : Fin 2) * 64 + 1 * k.val = (i 1).val; omega

/-- Window 3's block at every point is its whole array. -/
theorem whole2_3 (c : Dev nD) (t : Fin cfg2.N) :
    (Gen.iblk2 V c 3 t : Vec Ideal S64x64 .f32) = (V c (Pipeline.arrRef spec2 3) : S64x64.Idx → EReal) := by
  obtain ⟨e0, e1, e2, e3, e4, e5, e6, e7, e8, e9, e10, e11, e12, e13, e14, e15⟩ := idx2 t
  funext y
  refine congrArg (V c (Pipeline.arrRef spec2 3)) (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Window 4's block at every point is its whole array. -/
theorem whole2_4 (c : Dev nD) (t : Fin cfg2.N) :
    (Gen.iblk2 V c 4 t : Vec Ideal S64x64 .f32) = (V c (Pipeline.arrRef spec2 4) : S64x64.Idx → EReal) := by
  obtain ⟨e0, e1, e2, e3, e4, e5, e6, e7, e8, e9, e10, e11, e12, e13, e14, e15⟩ := idx2 t
  funext y
  refine congrArg (V c (Pipeline.arrRef spec2 4)) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- Window 5's block at every point is its whole array. -/
theorem whole2_5 (c : Dev nD) (t : Fin cfg2.N) :
    (Gen.iblk2 V c 5 t : Vec Ideal S64x64 .f32) = (V c (Pipeline.arrRef spec2 5) : S64x64.Idx → EReal) := by
  obtain ⟨e0, e1, e2, e3, e4, e5, e6, e7, e8, e9, e10, e11, e12, e13, e14, e15⟩ := idx2 t
  funext y
  refine congrArg (V c (Pipeline.arrRef spec2 5)) (funext fun a => Fin.ext ?_)
  match a with
  | ⟨0, _⟩ => show win2_5.index t (0 : Fin 2) * 64 + 1 * (y 0).val = (y 0).val; omega
  | ⟨1, _⟩ => show win2_5.index t (1 : Fin 2) * 64 + 1 * (y 1).val = (y 1).val; omega

/-- Window 6's block at every point is its whole array. -/
theorem whole2_6 (c : Dev nD) (t : Fin cfg2.N) :
    (Gen.iblk2 V c 6 t : Vec Ideal S1x64 .f32) = (V c (Pipeline.arrRef spec2 6) : S1x64.Idx → EReal) := by
  obtain ⟨e0, e1, e2, e3, e4, e5, e6, e7, e8, e9, e10, e11, e12, e13, e14, e15⟩ := idx2 t
  funext y
  refine congrArg (V c (Pipeline.arrRef spec2 6)) (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

/-- The body's one store, through the whole staging buffer, leaves its payload of the loaded blocks. -/
theorem out2_pay (x0 x1 x2 : Vec Ideal S4000x64 .f32) (w0 w1 w2 : Vec Ideal S64x64 .f32) (b : Vec Ideal S1x64 .f32) :
    Gen.out2_7 (F := Ideal) x0 x1 x2 w0 w1 w2 b = Gen.k2_pay1 x0 x1 x2 w0 w1 w2 b := by
  have hz : (![0, 0] : Fin 2 → Nat) = fun _ => 0 := funext fun a => by fin_cases a <;> rfl
  unfold Gen.out2_7
  rw [View.canon_unit_zero hz]
  simp only [View.ld_unit_zero (S := S4000x64) hz, View.ld_unit_zero (S := S64x64) hz, View.ld_unit_zero (S := S1x64) hz]

/-- Where an entry of the result's block at point t sits in the array: row 4000 t + its row, … -/
theorem emb2_row (t : Fin cfg2.N) (j : ((cfg2.win 7).xblock (grid2.coords t)).Idx) :
    ((((cfg2.win 7).blk t).view.emb j) 0).val = t.val * 4000 + (j 0).val := by
  obtain ⟨e0, e1, e2, e3, e4, e5, e6, e7, e8, e9, e10, e11, e12, e13, e14, e15⟩ := idx2 t
  show win2_7.index t (0 : Fin 2) * 4000 + 1 * (j 0).val = t.val * 4000 + (j 0).val
  omega

/-- … and its own column. -/
theorem emb2_col (t : Fin cfg2.N) (j : ((cfg2.win 7).xblock (grid2.coords t)).Idx) :
    ((((cfg2.win 7).blk t).view.emb j) 1).val = (j 1).val := by
  obtain ⟨e0, e1, e2, e3, e4, e5, e6, e7, e8, e9, e10, e11, e12, e13, e14, e15⟩ := idx2 t
  show win2_7.index t (1 : Fin 2) * 64 + 1 * (j 1).val = (j 1).val
  omega

/-- What point t writes back is the block of ANY whole-array function the payload agrees with entry by entry (the
    function a variable, so that nothing of it is opened here). -/
theorem flushed2_of (c : Dev nD) (t : Fin cfg2.N) (G : S100000x64.Idx → EReal)
    (h : ∀ j : ((cfg2.win 7).xblock (grid2.coords t)).Idx,
      Gen.k2_pay1 (F := Ideal) (Gen.iblk2 V c 0 t) (Gen.iblk2 V c 1 t) (Gen.iblk2 V c 2 t) (Gen.iblk2 V c 3 t) (Gen.iblk2 V c 4 t) (Gen.iblk2 V c 5 t) (Gen.iblk2 V c 6 t) j = G (((cfg2.win 7).blk t).view.emb j)) :
    (Gen.dat2 (F := Ideal) V c).flushed 7 t = ((cfg2.win 7).blk t).view.read (Elt Ideal) G := by
  show (cfg2.win 7).cut (grid2.coords t) ((Gen.dat2 V c).after 7 t) = _
  rw [Gen.after2_7, out2_pay]
  funext j
  exact h j

/-- What point t writes back is block t of the whole-array function. -/
theorem flushed2_eq (c : Dev nD) (t : Fin cfg2.N) :
    (Gen.dat2 (F := Ideal) V c).flushed 7 t = ((cfg2.win 7).blk t).view.read (Elt Ideal)
      (Cert.Spec.mm (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) :=
  flushed2_of V c t _ fun j =>
    mm2_block (Gen.iblk2 V c 0 t) (Gen.iblk2 V c 1 t) (Gen.iblk2 V c 2 t) (Gen.iblk2 V c 3 t) (Gen.iblk2 V c 4 t) (Gen.iblk2 V c 5 t) (Gen.iblk2 V c 6 t)
      (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) t.val
      (rows2_0 V c t) (rows2_1 V c t) (rows2_2 V c t) (whole2_3 V c t) (whole2_4 V c t) (whole2_5 V c t)
      (whole2_6 V c t) j (((cfg2.win 7).blk t).view.emb j) (emb2_row t j) (emb2_col t j)

/-- Every entry of the array is in the block of the point its row names. -/
theorem cover2 (i : S100000x64.Idx) :
    ∃ t : Fin cfg2.N, (cfg2.win 7).flush t = true ∧ i ∈ ((cfg2.win 7).blk t).view.set := by
  have hN : grid2.N = 25 := Gen.N_2
  have hi0 : (i 0).val < 100000 := (i 0).isLt
  have hi1 : (i 1).val < 64 := (i 1).isLt
  have ht : (i 0).val / 4000 < cfg2.N := by show (i 0).val / 4000 < grid2.N; omega
  obtain ⟨e0, e1, e2, e3, e4, e5, e6, e7, e8, e9, e10, e11, e12, e13, e14, e15⟩ := idx2 ⟨(i 0).val / 4000, ht⟩
  have e14' : win2_7.index ⟨(i 0).val / 4000, ht⟩ (0 : Fin 2) = (i 0).val / 4000 := e14
  refine ⟨⟨(i 0).val / 4000, ht⟩, Gen.flush2_7 _, ?_⟩
  show i ∈ ((View.whole main_v121).slice (win2_7.rect ⟨(i 0).val / 4000, ht⟩)).set
  rw [View.set_slice_whole, Rect.mem_set_unit]
  intro a
  match a with
  | ⟨0, _⟩ =>
    show win2_7.index ⟨(i 0).val / 4000, ht⟩ (0 : Fin 2) * 4000 ≤ (i 0).val
      ∧ (i 0).val < win2_7.index ⟨(i 0).val / 4000, ht⟩ (0 : Fin 2) * 4000 + 4000
    omega
  | ⟨1, _⟩ =>
    show win2_7.index ⟨(i 0).val / 4000, ht⟩ (1 : Fin 2) * 64 ≤ (i 1).val
      ∧ (i 1).val < win2_7.index ⟨(i 0).val / 4000, ht⟩ (1 : Fin 2) * 64 + 64
    omega

/-- The array after the call. -/
theorem arr2 (c : Dev nD) : (Gen.dat2 (F := Ideal) V c).arrAt 7 cfg2.N =
    Cert.Spec.mm (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (Gen.dat2 (F := Ideal) V c).arrAt_eq_of_cover 7 _ (fun t _ => flushed2_eq V c t) cover2

end Cert.KernelIdeal.RegionValue

end
-- ==== Proof.RegionValue3.lean ====
/-
  The array the second normalising call leaves: entry (r, l) of the N/2 x 128 result is (h2(r, l) - mu2(0, l)) * iv2(0, l) of
  the three arrays the call finds.  Grid point t loads rows 2000 t .. 2000 t + 1999 of the array and the two whole rows,
  its body stores the normalised block, and the write-back puts it at the same rows; the 25 blocks tile the array.
-/
import proofs.«133803_j9560597201237_2_alg».proof.Proof.Gen.KernelIdeal.Frame
import proofs.«133803_j9560597201237_2_alg».proof.Proof.Spec
import proofs.«133803_j9560597201237_2_alg».proof.Proof.RegionValueNm
import Idealize.ShloMosaic.Lib.Pipeline.Value

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Facts₀

variable (V : (c : Dev nD) → (b : Ref sig .tc) → Buf (Elt Ideal) ((c : Thread nD τ).loc b))

/-- The printed index maps over the grid: the array and the result move one block of rows per point, the two rows
    stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of the stored block against one entry of the whole-array function, the loaded blocks and the arrays
    variables: x is rows 2000 T .. of A0 (hx), mu and iv are A1 and A2. -/
theorem nm3_block (x : Vec Ideal S2000x128 .f32) (mu iv : Vec Ideal S1x128 .f32)
    (A0 : S50000x128.Idx → EReal) (A1 A2 : S1x128.Idx → EReal) (T : Nat)
    (hx : ∀ (p : Fin 2000) (l : Fin 128) (i : S50000x128.Idx), (i 0).val = T * 2000 + p.val → (i 1).val = l.val →
      x (ix2 p l) = A0 i)
    (hmu : mu = A1) (hiv : iv = A2)
    (j : S2000x128.Idx) (i : S50000x128.Idx) (h0 : (i 0).val = T * 2000 + (j 0).val) (h1 : (i 1).val = (j 1).val) :
    Gen.k3_pay1 (F := Ideal) x mu iv j = Cert.Spec.nm A0 A1 A2 i := by
  obtain ⟨p, l, rfl⟩ : ∃ (p : Fin 2000) (l : Fin 128), j = ix2 p l := ⟨j 0, j 1, eq_ix2 j⟩
  rw [nm_pay3_at, hx p l i h0 h1, hmu, hiv]
  have e : (i 1 : Fin 128) = l := Fin.ext h1
  show (A0 i - A1 (ix2 0 l)) * A2 (ix2 0 l) = (A0 i - A1 (ix2 0 (i 1))) * A2 (ix2 0 (i 1))
  rw [e]

/-- Window 0's block at point t is rows 2000 t .. of its array. -/
theorem rows3_0 (c : Dev nD) (t : Fin cfg3.N) (p : Fin 2000) (l : Fin 128) (i : S50000x128.Idx)
    (h0 : (i 0).val = t.val * 2000 + p.val) (h1 : (i 1).val = l.val) :
    Gen.iblk3 V c 0 t (ix2 p l) = V c (Pipeline.arrRef spec3 0) i := by
  obtain ⟨e0, e1, e2, e3, e4, e5, e6, e7⟩ := idx3 t
  refine congrArg (V c (Pipeline.arrRef spec3 0)) (funext fun a => Fin.ext ?_)
  match a with
  | ⟨0, _⟩ => show win3_0.index t (0 : Fin 2) * 2000 + 1 * p.val = (i 0).val; omega
  | ⟨1, _⟩ => show win3_0.index t (1 : Fin 2) * 128 + 1 * l.val = (i 1).val; omega

/-- Window 1's block at every point is its whole array. -/
theorem whole3_1 (c : Dev nD) (t : Fin cfg3.N) :
    (Gen.iblk3 V c 1 t : Vec Ideal S1x128 .f32) = (V c (Pipeline.arrRef spec3 1) : S1x128.Idx → EReal) := by
  obtain ⟨e0, e1, e2, e3, e4, e5, e6, e7⟩ := idx3 t
  funext y
  refine congrArg (V c (Pipeline.arrRef spec3 1)) (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Window 2's block at every point is its whole array. -/
theorem whole3_2 (c : Dev nD) (t : Fin cfg3.N) :
    (Gen.iblk3 V c 2 t : Vec Ideal S1x128 .f32) = (V c (Pipeline.arrRef spec3 2) : S1x128.Idx → EReal) := by
  obtain ⟨e0, e1, e2, e3, e4, e5, e6, e7⟩ := idx3 t
  funext y
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The body's one store, through the whole staging buffer, leaves its payload of the loaded blocks. -/
theorem out3_pay (x : Vec Ideal S2000x128 .f32) (mu iv : Vec Ideal S1x128 .f32) :
    Gen.out3_3 (F := Ideal) x mu iv = Gen.k3_pay1 x mu iv := by
  have hz : (![0, 0] : Fin 2 → Nat) = fun _ => 0 := funext fun a => by fin_cases a <;> rfl
  unfold Gen.out3_3
  rw [View.canon_unit_zero hz]
  simp only [View.ld_unit_zero (S := S2000x128) hz, View.ld_unit_zero (S := S1x128) hz]

/-- Where an entry of the result's block at point t sits in the array: row 2000 t + its row, … -/
theorem emb3_row (t : Fin cfg3.N) (j : ((cfg3.win 3).xblock (grid3.coords t)).Idx) :
    ((((cfg3.win 3).blk t).view.emb j) 0).val = t.val * 2000 + (j 0).val := by
  obtain ⟨e0, e1, e2, e3, e4, e5, e6, e7⟩ := idx3 t
  show win3_3.index t (0 : Fin 2) * 2000 + 1 * (j 0).val = t.val * 2000 + (j 0).val
  omega

/-- … and its own lane. -/
theorem emb3_col (t : Fin cfg3.N) (j : ((cfg3.win 3).xblock (grid3.coords t)).Idx) :
    ((((cfg3.win 3).blk t).view.emb j) 1).val = (j 1).val := by
  obtain ⟨e0, e1, e2, e3, e4, e5, e6, e7⟩ := idx3 t
  show win3_3.index t (1 : Fin 2) * 128 + 1 * (j 1).val = (j 1).val
  omega

/-- What point t writes back is the block of ANY whole-array function the payload agrees with entry by entry (the
    function a variable, so that nothing of it is opened here). -/
theorem flushed3_of (c : Dev nD) (t : Fin cfg3.N) (G : S50000x128.Idx → EReal)
    (h : ∀ j : ((cfg3.win 3).xblock (grid3.coords t)).Idx,
      Gen.k3_pay1 (F := Ideal) (Gen.iblk3 V c 0 t) (Gen.iblk3 V c 1 t) (Gen.iblk3 V c 2 t) j = G (((cfg3.win 3).blk t).view.emb j)) :
    (Gen.dat3 (F := Ideal) V c).flushed 3 t = ((cfg3.win 3).blk t).view.read (Elt Ideal) G := by
  show (cfg3.win 3).cut (grid3.coords t) ((Gen.dat3 V c).after 3 t) = _
  rw [Gen.after3_3, out3_pay]
  funext j
  exact h j

/-- What point t writes back is block t of the whole-array function. -/
theorem flushed3_eq (c : Dev nD) (t : Fin cfg3.N) :
    (Gen.dat3 (F := Ideal) V c).flushed 3 t = ((cfg3.win 3).blk t).view.read (Elt Ideal)
      (Cert.Spec.nm (V c (Pipeline.arrRef spec3 0)) (V c (Pipeline.arrRef spec3 1)) (V c (Pipeline.arrRef spec3 2))) :=
  flushed3_of V c t _ fun j =>
    nm3_block (Gen.iblk3 V c 0 t) (Gen.iblk3 V c 1 t) (Gen.iblk3 V c 2 t)
      (V c (Pipeline.arrRef spec3 0)) (V c (Pipeline.arrRef spec3 1)) (V c (Pipeline.arrRef spec3 2)) t.val
      (rows3_0 V c t) (whole3_1 V c t) (whole3_2 V c t) j (((cfg3.win 3).blk t).view.emb j)
      (emb3_row t j) (emb3_col t j)

/-- Every entry of the array is in the block of the point its row names. -/
theorem cover3 (i : S50000x128.Idx) :
    ∃ t : Fin cfg3.N, (cfg3.win 3).flush t = true ∧ i ∈ ((cfg3.win 3).blk t).view.set := by
  have hN : grid3.N = 25 := Gen.N_3
  have hi0 : (i 0).val < 50000 := (i 0).isLt
  have hi1 : (i 1).val < 128 := (i 1).isLt
  have ht : (i 0).val / 2000 < cfg3.N := by show (i 0).val / 2000 < grid3.N; omega
  obtain ⟨e0, e1, e2, e3, e4, e5, e6, e7⟩ := idx3 ⟨(i 0).val / 2000, ht⟩
  have e6' : win3_3.index ⟨(i 0).val / 2000, ht⟩ (0 : Fin 2) = (i 0).val / 2000 := e6
  refine ⟨⟨(i 0).val / 2000, ht⟩, Gen.flush3_3 _, ?_⟩
  show i ∈ ((View.whole main_v133).slice (win3_3.rect ⟨(i 0).val / 2000, ht⟩)).set
  rw [View.set_slice_whole, Rect.mem_set_unit]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    omega

/-- The array after the call. -/
theorem arr3 (c : Dev nD) : (Gen.dat3 (F := Ideal) V c).arrAt 3 cfg3.N =
    Cert.Spec.nm (V c (Pipeline.arrRef spec3 0)) (V c (Pipeline.arrRef spec3 1)) (V c (Pipeline.arrRef spec3 2)) :=
  (Gen.dat3 (F := Ideal) V c).arrAt_eq_of_cover 3 _ (fun t _ => flushed3_eq V c t) cover3

end Cert.KernelIdeal.RegionValue

end
-- ==== Proof.RegionValue.lean ====
/-
  What each of the kernel program's four calls leaves in its output array, as one function of the arrays the call
  finds (the buffer contents V when the call is entered):
    arr0, arr2 : the two dense calls leave  mm x0 x1 x2 w0 w1 w2 b  (entry (p, q):
                 max ((((sum_k x0(p,k) w0(k,q)) + sum_k x1(p,k) w1(k,q)) + sum_k x2(p,k) w2(k,q)) + b(0,q)) 0),
    arr1, arr3 : the two normalising calls leave  nm h2 mu2 iv2  (entry (r, l): (h2(r,l) - mu2(0,l)) * iv2(0,l)).
  Each is proved in its own module: the body's stored value at one entry, each loaded block as rows of its array, the
  write-back's position, and the 25 row blocks tiling the array.
-/
import proofs.«133803_j9560597201237_2_alg».proof.Proof.RegionValue0
import proofs.«133803_j9560597201237_2_alg».proof.Proof.RegionValue1
import proofs.«133803_j9560597201237_2_alg».proof.Proof.RegionValue2
import proofs.«133803_j9560597201237_2_alg».proof.Proof.RegionValue3

namespace Cert.KernelIdeal.RegionValue

open Idealize.ShloMosaic Idealize.ShloMosaic.TcCoe Idealize.SL.Sem Cert.KernelIdeal

-- The four statements, each closed by the theorem its module proves.
example (V : (c : Dev nD) → (b : Ref sig .tc) → Buf (Elt Ideal) ((c : Thread nD τ).loc b)) (c : Dev nD) :
    (Gen.dat0 (F := Ideal) V c).arrAt 7 cfg0.N =
      Cert.Spec.mm (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) := arr0 V c
example (V : (c : Dev nD) → (b : Ref sig .tc) → Buf (Elt Ideal) ((c : Thread nD τ).loc b)) (c : Dev nD) :
    (Gen.dat1 (F := Ideal) V c).arrAt 3 cfg1.N =
      Cert.Spec.nm (V c (Pipeline.arrRef spec1 0)) (V c (Pipeline.arrRef spec1 1)) (V c (Pipeline.arrRef spec1 2)) :=
  arr1 V c
example (V : (c : Dev nD) → (b : Ref sig .tc) → Buf (Elt Ideal) ((c : Thread nD τ).loc b)) (c : Dev nD) :
    (Gen.dat2 (F := Ideal) V c).arrAt 7 cfg2.N =
      Cert.Spec.mm (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) := arr2 V c
example (V : (c : Dev nD) → (b : Ref sig .tc) → Buf (Elt Ideal) ((c : Thread nD τ).loc b)) (c : Dev nD) :
    (Gen.dat3 (F := Ideal) V c).arrAt 3 cfg3.N =
      Cert.Spec.nm (V c (Pipeline.arrRef spec3 0)) (V c (Pipeline.arrRef spec3 1)) (V c (Pipeline.arrRef spec3 2)) :=
  arr3 V c

end Cert.KernelIdeal.RegionValue
-- ==== Proof.KChain.lean ====
/-
  The idealized kernel's result as ONE function of the argument arrays: the launch memory carried through the
  thirteen host stretches and the four regions, boundary by boundary. At each boundary the buffers still needed are
  named at their values in the specification's vocabulary: after the first dense region the array is
  denseK x, after the first normalising region (laid back) it is layerK x, the second layer's input; and so on to the
  result, layerK (layerK x).
-/
import proofs.«133803_j9560597201237_2_alg».proof.Proof.Gen.KernelIdeal.Frame
import proofs.«133803_j9560597201237_2_alg».proof.Proof.Spec
import proofs.«133803_j9560597201237_2_alg».proof.Proof.KStageDefs
import proofs.«133803_j9560597201237_2_alg».proof.Proof.KStage0
import proofs.«133803_j9560597201237_2_alg».proof.Proof.KStage1
import proofs.«133803_j9560597201237_2_alg».proof.Proof.KStage2
import proofs.«133803_j9560597201237_2_alg».proof.Proof.KStage3
import proofs.«133803_j9560597201237_2_alg».proof.Proof.RegionValue

set_option maxRecDepth 16384

noncomputable section

namespace Cert.KernelIdeal.KStage

open Idealize.ShloMosaic Idealize.ShloMosaic.TcCoe Idealize.SL.Sem
open Cert.KernelIdeal Cert.KernelIdeal.Facts₀

variable (m : (ℓ : Loc nD τ sig) → Buf (Elt Ideal) ℓ) (ρ : Dev nD → PrngReg) (c : Dev nD)

/-- The launch contents of the six arguments. -/
abbrev aX : FVec Ideal S100000x64 .f32 := m ((c : Thread nD τ).loc main_arg0)
abbrev aE : IVec S2x1600000 32 := m ((c : Thread nD τ).loc main_arg1)
abbrev aW1 : FVec Ideal S3x64x64 .f32 := m ((c : Thread nD τ).loc main_arg2)
abbrev aB1 : FVec Ideal S64 .f32 := m ((c : Thread nD τ).loc main_arg3)
abbrev aW2 : FVec Ideal S3x64x64 .f32 := m ((c : Thread nD τ).loc main_arg4)
abbrev aB2 : FVec Ideal S64 .f32 := m ((c : Thread nD τ).loc main_arg5)

/-! ## At launch -/
theorem w0_arg0 : (Gen.W0 m ρ c (Proc.devRef .tc main_arg0) : FVec Ideal S100000x64 .f32) = ((aX m c) : FVec Ideal S100000x64 .f32) := rfl
theorem w0_arg1 : (Gen.W0 m ρ c (Proc.devRef .tc main_arg1) : IVec S2x1600000 32) = ((aE m c) : IVec S2x1600000 32) := rfl
theorem w0_arg2 : (Gen.W0 m ρ c (Proc.devRef .tc main_arg2) : FVec Ideal S3x64x64 .f32) = ((aW1 m c) : FVec Ideal S3x64x64 .f32) := rfl
theorem w0_arg3 : (Gen.W0 m ρ c (Proc.devRef .tc main_arg3) : FVec Ideal S64 .f32) = ((aB1 m c) : FVec Ideal S64 .f32) := rfl
theorem w0_arg4 : (Gen.W0 m ρ c (Proc.devRef .tc main_arg4) : FVec Ideal S3x64x64 .f32) = ((aW2 m c) : FVec Ideal S3x64x64 .f32) := rfl
theorem w0_arg5 : (Gen.W0 m ρ c (Proc.devRef .tc main_arg5) : FVec Ideal S64 .f32) = ((aB2 m c) : FVec Ideal S64 .f32) := rfl

/-! ## To the first dense region's entry -/
theorem w1_v1 : (Gen.W1 m ρ c (Proc.devRef .tc main_v1) : IVec S1600000 32) = ((Cert.Spec.row0 (aE m c)) : IVec S1600000 32) :=
  (r_hostOps0_v1 (Gen.W0 m ρ c)).trans (by rw [w0_arg1 m ρ c] <;> rfl)
theorem w1_v3 : (Gen.W1 m ρ c (Proc.devRef .tc main_v3) : IVec S1600000 32) = ((Cert.Spec.row1 (aE m c)) : IVec S1600000 32) :=
  (r_hostOps0_v3 (Gen.W0 m ρ c)).trans (by rw [w0_arg1 m ρ c] <;> rfl)
theorem w1_v7 : (Gen.W1 m ρ c (Proc.devRef .tc main_v7) : FVec Ideal S100000 .f32) = ((Cert.Spec.deg (aE m c)) : FVec Ideal S100000 .f32) :=
  (r_hostOps0_v7 (Gen.W0 m ρ c)).trans (by rw [w0_arg1 m ρ c] <;> rfl)
theorem w1_v9 : (Gen.W1 m ρ c (Proc.devRef .tc main_v9) : IVec S100000 1) = ((cmpf .ogt (Cert.Spec.deg (aE m c)) Cert.Spec.zerosN) : IVec S100000 1) :=
  (r_hostOps0_v9 (Gen.W0 m ρ c)).trans (by rw [w0_arg1 m ρ c] <;> rfl)
theorem w1_cst_2 : (Gen.W1 m ρ c (Proc.devRef .tc main_cst_2) : FVec Ideal S_ .f32) = ((constant (F := Ideal) S_ .f32 0x3F800000#32) : FVec Ideal S_ .f32) :=
  (r_hostOps0_cst_2 (Gen.W0 m ρ c)).trans (by skip <;> rfl)
theorem w1_arg0 : (Gen.W1 m ρ c (Proc.devRef .tc main_arg0) : FVec Ideal S100000x64 .f32) = ((aX m c) : FVec Ideal S100000x64 .f32) :=
  (k_hostOps0_arg0 (Gen.W0 m ρ c)).trans (w0_arg0 m ρ c)
theorem w1_arg2 : (Gen.W1 m ρ c (Proc.devRef .tc main_arg2) : FVec Ideal S3x64x64 .f32) = ((aW1 m c) : FVec Ideal S3x64x64 .f32) :=
  (k_hostOps0_arg2 (Gen.W0 m ρ c)).trans (w0_arg2 m ρ c)
theorem w1_arg3 : (Gen.W1 m ρ c (Proc.devRef .tc main_arg3) : FVec Ideal S64 .f32) = ((aB1 m c) : FVec Ideal S64 .f32) :=
  (k_hostOps0_arg3 (Gen.W0 m ρ c)).trans (w0_arg3 m ρ c)
theorem w1_arg4 : (Gen.W1 m ρ c (Proc.devRef .tc main_arg4) : FVec Ideal S3x64x64 .f32) = ((aW2 m c) : FVec Ideal S3x64x64 .f32) :=
  (k_hostOps0_arg4 (Gen.W0 m ρ c)).trans (w0_arg4 m ρ c)
theorem w1_arg5 : (Gen.W1 m ρ c (Proc.devRef .tc main_arg5) : FVec Ideal S64 .f32) = ((aB2 m c) : FVec Ideal S64 .f32) :=
  (k_hostOps0_arg5 (Gen.W0 m ρ c)).trans (w0_arg5 m ρ c)
theorem w2_v10 : (Gen.W2 m ρ c (Proc.devRef .tc main_v10) : FVec Ideal S100000 .f32) = ((Cert.Spec.safeDeg (aE m c)) : FVec Ideal S100000 .f32) :=
  (r_hostOps0_1_v10 (Gen.W1 m ρ c)).trans (by rw [w1_v9 m ρ c, w1_v7 m ρ c, w1_cst_2 m ρ c] <;> rfl)
theorem w2_v1 : (Gen.W2 m ρ c (Proc.devRef .tc main_v1) : IVec S1600000 32) = ((Cert.Spec.row0 (aE m c)) : IVec S1600000 32) :=
  (k_hostOps0_1_v1 (Gen.W1 m ρ c)).trans (w1_v1 m ρ c)
theorem w2_v3 : (Gen.W2 m ρ c (Proc.devRef .tc main_v3) : IVec S1600000 32) = ((Cert.Spec.row1 (aE m c)) : IVec S1600000 32) :=
  (k_hostOps0_1_v3 (Gen.W1 m ρ c)).trans (w1_v3 m ρ c)
theorem w2_v7 : (Gen.W2 m ρ c (Proc.devRef .tc main_v7) : FVec Ideal S100000 .f32) = ((Cert.Spec.deg (aE m c)) : FVec Ideal S100000 .f32) :=
  (k_hostOps0_1_v7 (Gen.W1 m ρ c)).trans (w1_v7 m ρ c)
theorem w2_arg0 : (Gen.W2 m ρ c (Proc.devRef .tc main_arg0) : FVec Ideal S100000x64 .f32) = ((aX m c) : FVec Ideal S100000x64 .f32) :=
  (k_hostOps0_1_arg0 (Gen.W1 m ρ c)).trans (w1_arg0 m ρ c)
theorem w2_arg2 : (Gen.W2 m ρ c (Proc.devRef .tc main_arg2) : FVec Ideal S3x64x64 .f32) = ((aW1 m c) : FVec Ideal S3x64x64 .f32) :=
  (k_hostOps0_1_arg2 (Gen.W1 m ρ c)).trans (w1_arg2 m ρ c)
theorem w2_arg3 : (Gen.W2 m ρ c (Proc.devRef .tc main_arg3) : FVec Ideal S64 .f32) = ((aB1 m c) : FVec Ideal S64 .f32) :=
  (k_hostOps0_1_arg3 (Gen.W1 m ρ c)).trans (w1_arg3 m ρ c)
theorem w2_arg4 : (Gen.W2 m ρ c (Proc.devRef .tc main_arg4) : FVec Ideal S3x64x64 .f32) = ((aW2 m c) : FVec Ideal S3x64x64 .f32) :=
  (k_hostOps0_1_arg4 (Gen.W1 m ρ c)).trans (w1_arg4 m ρ c)
theorem w2_arg5 : (Gen.W2 m ρ c (Proc.devRef .tc main_arg5) : FVec Ideal S64 .f32) = ((aB2 m c) : FVec Ideal S64 .f32) :=
  (k_hostOps0_1_arg5 (Gen.W1 m ρ c)).trans (w1_arg5 m ρ c)
theorem w3_v12 : (Gen.W3 m ρ c (Proc.devRef .tc main_v12) : IVec S100000 1) = ((cmpf .ogt (Cert.Spec.deg (aE m c)) Cert.Spec.zerosN) : IVec S100000 1) :=
  (r_hostOps0_2_v12 (Gen.W2 m ρ c)).trans (by rw [w2_v7 m ρ c] <;> rfl)
theorem w3_v13 : (Gen.W3 m ρ c (Proc.devRef .tc main_v13) : FVec Ideal S100000 .f32) = ((Host.rsqrt (Cert.Spec.safeDeg (aE m c))) : FVec Ideal S100000 .f32) :=
  (r_hostOps0_2_v13 (Gen.W2 m ρ c)).trans (by rw [w2_v10 m ρ c] <;> rfl)
theorem w3_cst_4 : (Gen.W3 m ρ c (Proc.devRef .tc main_cst_4) : FVec Ideal S_ .f32) = ((constant (F := Ideal) S_ .f32 0x00000000#32) : FVec Ideal S_ .f32) :=
  (r_hostOps0_2_cst_4 (Gen.W2 m ρ c)).trans (by skip <;> rfl)
theorem w3_v1 : (Gen.W3 m ρ c (Proc.devRef .tc main_v1) : IVec S1600000 32) = ((Cert.Spec.row0 (aE m c)) : IVec S1600000 32) :=
  (k_hostOps0_2_v1 (Gen.W2 m ρ c)).trans (w2_v1 m ρ c)
theorem w3_v3 : (Gen.W3 m ρ c (Proc.devRef .tc main_v3) : IVec S1600000 32) = ((Cert.Spec.row1 (aE m c)) : IVec S1600000 32) :=
  (k_hostOps0_2_v3 (Gen.W2 m ρ c)).trans (w2_v3 m ρ c)
theorem w3_arg0 : (Gen.W3 m ρ c (Proc.devRef .tc main_arg0) : FVec Ideal S100000x64 .f32) = ((aX m c) : FVec Ideal S100000x64 .f32) :=
  (k_hostOps0_2_arg0 (Gen.W2 m ρ c)).trans (w2_arg0 m ρ c)
theorem w3_arg2 : (Gen.W3 m ρ c (Proc.devRef .tc main_arg2) : FVec Ideal S3x64x64 .f32) = ((aW1 m c) : FVec Ideal S3x64x64 .f32) :=
  (k_hostOps0_2_arg2 (Gen.W2 m ρ c)).trans (w2_arg2 m ρ c)
theorem w3_arg3 : (Gen.W3 m ρ c (Proc.devRef .tc main_arg3) : FVec Ideal S64 .f32) = ((aB1 m c) : FVec Ideal S64 .f32) :=
  (k_hostOps0_2_arg3 (Gen.W2 m ρ c)).trans (w2_arg3 m ρ c)
theorem w3_arg4 : (Gen.W3 m ρ c (Proc.devRef .tc main_arg4) : FVec Ideal S3x64x64 .f32) = ((aW2 m c) : FVec Ideal S3x64x64 .f32) :=
  (k_hostOps0_2_arg4 (Gen.W2 m ρ c)).trans (w2_arg4 m ρ c)
theorem w3_arg5 : (Gen.W3 m ρ c (Proc.devRef .tc main_arg5) : FVec Ideal S64 .f32) = ((aB2 m c) : FVec Ideal S64 .f32) :=
  (k_hostOps0_2_arg5 (Gen.W2 m ρ c)).trans (w2_arg5 m ρ c)
theorem w4_v14 : (Gen.W4 m ρ c (Proc.devRef .tc main_v14) : FVec Ideal S100000 .f32) = ((Cert.Spec.dinv (aE m c)) : FVec Ideal S100000 .f32) :=
  (r_hostOps0_3_v14 (Gen.W3 m ρ c)).trans (by rw [w3_v12 m ρ c, w3_v13 m ρ c, w3_cst_4 m ρ c] <;> rfl)
theorem w4_v1 : (Gen.W4 m ρ c (Proc.devRef .tc main_v1) : IVec S1600000 32) = ((Cert.Spec.row0 (aE m c)) : IVec S1600000 32) :=
  (k_hostOps0_3_v1 (Gen.W3 m ρ c)).trans (w3_v1 m ρ c)
theorem w4_v3 : (Gen.W4 m ρ c (Proc.devRef .tc main_v3) : IVec S1600000 32) = ((Cert.Spec.row1 (aE m c)) : IVec S1600000 32) :=
  (k_hostOps0_3_v3 (Gen.W3 m ρ c)).trans (w3_v3 m ρ c)
theorem w4_arg0 : (Gen.W4 m ρ c (Proc.devRef .tc main_arg0) : FVec Ideal S100000x64 .f32) = ((aX m c) : FVec Ideal S100000x64 .f32) :=
  (k_hostOps0_3_arg0 (Gen.W3 m ρ c)).trans (w3_arg0 m ρ c)
theorem w4_arg2 : (Gen.W4 m ρ c (Proc.devRef .tc main_arg2) : FVec Ideal S3x64x64 .f32) = ((aW1 m c) : FVec Ideal S3x64x64 .f32) :=
  (k_hostOps0_3_arg2 (Gen.W3 m ρ c)).trans (w3_arg2 m ρ c)
theorem w4_arg3 : (Gen.W4 m ρ c (Proc.devRef .tc main_arg3) : FVec Ideal S64 .f32) = ((aB1 m c) : FVec Ideal S64 .f32) :=
  (k_hostOps0_3_arg3 (Gen.W3 m ρ c)).trans (w3_arg3 m ρ c)
theorem w4_arg4 : (Gen.W4 m ρ c (Proc.devRef .tc main_arg4) : FVec Ideal S3x64x64 .f32) = ((aW2 m c) : FVec Ideal S3x64x64 .f32) :=
  (k_hostOps0_3_arg4 (Gen.W3 m ρ c)).trans (w3_arg4 m ρ c)
theorem w4_arg5 : (Gen.W4 m ρ c (Proc.devRef .tc main_arg5) : FVec Ideal S64 .f32) = ((aB2 m c) : FVec Ideal S64 .f32) :=
  (k_hostOps0_3_arg5 (Gen.W3 m ρ c)).trans (w3_arg5 m ρ c)
theorem w5_v30 : (Gen.W5 m ρ c (Proc.devRef .tc main_v30) : FVec Ideal S1600000 .f32) = ((Cert.Spec.wEdge (aE m c)) : FVec Ideal S1600000 .f32) :=
  (r_hostOps0_4_v30 (Gen.W4 m ρ c)).trans (by rw [w4_v14 m ρ c, w4_v1 m ρ c, w4_v3 m ρ c, wOf_eq (aE m c)] <;> rfl)
theorem w5_v43 : (Gen.W5 m ρ c (Proc.devRef .tc main_v43) : FVec Ideal S100000x64 .f32) = ((Cert.Spec.prop (aE m c) (aX m c)) : FVec Ideal S100000x64 .f32) :=
  (r_hostOps0_4_v43 (Gen.W4 m ρ c)).trans (by rw [w4_v14 m ρ c, w4_v1 m ρ c, w4_v3 m ρ c, w4_arg0 m ρ c, wOf_eq (aE m c), propOf_eq (aE m c)] <;> rfl)
theorem w5_v56 : (Gen.W5 m ρ c (Proc.devRef .tc main_v56) : FVec Ideal S100000x64 .f32) = ((Cert.Spec.prop (aE m c) (Cert.Spec.prop (aE m c) (aX m c))) : FVec Ideal S100000x64 .f32) :=
  (r_hostOps0_4_v56 (Gen.W4 m ρ c)).trans (by rw [w4_v14 m ρ c, w4_v1 m ρ c, w4_v3 m ρ c, w4_arg0 m ρ c, wOf_eq (aE m c), propOf_eq (aE m c), propOf_eq (aE m c)] <;> rfl)
theorem w5_v61 : (Gen.W5 m ρ c (Proc.devRef .tc main_v61) : FVec Ideal S64x64 .f32) = ((Cert.Spec.w0p (aW1 m c)) : FVec Ideal S64x64 .f32) :=
  (r_hostOps0_4_v61 (Gen.W4 m ρ c)).trans (by rw [w4_arg2 m ρ c] <;> rfl)
theorem w5_v63 : (Gen.W5 m ρ c (Proc.devRef .tc main_v63) : FVec Ideal S64x64 .f32) = ((Cert.Spec.w_1 (aW1 m c)) : FVec Ideal S64x64 .f32) :=
  (r_hostOps0_4_v63 (Gen.W4 m ρ c)).trans (by rw [w4_arg2 m ρ c] <;> rfl)
theorem w5_v67 : (Gen.W5 m ρ c (Proc.devRef .tc main_v67) : FVec Ideal S64x64 .f32) = ((Cert.Spec.w2p (aW1 m c)) : FVec Ideal S64x64 .f32) :=
  (r_hostOps0_4_v67 (Gen.W4 m ρ c)).trans (by rw [w4_arg2 m ρ c] <;> rfl)
theorem w5_v68 : (Gen.W5 m ρ c (Proc.devRef .tc main_v68) : FVec Ideal S1x64 .f32) = ((Cert.Spec.brow (aB1 m c)) : FVec Ideal S1x64 .f32) :=
  (r_hostOps0_4_v68 (Gen.W4 m ρ c)).trans (by rw [w4_arg3 m ρ c] <;> rfl)
theorem w5_v1 : (Gen.W5 m ρ c (Proc.devRef .tc main_v1) : IVec S1600000 32) = ((Cert.Spec.row0 (aE m c)) : IVec S1600000 32) :=
  (k_hostOps0_4_v1 (Gen.W4 m ρ c)).trans (w4_v1 m ρ c)
theorem w5_v3 : (Gen.W5 m ρ c (Proc.devRef .tc main_v3) : IVec S1600000 32) = ((Cert.Spec.row1 (aE m c)) : IVec S1600000 32) :=
  (k_hostOps0_4_v3 (Gen.W4 m ρ c)).trans (w4_v3 m ρ c)
theorem w5_arg0 : (Gen.W5 m ρ c (Proc.devRef .tc main_arg0) : FVec Ideal S100000x64 .f32) = ((aX m c) : FVec Ideal S100000x64 .f32) :=
  (k_hostOps0_4_arg0 (Gen.W4 m ρ c)).trans (w4_arg0 m ρ c)
theorem w5_arg4 : (Gen.W5 m ρ c (Proc.devRef .tc main_arg4) : FVec Ideal S3x64x64 .f32) = ((aW2 m c) : FVec Ideal S3x64x64 .f32) :=
  (k_hostOps0_4_arg4 (Gen.W4 m ρ c)).trans (w4_arg4 m ρ c)
theorem w5_arg5 : (Gen.W5 m ρ c (Proc.devRef .tc main_arg5) : FVec Ideal S64 .f32) = ((aB2 m c) : FVec Ideal S64 .f32) :=
  (k_hostOps0_4_arg5 (Gen.W4 m ρ c)).trans (w4_arg5 m ρ c)

/-! ## The first dense region -/
theorem w6_v69 : (Gen.W6 m ρ c (Proc.devRef .tc main_v69) : FVec Ideal S100000x64 .f32) = ((Cert.Spec.denseK (aE m c) (aX m c) (aW1 m c) (aB1 m c)) : FVec Ideal S100000x64 .f32) :=
  (Gen.W6_arr m ρ c 7).trans ((RegionValue.arr0 (Gen.V5 m ρ) c).trans (by
    show Cert.Spec.mm (Gen.W5 m ρ c (Proc.devRef .tc main_arg0)) (Gen.W5 m ρ c (Proc.devRef .tc main_v43)) (Gen.W5 m ρ c (Proc.devRef .tc main_v56)) (Gen.W5 m ρ c (Proc.devRef .tc main_v61))
      (Gen.W5 m ρ c (Proc.devRef .tc main_v63)) (Gen.W5 m ρ c (Proc.devRef .tc main_v67)) (Gen.W5 m ρ c (Proc.devRef .tc main_v68)) = _
    rw [w5_arg0 m ρ c, w5_v43 m ρ c, w5_v56 m ρ c, w5_v61 m ρ c, w5_v63 m ρ c, w5_v67 m ρ c, w5_v68 m ρ c] <;> rfl))
theorem w6_v1 : (Gen.W6 m ρ c (Proc.devRef .tc main_v1) : IVec S1600000 32) = ((Cert.Spec.row0 (aE m c)) : IVec S1600000 32) :=
  (Gen.W6_of_ne m ρ c main_v1 (by decide)).trans (w5_v1 m ρ c)
theorem w6_v3 : (Gen.W6 m ρ c (Proc.devRef .tc main_v3) : IVec S1600000 32) = ((Cert.Spec.row1 (aE m c)) : IVec S1600000 32) :=
  (Gen.W6_of_ne m ρ c main_v3 (by decide)).trans (w5_v3 m ρ c)
theorem w6_v30 : (Gen.W6 m ρ c (Proc.devRef .tc main_v30) : FVec Ideal S1600000 .f32) = ((Cert.Spec.wEdge (aE m c)) : FVec Ideal S1600000 .f32) :=
  (Gen.W6_of_ne m ρ c main_v30 (by decide)).trans (w5_v30 m ρ c)
theorem w6_arg4 : (Gen.W6 m ρ c (Proc.devRef .tc main_arg4) : FVec Ideal S3x64x64 .f32) = ((aW2 m c) : FVec Ideal S3x64x64 .f32) :=
  (Gen.W6_of_ne m ρ c main_arg4 (by decide)).trans (w5_arg4 m ρ c)
theorem w6_arg5 : (Gen.W6 m ρ c (Proc.devRef .tc main_arg5) : FVec Ideal S64 .f32) = ((aB2 m c) : FVec Ideal S64 .f32) :=
  (Gen.W6_of_ne m ρ c main_arg5 (by decide)).trans (w5_arg5 m ρ c)

/-! ## To the first normalising region's entry -/
theorem w7_v73 : (Gen.W7 m ρ c (Proc.devRef .tc main_v73) : FVec Ideal S1x64 .f32) = ((Cert.Spec.meanRow (Cert.Spec.denseK (aE m c) (aX m c) (aW1 m c) (aB1 m c))) : FVec Ideal S1x64 .f32) :=
  (r_hostOps1_v73 (Gen.W6 m ρ c)).trans (by rw [w6_v69 m ρ c] <;> rfl)
theorem w7_c_17 : (Gen.W7 m ρ c (Proc.devRef .tc main_c_17) : IVec S_ 32) = ((constantI S_ 32 0#32) : IVec S_ 32) :=
  (r_hostOps1_c_17 (Gen.W6 m ρ c)).trans (by skip <;> rfl)
theorem w7_v69 : (Gen.W7 m ρ c (Proc.devRef .tc main_v69) : FVec Ideal S100000x64 .f32) = ((Cert.Spec.denseK (aE m c) (aX m c) (aW1 m c) (aB1 m c)) : FVec Ideal S100000x64 .f32) :=
  (k_hostOps1_v69 (Gen.W6 m ρ c)).trans (w6_v69 m ρ c)
theorem w7_v1 : (Gen.W7 m ρ c (Proc.devRef .tc main_v1) : IVec S1600000 32) = ((Cert.Spec.row0 (aE m c)) : IVec S1600000 32) :=
  (k_hostOps1_v1 (Gen.W6 m ρ c)).trans (w6_v1 m ρ c)
theorem w7_v3 : (Gen.W7 m ρ c (Proc.devRef .tc main_v3) : IVec S1600000 32) = ((Cert.Spec.row1 (aE m c)) : IVec S1600000 32) :=
  (k_hostOps1_v3 (Gen.W6 m ρ c)).trans (w6_v3 m ρ c)
theorem w7_v30 : (Gen.W7 m ρ c (Proc.devRef .tc main_v30) : FVec Ideal S1600000 .f32) = ((Cert.Spec.wEdge (aE m c)) : FVec Ideal S1600000 .f32) :=
  (k_hostOps1_v30 (Gen.W6 m ρ c)).trans (w6_v30 m ρ c)
theorem w7_arg4 : (Gen.W7 m ρ c (Proc.devRef .tc main_arg4) : FVec Ideal S3x64x64 .f32) = ((aW2 m c) : FVec Ideal S3x64x64 .f32) :=
  (k_hostOps1_arg4 (Gen.W6 m ρ c)).trans (w6_arg4 m ρ c)
theorem w7_arg5 : (Gen.W7 m ρ c (Proc.devRef .tc main_arg5) : FVec Ideal S64 .f32) = ((aB2 m c) : FVec Ideal S64 .f32) :=
  (k_hostOps1_arg5 (Gen.W6 m ρ c)).trans (w6_arg5 m ρ c)
theorem w8_v74 : (Gen.W8 m ρ c (Proc.devRef .tc main_v74) : FVec Ideal S1x64 .f32) = ((Cert.Spec.varRow (Cert.Spec.denseK (aE m c) (aX m c) (aW1 m c) (aB1 m c))) : FVec Ideal S1x64 .f32) :=
  (r_hostOps1_1_v74 (Gen.W7 m ρ c)).trans (by rw [w7_v69 m ρ c, w7_c_17 m ρ c, varOf_eq] <;> rfl)
theorem w8_v69 : (Gen.W8 m ρ c (Proc.devRef .tc main_v69) : FVec Ideal S100000x64 .f32) = ((Cert.Spec.denseK (aE m c) (aX m c) (aW1 m c) (aB1 m c)) : FVec Ideal S100000x64 .f32) :=
  (k_hostOps1_1_v69 (Gen.W7 m ρ c)).trans (w7_v69 m ρ c)
theorem w8_v73 : (Gen.W8 m ρ c (Proc.devRef .tc main_v73) : FVec Ideal S1x64 .f32) = ((Cert.Spec.meanRow (Cert.Spec.denseK (aE m c) (aX m c) (aW1 m c) (aB1 m c))) : FVec Ideal S1x64 .f32) :=
  (k_hostOps1_1_v73 (Gen.W7 m ρ c)).trans (w7_v73 m ρ c)
theorem w8_v1 : (Gen.W8 m ρ c (Proc.devRef .tc main_v1) : IVec S1600000 32) = ((Cert.Spec.row0 (aE m c)) : IVec S1600000 32) :=
  (k_hostOps1_1_v1 (Gen.W7 m ρ c)).trans (w7_v1 m ρ c)
theorem w8_v3 : (Gen.W8 m ρ c (Proc.devRef .tc main_v3) : IVec S1600000 32) = ((Cert.Spec.row1 (aE m c)) : IVec S1600000 32) :=
  (k_hostOps1_1_v3 (Gen.W7 m ρ c)).trans (w7_v3 m ρ c)
theorem w8_v30 : (Gen.W8 m ρ c (Proc.devRef .tc main_v30) : FVec Ideal S1600000 .f32) = ((Cert.Spec.wEdge (aE m c)) : FVec Ideal S1600000 .f32) :=
  (k_hostOps1_1_v30 (Gen.W7 m ρ c)).trans (w7_v30 m ρ c)
theorem w8_arg4 : (Gen.W8 m ρ c (Proc.devRef .tc main_arg4) : FVec Ideal S3x64x64 .f32) = ((aW2 m c) : FVec Ideal S3x64x64 .f32) :=
  (k_hostOps1_1_arg4 (Gen.W7 m ρ c)).trans (w7_arg4 m ρ c)
theorem w8_arg5 : (Gen.W8 m ρ c (Proc.devRef .tc main_arg5) : FVec Ideal S64 .f32) = ((aB2 m c) : FVec Ideal S64 .f32) :=
  (k_hostOps1_1_arg5 (Gen.W7 m ρ c)).trans (w7_arg5 m ρ c)
theorem w9_v78 : (Gen.W9 m ρ c (Proc.devRef .tc main_v78) : FVec Ideal S50000x128 .f32) = ((shapeCast S50000x128 (Cert.Spec.denseK (aE m c) (aX m c) (aW1 m c) (aB1 m c)) shapeCasts_S100000x64_S50000x128) : FVec Ideal S50000x128 .f32) :=
  (r_hostOps1_2_v78 (Gen.W8 m ρ c)).trans (by rw [w8_v69 m ρ c] <;> rfl)
theorem w9_v79 : (Gen.W9 m ρ c (Proc.devRef .tc main_v79) : FVec Ideal S1x128 .f32) = ((Cert.Spec.twice (Cert.Spec.meanRow (Cert.Spec.denseK (aE m c) (aX m c) (aW1 m c) (aB1 m c)))) : FVec Ideal S1x128 .f32) :=
  (r_hostOps1_2_v79 (Gen.W8 m ρ c)).trans (by rw [w8_v73 m ρ c] <;> rfl)
theorem w9_v80 : (Gen.W9 m ρ c (Proc.devRef .tc main_v80) : FVec Ideal S1x128 .f32) = ((Cert.Spec.twice (Cert.Spec.invRow (Cert.Spec.denseK (aE m c) (aX m c) (aW1 m c) (aB1 m c)))) : FVec Ideal S1x128 .f32) :=
  (r_hostOps1_2_v80 (Gen.W8 m ρ c)).trans (by rw [w8_v74 m ρ c, invOf_eq] <;> rfl)
theorem w9_v1 : (Gen.W9 m ρ c (Proc.devRef .tc main_v1) : IVec S1600000 32) = ((Cert.Spec.row0 (aE m c)) : IVec S1600000 32) :=
  (k_hostOps1_2_v1 (Gen.W8 m ρ c)).trans (w8_v1 m ρ c)
theorem w9_v3 : (Gen.W9 m ρ c (Proc.devRef .tc main_v3) : IVec S1600000 32) = ((Cert.Spec.row1 (aE m c)) : IVec S1600000 32) :=
  (k_hostOps1_2_v3 (Gen.W8 m ρ c)).trans (w8_v3 m ρ c)
theorem w9_v30 : (Gen.W9 m ρ c (Proc.devRef .tc main_v30) : FVec Ideal S1600000 .f32) = ((Cert.Spec.wEdge (aE m c)) : FVec Ideal S1600000 .f32) :=
  (k_hostOps1_2_v30 (Gen.W8 m ρ c)).trans (w8_v30 m ρ c)
theorem w9_arg4 : (Gen.W9 m ρ c (Proc.devRef .tc main_arg4) : FVec Ideal S3x64x64 .f32) = ((aW2 m c) : FVec Ideal S3x64x64 .f32) :=
  (k_hostOps1_2_arg4 (Gen.W8 m ρ c)).trans (w8_arg4 m ρ c)
theorem w9_arg5 : (Gen.W9 m ρ c (Proc.devRef .tc main_arg5) : FVec Ideal S64 .f32) = ((aB2 m c) : FVec Ideal S64 .f32) :=
  (k_hostOps1_2_arg5 (Gen.W8 m ρ c)).trans (w8_arg5 m ρ c)

/-! ## The first normalising region -/
theorem w10_v81 : (Gen.W10 m ρ c (Proc.devRef .tc main_v81) : FVec Ideal S50000x128 .f32) = ((Cert.Spec.nm (shapeCast S50000x128 (Cert.Spec.denseK (aE m c) (aX m c) (aW1 m c) (aB1 m c)) shapeCasts_S100000x64_S50000x128) (Cert.Spec.twice (Cert.Spec.meanRow (Cert.Spec.denseK (aE m c) (aX m c) (aW1 m c) (aB1 m c)))) (Cert.Spec.twice (Cert.Spec.invRow (Cert.Spec.denseK (aE m c) (aX m c) (aW1 m c) (aB1 m c))))) : FVec Ideal S50000x128 .f32) :=
  (Gen.W10_arr m ρ c 3).trans ((RegionValue.arr1 (Gen.V9 m ρ) c).trans (by
    show Cert.Spec.nm (Gen.W9 m ρ c (Proc.devRef .tc main_v78)) (Gen.W9 m ρ c (Proc.devRef .tc main_v79)) (Gen.W9 m ρ c (Proc.devRef .tc main_v80)) = _
    rw [w9_v78 m ρ c, w9_v79 m ρ c, w9_v80 m ρ c] <;> rfl))
theorem w10_v1 : (Gen.W10 m ρ c (Proc.devRef .tc main_v1) : IVec S1600000 32) = ((Cert.Spec.row0 (aE m c)) : IVec S1600000 32) :=
  (Gen.W10_of_ne m ρ c main_v1 (by decide)).trans (w9_v1 m ρ c)
theorem w10_v3 : (Gen.W10 m ρ c (Proc.devRef .tc main_v3) : IVec S1600000 32) = ((Cert.Spec.row1 (aE m c)) : IVec S1600000 32) :=
  (Gen.W10_of_ne m ρ c main_v3 (by decide)).trans (w9_v3 m ρ c)
theorem w10_v30 : (Gen.W10 m ρ c (Proc.devRef .tc main_v30) : FVec Ideal S1600000 .f32) = ((Cert.Spec.wEdge (aE m c)) : FVec Ideal S1600000 .f32) :=
  (Gen.W10_of_ne m ρ c main_v30 (by decide)).trans (w9_v30 m ρ c)
theorem w10_arg4 : (Gen.W10 m ρ c (Proc.devRef .tc main_arg4) : FVec Ideal S3x64x64 .f32) = ((aW2 m c) : FVec Ideal S3x64x64 .f32) :=
  (Gen.W10_of_ne m ρ c main_arg4 (by decide)).trans (w9_arg4 m ρ c)
theorem w10_arg5 : (Gen.W10 m ρ c (Proc.devRef .tc main_arg5) : FVec Ideal S64 .f32) = ((aB2 m c) : FVec Ideal S64 .f32) :=
  (Gen.W10_of_ne m ρ c main_arg5 (by decide)).trans (w9_arg5 m ρ c)

/-! ## To the second dense region's entry -/
theorem w11_v82 : (Gen.W11 m ρ c (Proc.devRef .tc main_v82) : FVec Ideal S100000x64 .f32) = ((Cert.Spec.layerK (aE m c) (aX m c) (aW1 m c) (aB1 m c)) : FVec Ideal S100000x64 .f32) :=
  (r_hostOps2_v82 (Gen.W10 m ρ c)).trans (by rw [w10_v81 m ρ c] <;> rfl)
theorem w11_v95 : (Gen.W11 m ρ c (Proc.devRef .tc main_v95) : FVec Ideal S100000x64 .f32) = ((Cert.Spec.prop (aE m c) (Cert.Spec.layerK (aE m c) (aX m c) (aW1 m c) (aB1 m c))) : FVec Ideal S100000x64 .f32) :=
  (r_hostOps2_v95 (Gen.W10 m ρ c)).trans (by rw [w10_v30 m ρ c, w10_v1 m ρ c, w10_v3 m ρ c, w10_v81 m ρ c, propOf_eq (aE m c)] <;> rfl)
theorem w11_v108 : (Gen.W11 m ρ c (Proc.devRef .tc main_v108) : FVec Ideal S100000x64 .f32) = ((Cert.Spec.prop (aE m c) (Cert.Spec.prop (aE m c) (Cert.Spec.layerK (aE m c) (aX m c) (aW1 m c) (aB1 m c)))) : FVec Ideal S100000x64 .f32) :=
  (r_hostOps2_v108 (Gen.W10 m ρ c)).trans (by rw [w10_v30 m ρ c, w10_v1 m ρ c, w10_v3 m ρ c, w10_v81 m ρ c, propOf_eq (aE m c), propOf_eq (aE m c)] <;> rfl)
theorem w11_v113 : (Gen.W11 m ρ c (Proc.devRef .tc main_v113) : FVec Ideal S64x64 .f32) = ((Cert.Spec.w0p (aW2 m c)) : FVec Ideal S64x64 .f32) :=
  (r_hostOps2_v113 (Gen.W10 m ρ c)).trans (by rw [w10_arg4 m ρ c] <;> rfl)
theorem w11_v115 : (Gen.W11 m ρ c (Proc.devRef .tc main_v115) : FVec Ideal S64x64 .f32) = ((Cert.Spec.w_1 (aW2 m c)) : FVec Ideal S64x64 .f32) :=
  (r_hostOps2_v115 (Gen.W10 m ρ c)).trans (by rw [w10_arg4 m ρ c] <;> rfl)
theorem w11_v119 : (Gen.W11 m ρ c (Proc.devRef .tc main_v119) : FVec Ideal S64x64 .f32) = ((Cert.Spec.w2p (aW2 m c)) : FVec Ideal S64x64 .f32) :=
  (r_hostOps2_v119 (Gen.W10 m ρ c)).trans (by rw [w10_arg4 m ρ c] <;> rfl)
theorem w11_v120 : (Gen.W11 m ρ c (Proc.devRef .tc main_v120) : FVec Ideal S1x64 .f32) = ((Cert.Spec.brow (aB2 m c)) : FVec Ideal S1x64 .f32) :=
  (r_hostOps2_v120 (Gen.W10 m ρ c)).trans (by rw [w10_arg5 m ρ c] <;> rfl)

/-! ## The second dense region -/
theorem w12_v121 : (Gen.W12 m ρ c (Proc.devRef .tc main_v121) : FVec Ideal S100000x64 .f32) = ((Cert.Spec.denseK (aE m c) (Cert.Spec.layerK (aE m c) (aX m c) (aW1 m c) (aB1 m c)) (aW2 m c) (aB2 m c)) : FVec Ideal S100000x64 .f32) :=
  (Gen.W12_arr m ρ c 7).trans ((RegionValue.arr2 (Gen.V11 m ρ) c).trans (by
    show Cert.Spec.mm (Gen.W11 m ρ c (Proc.devRef .tc main_v82)) (Gen.W11 m ρ c (Proc.devRef .tc main_v95)) (Gen.W11 m ρ c (Proc.devRef .tc main_v108)) (Gen.W11 m ρ c (Proc.devRef .tc main_v113))
      (Gen.W11 m ρ c (Proc.devRef .tc main_v115)) (Gen.W11 m ρ c (Proc.devRef .tc main_v119)) (Gen.W11 m ρ c (Proc.devRef .tc main_v120)) = _
    rw [w11_v82 m ρ c, w11_v95 m ρ c, w11_v108 m ρ c, w11_v113 m ρ c, w11_v115 m ρ c, w11_v119 m ρ c, w11_v120 m ρ c] <;> rfl))

/-! ## To the second normalising region's entry -/
theorem w13_v125 : (Gen.W13 m ρ c (Proc.devRef .tc main_v125) : FVec Ideal S1x64 .f32) = ((Cert.Spec.meanRow (Cert.Spec.denseK (aE m c) (Cert.Spec.layerK (aE m c) (aX m c) (aW1 m c) (aB1 m c)) (aW2 m c) (aB2 m c))) : FVec Ideal S1x64 .f32) :=
  (r_hostOps3_v125 (Gen.W12 m ρ c)).trans (by rw [w12_v121 m ρ c] <;> rfl)
theorem w13_c_28 : (Gen.W13 m ρ c (Proc.devRef .tc main_c_28) : IVec S_ 32) = ((constantI S_ 32 0#32) : IVec S_ 32) :=
  (r_hostOps3_c_28 (Gen.W12 m ρ c)).trans (by skip <;> rfl)
theorem w13_v121 : (Gen.W13 m ρ c (Proc.devRef .tc main_v121) : FVec Ideal S100000x64 .f32) = ((Cert.Spec.denseK (aE m c) (Cert.Spec.layerK (aE m c) (aX m c) (aW1 m c) (aB1 m c)) (aW2 m c) (aB2 m c)) : FVec Ideal S100000x64 .f32) :=
  (k_hostOps3_v121 (Gen.W12 m ρ c)).trans (w12_v121 m ρ c)
theorem w14_v126 : (Gen.W14 m ρ c (Proc.devRef .tc main_v126) : FVec Ideal S1x64 .f32) = ((Cert.Spec.varRow (Cert.Spec.denseK (aE m c) (Cert.Spec.layerK (aE m c) (aX m c) (aW1 m c) (aB1 m c)) (aW2 m c) (aB2 m c))) : FVec Ideal S1x64 .f32) :=
  (r_hostOps3_1_v126 (Gen.W13 m ρ c)).trans (by rw [w13_v121 m ρ c, w13_c_28 m ρ c, varOf_eq] <;> rfl)
theorem w14_v121 : (Gen.W14 m ρ c (Proc.devRef .tc main_v121) : FVec Ideal S100000x64 .f32) = ((Cert.Spec.denseK (aE m c) (Cert.Spec.layerK (aE m c) (aX m c) (aW1 m c) (aB1 m c)) (aW2 m c) (aB2 m c)) : FVec Ideal S100000x64 .f32) :=
  (k_hostOps3_1_v121 (Gen.W13 m ρ c)).trans (w13_v121 m ρ c)
theorem w14_v125 : (Gen.W14 m ρ c (Proc.devRef .tc main_v125) : FVec Ideal S1x64 .f32) = ((Cert.Spec.meanRow (Cert.Spec.denseK (aE m c) (Cert.Spec.layerK (aE m c) (aX m c) (aW1 m c) (aB1 m c)) (aW2 m c) (aB2 m c))) : FVec Ideal S1x64 .f32) :=
  (k_hostOps3_1_v125 (Gen.W13 m ρ c)).trans (w13_v125 m ρ c)
theorem w15_v130 : (Gen.W15 m ρ c (Proc.devRef .tc main_v130) : FVec Ideal S50000x128 .f32) = ((shapeCast S50000x128 (Cert.Spec.denseK (aE m c) (Cert.Spec.layerK (aE m c) (aX m c) (aW1 m c) (aB1 m c)) (aW2 m c) (aB2 m c)) shapeCasts_S100000x64_S50000x128) : FVec Ideal S50000x128 .f32) :=
  (r_hostOps3_2_v130 (Gen.W14 m ρ c)).trans (by rw [w14_v121 m ρ c] <;> rfl)
theorem w15_v131 : (Gen.W15 m ρ c (Proc.devRef .tc main_v131) : FVec Ideal S1x128 .f32) = ((Cert.Spec.twice (Cert.Spec.meanRow (Cert.Spec.denseK (aE m c) (Cert.Spec.layerK (aE m c) (aX m c) (aW1 m c) (aB1 m c)) (aW2 m c) (aB2 m c)))) : FVec Ideal S1x128 .f32) :=
  (r_hostOps3_2_v131 (Gen.W14 m ρ c)).trans (by rw [w14_v125 m ρ c] <;> rfl)
theorem w15_v132 : (Gen.W15 m ρ c (Proc.devRef .tc main_v132) : FVec Ideal S1x128 .f32) = ((Cert.Spec.twice (Cert.Spec.invRow (Cert.Spec.denseK (aE m c) (Cert.Spec.layerK (aE m c) (aX m c) (aW1 m c) (aB1 m c)) (aW2 m c) (aB2 m c)))) : FVec Ideal S1x128 .f32) :=
  (r_hostOps3_2_v132 (Gen.W14 m ρ c)).trans (by rw [w14_v126 m ρ c, invOf_eq] <;> rfl)

/-! ## The second normalising region, and the result laid back -/
theorem w16_v133 : (Gen.W16 m ρ c (Proc.devRef .tc main_v133) : FVec Ideal S50000x128 .f32) = ((Cert.Spec.nm (shapeCast S50000x128 (Cert.Spec.denseK (aE m c) (Cert.Spec.layerK (aE m c) (aX m c) (aW1 m c) (aB1 m c)) (aW2 m c) (aB2 m c)) shapeCasts_S100000x64_S50000x128) (Cert.Spec.twice (Cert.Spec.meanRow (Cert.Spec.denseK (aE m c) (Cert.Spec.layerK (aE m c) (aX m c) (aW1 m c) (aB1 m c)) (aW2 m c) (aB2 m c)))) (Cert.Spec.twice (Cert.Spec.invRow (Cert.Spec.denseK (aE m c) (Cert.Spec.layerK (aE m c) (aX m c) (aW1 m c) (aB1 m c)) (aW2 m c) (aB2 m c))))) : FVec Ideal S50000x128 .f32) :=
  (Gen.W16_arr m ρ c 3).trans ((RegionValue.arr3 (Gen.V15 m ρ) c).trans (by
    show Cert.Spec.nm (Gen.W15 m ρ c (Proc.devRef .tc main_v130)) (Gen.W15 m ρ c (Proc.devRef .tc main_v131)) (Gen.W15 m ρ c (Proc.devRef .tc main_v132)) = _
    rw [w15_v130 m ρ c, w15_v131 m ρ c, w15_v132 m ρ c] <;> rfl))
theorem w17_v134 : (Gen.W17 m ρ c (Proc.devRef .tc main_v134) : FVec Ideal S100000x64 .f32) = ((Cert.Spec.layerK (aE m c) (Cert.Spec.layerK (aE m c) (aX m c) (aW1 m c) (aB1 m c)) (aW2 m c) (aB2 m c)) : FVec Ideal S100000x64 .f32) :=
  (r_hostOps4_v134 (Gen.W16 m ρ c)).trans (by rw [w16_v133 m ρ c] <;> rfl)

/-- The result buffer at the last boundary is the two layers of the kernel's own form applied to the arguments. -/
theorem result : (Gen.W17 m ρ c (Proc.devRef .tc main_v134) : FVec Ideal S100000x64 .f32) =
    Cert.Spec.layerK (aE m c) (Cert.Spec.layerK (aE m c) (aX m c) (aW1 m c) (aB1 m c)) (aW2 m c) (aB2 m c) := w17_v134 m ρ c

end Cert.KernelIdeal.KStage
end
-- ==== Proof.KValue.lean ====
/-
  The idealized kernel's run with its result as a function of the argument arrays: two layers of the kernel's own
  form of a layer (the reweighted dense part, then the re-laid normalisation) applied to the launch contents.
-/
import proofs.«133803_j9560597201237_2_alg».proof.Proof.KRun
import proofs.«133803_j9560597201237_2_alg».proof.Proof.KChain

noncomputable section

namespace Cert.KernelIdeal.KValue

open Idealize.ShloMosaic Idealize.ShloMosaic.TcCoe Idealize.SL.Sem
open Cert.KernelIdeal

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v134) =
          Cert.Spec.layerK (m ((c.tc : Thread nD τ).loc main_arg1))
            (Cert.Spec.layerK (m ((c.tc : Thread nD τ).loc main_arg1)) (m ((c.tc : Thread nD τ).loc main_arg0)) (m ((c.tc : Thread nD τ).loc main_arg2)) (m ((c.tc : Thread nD τ).loc main_arg3)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (Cert.KernelIdeal.KStage.result m ρ c), (h c).2⟩)
    (Cert.KernelIdeal.KRun.run (F := Ideal) m ρ)

end Cert.KernelIdeal.KValue

end
-- ==== Proof.RefRun.lean ====
/-
  The reference program's run. Its @main is a straight line of host tensor operations (the calls of its
  outlined functions, a select, a rectifier and a column variance, read as the callee's operations at the
  call site over the call's own buffers: each callee operation the plain operation on those buffers, the
  typed references' transports being the identity at literal references), listed here stretch by stretch in the order the program runs
  them: the edge rows (A1), the degrees and their inverse square roots (A2), the edge weights (A3), then
  per layer two propagation steps (B, C / F, G), the dense part with its rectifier (D / H) and the column
  statistics with the normalisation (E / I). Every weakly fair execution terminates with each buffer at
  the fold of the operations over the launch contents; a buffer no operation writes ends as launched.
-/
import proofs.«133803_j9560597201237_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  exacts [h₁ x h, h₂ x h]
theorem mem_append_all {α : Type} {p : α → Prop} {l₁ l₂ : List α} (h₁ : ∀ x ∈ l₁, p x) (h₂ : ∀ x ∈ l₂, p x) :
    ∀ x ∈ l₁ ++ l₂, p x := by
  intro x hx
  rcases List.mem_append.mp hx with h | h
  exacts [h₁ x h, h₂ x h]

abbrev opsA1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]
theorem opsA1_sub : (opsA1 : List (HloOp τ sig (Elt F))).Forall fun op => op.bufs ⊆ tcRefs τ sig :=
  ⟨unary_bufs_sub .., reshape_bufs_sub .., unary_bufs_sub .., reshape_bufs_sub ..⟩
theorem opsA1_fresh : ∀ op ∈ (opsA1 : List (HloOp τ sig (Elt F))), op.fresh = ∅ := by
  intro _ h; (repeat (cases h with | head => rfl | tail _ h => ?_)); exact nomatch h
/-- The buffers this stretch writes. -/
abbrev opsA1_W : List (Ref sig .tc) := [main_v0, main_v1, main_v2, main_v3]
set_option maxRecDepth 8192 in
theorem opsA1_writes : (opsA1 : List (HloOp τ sig (Elt F))).Forall fun op => op.writes ⊆ (opsA1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsA1_keep (V : Valuation τ sig (Elt F)) (r : Ref sig .tc) (h : r ∉ opsA1_W) :
    after opsA1 V (Proc.devRef .tc r) = V (Proc.devRef .tc r) :=
  after_of_writes_sub opsA1 V opsA1_writes h

abbrev opsA2 : List (HloOp τ sig (Elt F)) :=
  [ StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v9 main_v7 main_call0_v1 main_v10 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.unary main_cst_3 main_v11 (broadcastInDim S100000 ![] bcast_S_S100000 : (⟨S_, .f32⟩ : BufTy).Contents (Elt F) → (⟨S100000, .f32⟩ : BufTy).Contents (Elt F)),
    StableHlo.binary main_v7 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_4 (constant S_ .f32 0x00000000#32),
    StableHlo.unary main_cst_4 main_call1_v0 (id : (⟨S_, .f32⟩ : BufTy).Contents (Elt F) → (⟨S_, .f32⟩ : BufTy).Contents (Elt F)),
    StableHlo.unary main_call1_v0 main_call1_v1 (broadcastInDim S100000 ![] bcast_S_S100000 : (⟨S_, .f32⟩ : BufTy).Contents (Elt F) → (⟨S100000, .f32⟩ : BufTy).Contents (Elt F)),
    StableHlo.ternary main_v12 main_v13 main_call1_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]
theorem opsA2_sub : (opsA2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
theorem opsA2_fresh : ∀ op ∈ (opsA2 : List (HloOp τ sig (Elt F))), op.fresh = ∅ := by
  intro _ h; (repeat (cases h with | head => rfl | tail _ h => ?_)); exact nomatch h
/-- The buffers this stretch writes. -/
abbrev opsA2_W : List (Ref sig .tc) := [main_cst, main_v4, main_cst_0, main_v5, main_v6, main_v7, main_cst_1, main_v8, main_v9, main_cst_2, main_call0_v0, main_call0_v1, main_v10, main_cst_3, main_v11, main_v12, main_v13, main_cst_4, main_call1_v0, main_call1_v1, main_v14]
set_option maxRecDepth 8192 in
theorem opsA2_writes : (opsA2 : List (HloOp τ sig (Elt F))).Forall fun op => op.writes ⊆ (opsA2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsA2_keep (V : Valuation τ sig (Elt F)) (r : Ref sig .tc) (h : r ∉ opsA2_W) :
    after opsA2 V (Proc.devRef .tc r) = V (Proc.devRef .tc r) :=
  after_of_writes_sub opsA2 V opsA2_writes h

abbrev opsA3 : List (HloOp τ sig (Elt F)) :=
  [ StableHlo.nullary main_c (constantI S_ 32 0#32),
    StableHlo.unary main_c main_v15 (broadcastInDim S1600000 ![] bcast_S_S1600000 : (⟨S_, .i32⟩ : BufTy).Contents (Elt F) → (⟨S1600000, .i32⟩ : BufTy).Contents (Elt F)),
    StableHlo.binary main_v1 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v17 (broadcastInDim S1600000 ![] bcast_S_S1600000 : (⟨S_, .i32⟩ : BufTy).Contents (Elt F) → (⟨S1600000, .i32⟩ : BufTy).Contents (Elt F)),
    StableHlo.binary main_v1 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.unary main_v21 main_v22 (Host.negf : (⟨S1600000, .f32⟩ : BufTy).Contents (Elt F) → (⟨S1600000, .f32⟩ : BufTy).Contents (Elt F)),
    StableHlo.nullary main_c_6 (constantI S_ 32 0#32),
    StableHlo.unary main_c_6 main_v23 (broadcastInDim S1600000 ![] bcast_S_S1600000 : (⟨S_, .i32⟩ : BufTy).Contents (Elt F) → (⟨S1600000, .i32⟩ : BufTy).Contents (Elt F)),
    StableHlo.binary main_v3 main_v23 main_v24 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v25 (broadcastInDim S1600000 ![] bcast_S_S1600000 : (⟨S_, .i32⟩ : BufTy).Contents (Elt F) → (⟨S1600000, .i32⟩ : BufTy).Contents (Elt F)),
    StableHlo.binary main_v3 main_v25 main_v26 (addi : (⟨S1600000, .i32⟩ : BufTy).Contents (Elt F) → (⟨S1600000, .i32⟩ : BufTy).Contents (Elt F) → (⟨S1600000, .i32⟩ : BufTy).Contents (Elt F)),
    StableHlo.ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v27 main_v28 (broadcastInDim S1600000x1 ![0] bcast_S1600000_S1600000x1_0 : (⟨S1600000, .i32⟩ : BufTy).Contents (Elt F) → (⟨S1600000x1, .i32⟩ : BufTy).Contents (Elt F)),
    StableHlo.binary main_v14 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v22 main_v29 main_v30 (mulf : (⟨S1600000, .f32⟩ : BufTy).Contents (Elt F) → (⟨S1600000, .f32⟩ : BufTy).Contents (Elt F) → (⟨S1600000, .f32⟩ : BufTy).Contents (Elt F)) ]
theorem opsA3_sub : (opsA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsA3_fresh : ∀ op ∈ (opsA3 : List (HloOp τ sig (Elt F))), op.fresh = ∅ := by
  intro _ h; (repeat (cases h with | head => rfl | tail _ h => ?_)); exact nomatch h
/-- The buffers this stretch writes. -/
abbrev opsA3_W : List (Ref sig .tc) := [main_c, main_v15, main_v16, main_c_5, main_v17, main_v18, main_v19, main_v20, main_v21, main_v22, main_c_6, main_v23, main_v24, main_c_7, main_v25, main_v26, main_v27, main_v28, main_v29, main_v30]
set_option maxRecDepth 8192 in
theorem opsA3_writes : (opsA3 : List (HloOp τ sig (Elt F))).Forall fun op => op.writes ⊆ (opsA3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsA3_keep (V : Valuation τ sig (Elt F)) (r : Ref sig .tc) (h : r ∉ opsA3_W) :
    after opsA3 V (Proc.devRef .tc r) = V (Proc.devRef .tc r) :=
  after_of_writes_sub opsA3 V opsA3_writes h

abbrev opsB : List (HloOp τ sig (Elt F)) :=
  [ StableHlo.unary main_v30 main_v31 (broadcastInDim S1600000x1 ![0] bcast_S1600000_S1600000x1_0 : (⟨S1600000, .f32⟩ : BufTy).Contents (Elt F) → (⟨S1600000x1, .f32⟩ : BufTy).Contents (Elt F)),
    StableHlo.nullary main_c_8 (constantI S_ 32 0#32),
    StableHlo.unary main_c_8 main_v32 (broadcastInDim S1600000 ![] bcast_S_S1600000 : (⟨S_, .i32⟩ : BufTy).Contents (Elt F) → (⟨S1600000, .i32⟩ : BufTy).Contents (Elt F)),
    StableHlo.binary main_v1 main_v32 main_v33 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v34 (broadcastInDim S1600000 ![] bcast_S_S1600000 : (⟨S_, .i32⟩ : BufTy).Contents (Elt F) → (⟨S1600000, .i32⟩ : BufTy).Contents (Elt F)),
    StableHlo.binary main_v1 main_v34 main_v35 (addi : (⟨S1600000, .i32⟩ : BufTy).Contents (Elt F) → (⟨S1600000, .i32⟩ : BufTy).Contents (Elt F) → (⟨S1600000, .i32⟩ : BufTy).Contents (Elt F)),
    StableHlo.ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v36 main_v37 (broadcastInDim S1600000x1 ![0] bcast_S1600000_S1600000x1_0 : (⟨S1600000, .i32⟩ : BufTy).Contents (Elt F) → (⟨S1600000x1, .i32⟩ : BufTy).Contents (Elt F)),
    StableHlo.binary main_arg0 main_v37 main_v38 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v31 main_v39 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v39 main_v38 main_v40 (mulf : (⟨S1600000x64, .f32⟩ : BufTy).Contents (Elt F) → (⟨S1600000x64, .f32⟩ : BufTy).Contents (Elt F) → (⟨S1600000x64, .f32⟩ : BufTy).Contents (Elt F)),
    StableHlo.nullary main_cst_10 (constant S_ .f32 0x00000000#32),
    StableHlo.unary main_cst_10 main_v41 (broadcastInDim S100000x64 ![] bcast_S_S100000x64 : (⟨S_, .f32⟩ : BufTy).Contents (Elt F) → (⟨S100000x64, .f32⟩ : BufTy).Contents (Elt F)),
    StableHlo.unary main_v3 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem opsB_sub : (opsB : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsB_fresh : ∀ op ∈ (opsB : List (HloOp τ sig (Elt F))), op.fresh = ∅ := by
  intro _ h; (repeat (cases h with | head => rfl | tail _ h => ?_)); exact nomatch h
/-- The buffers this stretch writes. -/
abbrev opsB_W : List (Ref sig .tc) := [main_v31, main_c_8, main_v32, main_v33, main_c_9, main_v34, main_v35, main_v36, main_v37, main_v38, main_v39, main_v40, main_cst_10, main_v41, main_v42, main_v43]
set_option maxRecDepth 8192 in
theorem opsB_writes : (opsB : List (HloOp τ sig (Elt F))).Forall fun op => op.writes ⊆ (opsB_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsB_keep (V : Valuation τ sig (Elt F)) (r : Ref sig .tc) (h : r ∉ opsB_W) :
    after opsB V (Proc.devRef .tc r) = V (Proc.devRef .tc r) :=
  after_of_writes_sub opsB V opsB_writes h

abbrev opsC0 : List (HloOp τ sig (Elt F)) :=
  [ StableHlo.unary main_v30 main_v44 (broadcastInDim S1600000x1 ![0] bcast_S1600000_S1600000x1_0 : (⟨S1600000, .f32⟩ : BufTy).Contents (Elt F) → (⟨S1600000x1, .f32⟩ : BufTy).Contents (Elt F)),
    StableHlo.nullary main_c_11 (constantI S_ 32 0#32),
    StableHlo.unary main_c_11 main_v45 (broadcastInDim S1600000 ![] bcast_S_S1600000 : (⟨S_, .i32⟩ : BufTy).Contents (Elt F) → (⟨S1600000, .i32⟩ : BufTy).Contents (Elt F)) ]
theorem opsC0_sub : (opsC0 : List (HloOp τ sig (Elt F))).Forall fun op => op.bufs ⊆ tcRefs τ sig :=
  ⟨unary_bufs_sub .., nullary_bufs_sub .., unary_bufs_sub ..⟩
theorem opsC0_fresh : ∀ op ∈ (opsC0 : List (HloOp τ sig (Elt F))), op.fresh = ∅ := by
  intro _ h; (repeat (cases h with | head => rfl | tail _ h => ?_)); exact nomatch h
/-- The buffers this stretch writes. -/
abbrev opsC0_W : List (Ref sig .tc) := [main_v44, main_c_11, main_v45]
set_option maxRecDepth 8192 in
theorem opsC0_writes : (opsC0 : List (HloOp τ sig (Elt F))).Forall fun op => op.writes ⊆ (opsC0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsC0_keep (V : Valuation τ sig (Elt F)) (r : Ref sig .tc) (h : r ∉ opsC0_W) :
    after opsC0 V (Proc.devRef .tc r) = V (Proc.devRef .tc r) :=
  after_of_writes_sub opsC0 V opsC0_writes h

abbrev opsC1 : List (HloOp τ sig (Elt F)) :=
  [ StableHlo.binary main_v1 main_v45 main_v46 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v47 (broadcastInDim S1600000 ![] bcast_S_S1600000 : (⟨S_, .i32⟩ : BufTy).Contents (Elt F) → (⟨S1600000, .i32⟩ : BufTy).Contents (Elt F)),
    StableHlo.binary main_v1 main_v47 main_v48 (addi : (⟨S1600000, .i32⟩ : BufTy).Contents (Elt F) → (⟨S1600000, .i32⟩ : BufTy).Contents (Elt F) → (⟨S1600000, .i32⟩ : BufTy).Contents (Elt F)),
    StableHlo.ternary main_v46 main_v48 main_v1 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v49 main_v50 (broadcastInDim S1600000x1 ![0] bcast_S1600000_S1600000x1_0 : (⟨S1600000, .i32⟩ : BufTy).Contents (Elt F) → (⟨S1600000x1, .i32⟩ : BufTy).Contents (Elt F)),
    StableHlo.binary main_v43 main_v50 main_v51 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v44 main_v52 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v52 main_v51 main_v53 (mulf : (⟨S1600000x64, .f32⟩ : BufTy).Contents (Elt F) → (⟨S1600000x64, .f32⟩ : BufTy).Contents (Elt F) → (⟨S1600000x64, .f32⟩ : BufTy).Contents (Elt F)),
    StableHlo.nullary main_cst_13 (constant S_ .f32 0x00000000#32),
    StableHlo.unary main_cst_13 main_v54 (broadcastInDim S100000x64 ![] bcast_S_S100000x64 : (⟨S_, .f32⟩ : BufTy).Contents (Elt F) → (⟨S100000x64, .f32⟩ : BufTy).Contents (Elt F)),
    StableHlo.unary main_v3 main_v55 (broadcastInDim S1600000x1 ![0] bcast_S1600000_S1600000x1_0 : (⟨S1600000, .i32⟩ : BufTy).Contents (Elt F) → (⟨S1600000x1, .i32⟩ : BufTy).Contents (Elt F)),
    StableHlo.ternary main_v54 main_v55 main_v53 main_v56 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem opsC1_sub : (opsC1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsC1_fresh : ∀ op ∈ (opsC1 : List (HloOp τ sig (Elt F))), op.fresh = ∅ := by
  intro _ h; (repeat (cases h with | head => rfl | tail _ h => ?_)); exact nomatch h
/-- The buffers this stretch writes. -/
abbrev opsC1_W : List (Ref sig .tc) := [main_v46, main_c_12, main_v47, main_v48, main_v49, main_v50, main_v51, main_v52, main_v53, main_cst_13, main_v54, main_v55, main_v56]
set_option maxRecDepth 8192 in
theorem opsC1_writes : (opsC1 : List (HloOp τ sig (Elt F))).Forall fun op => op.writes ⊆ (opsC1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsC1_keep (V : Valuation τ sig (Elt F)) (r : Ref sig .tc) (h : r ∉ opsC1_W) :
    after opsC1 V (Proc.devRef .tc r) = V (Proc.devRef .tc r) :=
  after_of_writes_sub opsC1 V opsC1_writes h

abbrev opsD : List (HloOp τ sig (Elt F)) :=
  [ StableHlo.nullary main_cst_14 (constant S_ .f32 0x40000000#32),
    StableHlo.unary main_cst_14 main_v57 (broadcastInDim S100000x64 ![] bcast_S_S100000x64 : (⟨S_, .f32⟩ : BufTy).Contents (Elt F) → (⟨S100000x64, .f32⟩ : BufTy).Contents (Elt F)),
    StableHlo.binary main_v57 main_v56 main_v58 (mulf : (⟨S100000x64, .f32⟩ : BufTy).Contents (Elt F) → (⟨S100000x64, .f32⟩ : BufTy).Contents (Elt F) → (⟨S100000x64, .f32⟩ : BufTy).Contents (Elt F)),
    StableHlo.binary main_v58 main_arg0 main_v59 (subf : (⟨S100000x64, .f32⟩ : BufTy).Contents (Elt F) → (⟨S100000x64, .f32⟩ : BufTy).Contents (Elt F) → (⟨S100000x64, .f32⟩ : BufTy).Contents (Elt F)),
    StableHlo.unary main_arg2 main_v60 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v60 main_v61 rfl shapeCasts_S1x64x64_S64x64,
    StableHlo.binary main_arg0 main_v61 main_v62 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v63 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v63 main_v64 rfl shapeCasts_S1x64x64_S64x64,
    StableHlo.binary main_v43 main_v64 main_v65 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v62 main_v65 main_v66 (addf : (⟨S100000x64, .f32⟩ : BufTy).Contents (Elt F) → (⟨S100000x64, .f32⟩ : BufTy).Contents (Elt F) → (⟨S100000x64, .f32⟩ : BufTy).Contents (Elt F)),
    StableHlo.unary main_arg2 main_v67 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v67 main_v68 rfl shapeCasts_S1x64x64_S64x64,
    StableHlo.binary main_v59 main_v68 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v66 main_v69 main_v70 (addf : (⟨S100000x64, .f32⟩ : BufTy).Contents (Elt F) → (⟨S100000x64, .f32⟩ : BufTy).Contents (Elt F) → (⟨S100000x64, .f32⟩ : BufTy).Contents (Elt F)),
    StableHlo.unary main_arg3 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v70 main_v72 main_v73 (addf : (⟨S100000x64, .f32⟩ : BufTy).Contents (Elt F) → (⟨S100000x64, .f32⟩ : BufTy).Contents (Elt F) → (⟨S100000x64, .f32⟩ : BufTy).Contents (Elt F)),
    StableHlo.nullary main_call2_cst (constant S_ .f32 0x00000000#32),
    StableHlo.unary main_call2_cst main_call2_v0 (broadcastInDim S100000x64 ![] bcast_S_S100000x64 : (⟨S_, .f32⟩ : BufTy).Contents (Elt F) → (⟨S100000x64, .f32⟩ : BufTy).Contents (Elt F)),
    StableHlo.binary main_v73 main_call2_v0 main_v74 (maximumf : (⟨S100000x64, .f32⟩ : BufTy).Contents (Elt F) → (⟨S100000x64, .f32⟩ : BufTy).Contents (Elt F) → (⟨S100000x64, .f32⟩ : BufTy).Contents (Elt F)) ]
theorem opsD_sub : (opsD : List (HloOp τ sig (Elt F))).Forall fun op => op.bufs ⊆ tcRefs τ sig :=
  ⟨nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩
theorem opsD_fresh : ∀ op ∈ (opsD : List (HloOp τ sig (Elt F))), op.fresh = ∅ := by
  intro _ h; (repeat (cases h with | head => rfl | tail _ h => ?_)); exact nomatch h
/-- The buffers this stretch writes. -/
abbrev opsD_W : List (Ref sig .tc) := [main_cst_14, main_v57, main_v58, main_v59, main_v60, main_v61, main_v62, main_v63, main_v64, main_v65, main_v66, main_v67, main_v68, main_v69, main_v70, main_v71, main_v72, main_v73, main_call2_cst, main_call2_v0, main_v74]
set_option maxRecDepth 8192 in
theorem opsD_writes : (opsD : List (HloOp τ sig (Elt F))).Forall fun op => op.writes ⊆ (opsD_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsD_keep (V : Valuation τ sig (Elt F)) (r : Ref sig .tc) (h : r ∉ opsD_W) :
    after opsD V (Proc.devRef .tc r) = V (Proc.devRef .tc r) :=
  after_of_writes_sub opsD V opsD_writes h

abbrev opsE : List (HloOp τ sig (Elt F)) :=
  [ StableHlo.nullary main_cst_15 (constant S_ .f32 0x00000000#32),
    StableHlo.binary main_v74 main_cst_15 main_v75 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_v75 main_v76 (broadcastInDim S1x64 ![1] bcast_S64_S1x64_1 : (⟨S64, .f32⟩ : BufTy).Contents (Elt F) → (⟨S1x64, .f32⟩ : BufTy).Contents (Elt F)),
    StableHlo.nullary main_cst_16 (constant S_ .f32 0x47C35000#32),
    StableHlo.unary main_cst_16 main_v77 (broadcastInDim S1x64 ![] bcast_S_S1x64 : (⟨S_, .f32⟩ : BufTy).Contents (Elt F) → (⟨S1x64, .f32⟩ : BufTy).Contents (Elt F)),
    StableHlo.binary main_v76 main_v77 main_v78 (Host.divf : (⟨S1x64, .f32⟩ : BufTy).Contents (Elt F) → (⟨S1x64, .f32⟩ : BufTy).Contents (Elt F) → (⟨S1x64, .f32⟩ : BufTy).Contents (Elt F)),
    StableHlo.nullary main_c_17 (constantI S_ 32 0#32),
    StableHlo.nullary main_call3_cst (constant S_ .f32 0x00000000#32),
    StableHlo.binary main_v74 main_call3_cst main_call3_v0 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call3_v0 main_call3_v1 (broadcastInDim S1x64 ![1] bcast_S64_S1x64_1 : (⟨S64, .f32⟩ : BufTy).Contents (Elt F) → (⟨S1x64, .f32⟩ : BufTy).Contents (Elt F)),
    StableHlo.nullary main_call3_cst_0 (constant S_ .f32 0x47C35000#32),
    StableHlo.unary main_call3_cst_0 main_call3_v2 (broadcastInDim S1x64 ![] bcast_S_S1x64 : (⟨S_, .f32⟩ : BufTy).Contents (Elt F) → (⟨S1x64, .f32⟩ : BufTy).Contents (Elt F)),
    StableHlo.binary main_call3_v1 main_call3_v2 main_call3_v3 (Host.divf : (⟨S1x64, .f32⟩ : BufTy).Contents (Elt F) → (⟨S1x64, .f32⟩ : BufTy).Contents (Elt F) → (⟨S1x64, .f32⟩ : BufTy).Contents (Elt F)),
    StableHlo.unary main_call3_v3 main_call3_v4 (broadcastInDim S100000x64 ![0, 1] bcast_S1x64_S100000x64_0_1 : (⟨S1x64, .f32⟩ : BufTy).Contents (Elt F) → (⟨S100000x64, .f32⟩ : BufTy).Contents (Elt F)),
    StableHlo.binary main_v74 main_call3_v4 main_call3_v5 (subf : (⟨S100000x64, .f32⟩ : BufTy).Contents (Elt F) → (⟨S100000x64, .f32⟩ : BufTy).Contents (Elt F) → (⟨S100000x64, .f32⟩ : BufTy).Contents (Elt F)),
    StableHlo.binary main_call3_v5 main_call3_v5 main_call3_v6 (mulf : (⟨S100000x64, .f32⟩ : BufTy).Contents (Elt F) → (⟨S100000x64, .f32⟩ : BufTy).Contents (Elt F) → (⟨S100000x64, .f32⟩ : BufTy).Contents (Elt F)),
    StableHlo.unary main_c_17 main_call3_v7 (sitofp .f32 : (⟨S_, .i32⟩ : BufTy).Contents (Elt F) → (⟨S_, .f32⟩ : BufTy).Contents (Elt F)),
    StableHlo.nullary main_call3_cst_1 (constant S_ .f32 0x47C35000#32),
    StableHlo.binary main_call3_cst_1 main_call3_v7 main_call3_v8 (subf : (⟨S_, .f32⟩ : BufTy).Contents (Elt F) → (⟨S_, .f32⟩ : BufTy).Contents (Elt F) → (⟨S_, .f32⟩ : BufTy).Contents (Elt F)),
    StableHlo.nullary main_call3_cst_2 (constant S_ .f32 0x00000000#32),
    StableHlo.binary main_call3_v6 main_call3_cst_2 main_call3_v9 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call3_v9 main_call3_v10 (broadcastInDim S1x64 ![1] bcast_S64_S1x64_1 : (⟨S64, .f32⟩ : BufTy).Contents (Elt F) → (⟨S1x64, .f32⟩ : BufTy).Contents (Elt F)),
    StableHlo.unary main_call3_v8 main_call3_v11 (broadcastInDim S1x64 ![] bcast_S_S1x64 : (⟨S_, .f32⟩ : BufTy).Contents (Elt F) → (⟨S1x64, .f32⟩ : BufTy).Contents (Elt F)),
    StableHlo.binary main_call3_v10 main_call3_v11 main_call3_v12 (Host.divf : (⟨S1x64, .f32⟩ : BufTy).Contents (Elt F) → (⟨S1x64, .f32⟩ : BufTy).Contents (Elt F) → (⟨S1x64, .f32⟩ : BufTy).Contents (Elt F)),
    StableHlo.nullary main_call3_cst_3 (constant S_ .f32 0x00000000#32),
    StableHlo.binary main_call3_v8 main_call3_cst_3 main_call3_v13 (cmpf .ogt : (⟨S_, .f32⟩ : BufTy).Contents (Elt F) → (⟨S_, .f32⟩ : BufTy).Contents (Elt F) → (⟨S_, .i1⟩ : BufTy).Contents (Elt F)),
    StableHlo.nullary main_call3_cst_4 (constant S_ .f32 0x7FC00000#32),
    StableHlo.unary main_call3_cst_4 main_call3_call0_v0 (id : (⟨S_, .f32⟩ : BufTy).Contents (Elt F) → (⟨S_, .f32⟩ : BufTy).Contents (Elt F)),
    StableHlo.unary main_call3_call0_v0 main_call3_call0_v1 (broadcastInDim S1x64 ![] bcast_S_S1x64 : (⟨S_, .f32⟩ : BufTy).Contents (Elt F) → (⟨S1x64, .f32⟩ : BufTy).Contents (Elt F)),
    StableHlo.ternary main_call3_v13 main_call3_v12 main_call3_call0_v1 main_v79 ((fun p a b => select (broadcastInDim S1x64 ![] bcast_S_S1x64 p) a b) : (⟨S_, .i1⟩ : BufTy).Contents (Elt F) → (⟨S1x64, .f32⟩ : BufTy).Contents (Elt F) → (⟨S1x64, .f32⟩ : BufTy).Contents (Elt F) → (⟨S1x64, .f32⟩ : BufTy).Contents (Elt F)),
    StableHlo.unary main_v78 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v74 main_v80 main_v81 (subf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v82 (broadcastInDim S1x64 ![] bcast_S_S1x64 : (⟨S_, .f32⟩ : BufTy).Contents (Elt F) → (⟨S1x64, .f32⟩ : BufTy).Contents (Elt F)),
    StableHlo.binary main_v79 main_v82 main_v83 (addf : (⟨S1x64, .f32⟩ : BufTy).Contents (Elt F) → (⟨S1x64, .f32⟩ : BufTy).Contents (Elt F) → (⟨S1x64, .f32⟩ : BufTy).Contents (Elt F)),
    StableHlo.unary main_v83 main_v84 (Host.rsqrt : (⟨S1x64, .f32⟩ : BufTy).Contents (Elt F) → (⟨S1x64, .f32⟩ : BufTy).Contents (Elt F)),
    StableHlo.unary main_v84 main_v85 (broadcastInDim S100000x64 ![0, 1] bcast_S1x64_S100000x64_0_1 : (⟨S1x64, .f32⟩ : BufTy).Contents (Elt F) → (⟨S100000x64, .f32⟩ : BufTy).Contents (Elt F)),
    StableHlo.binary main_v81 main_v85 main_v86 (mulf : (⟨S100000x64, .f32⟩ : BufTy).Contents (Elt F) → (⟨S100000x64, .f32⟩ : BufTy).Contents (Elt F) → (⟨S100000x64, .f32⟩ : BufTy).Contents (Elt F)) ]
theorem opsE_sub : (opsE : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub ..⟩
theorem opsE_fresh : ∀ op ∈ (opsE : List (HloOp τ sig (Elt F))), op.fresh = ∅ := by
  intro _ h; (repeat (cases h with | head => rfl | tail _ h => ?_)); exact nomatch h
/-- The buffers this stretch writes. -/
abbrev opsE_W : List (Ref sig .tc) := [main_cst_15, main_v75, main_v76, main_cst_16, main_v77, main_v78, main_c_17, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v79, main_v80, main_v81, main_cst_18, main_v82, main_v83, main_v84, main_v85, main_v86]
set_option maxRecDepth 8192 in
theorem opsE_writes : (opsE : List (HloOp τ sig (Elt F))).Forall fun op => op.writes ⊆ (opsE_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsE_keep (V : Valuation τ sig (Elt F)) (r : Ref sig .tc) (h : r ∉ opsE_W) :
    after opsE V (Proc.devRef .tc r) = V (Proc.devRef .tc r) :=
  after_of_writes_sub opsE V opsE_writes h

abbrev opsF0 : List (HloOp τ sig (Elt F)) :=
  [ StableHlo.unary main_v30 main_v87 (broadcastInDim S1600000x1 ![0] bcast_S1600000_S1600000x1_0 : (⟨S1600000, .f32⟩ : BufTy).Contents (Elt F) → (⟨S1600000x1, .f32⟩ : BufTy).Contents (Elt F)),
    StableHlo.nullary main_c_19 (constantI S_ 32 0#32),
    StableHlo.unary main_c_19 main_v88 (broadcastInDim S1600000 ![] bcast_S_S1600000 : (⟨S_, .i32⟩ : BufTy).Contents (Elt F) → (⟨S1600000, .i32⟩ : BufTy).Contents (Elt F)),
    StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v90 (broadcastInDim S1600000 ![] bcast_S_S1600000 : (⟨S_, .i32⟩ : BufTy).Contents (Elt F) → (⟨S1600000, .i32⟩ : BufTy).Contents (Elt F)),
    StableHlo.binary main_v1 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)),
    StableHlo.binary main_v86 main_v93 main_v94 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v87 main_v95 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v95 main_v94 main_v96 (mulf : (⟨S1600000x64, .f32⟩ : BufTy).Contents (Elt F) → (⟨S1600000x64, .f32⟩ : BufTy).Contents (Elt F) → (⟨S1600000x64, .f32⟩ : BufTy).Contents (Elt F)) ]
theorem opsF0_sub : (opsF0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩
theorem opsF0_fresh : ∀ op ∈ (opsF0 : List (HloOp τ sig (Elt F))), op.fresh = ∅ := by
  intro _ h; (repeat (cases h with | head => rfl | tail _ h => ?_)); exact nomatch h
/-- The buffers this stretch writes. -/
abbrev opsF0_W : List (Ref sig .tc) := [main_v87, main_c_19, main_v88, main_v89, main_c_20, main_v90, main_v91, main_v92, main_v93, main_v94, main_v95, main_v96]
set_option maxRecDepth 8192 in
theorem opsF0_writes : (opsF0 : List (HloOp τ sig (Elt F))).Forall fun op => op.writes ⊆ (opsF0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsF0_keep (V : Valuation τ sig (Elt F)) (r : Ref sig .tc) (h : r ∉ opsF0_W) :
    after opsF0 V (Proc.devRef .tc r) = V (Proc.devRef .tc r) :=
  after_of_writes_sub opsF0 V opsF0_writes h

abbrev opsF1 : List (HloOp τ sig (Elt F)) :=
  [ StableHlo.nullary main_cst_21 (constant S_ .f32 0x00000000#32),
    StableHlo.unary main_cst_21 main_v97 (broadcastInDim S100000x64 ![] bcast_S_S100000x64 : (⟨S_, .f32⟩ : BufTy).Contents (Elt F) → (⟨S100000x64, .f32⟩ : BufTy).Contents (Elt F)),
    StableHlo.unary main_v3 main_v98 (broadcastInDim S1600000x1 ![0] bcast_S1600000_S1600000x1_0 : (⟨S1600000, .i32⟩ : BufTy).Contents (Elt F) → (⟨S1600000x1, .i32⟩ : BufTy).Contents (Elt F)),
    StableHlo.ternary main_v97 main_v98 main_v96 main_v99 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem opsF1_sub : (opsF1 : List (HloOp τ sig (Elt F))).Forall fun op => op.bufs ⊆ tcRefs τ sig :=
  ⟨nullary_bufs_sub .., unary_bufs_sub .., unary_bufs_sub .., ternary_bufs_sub ..⟩
theorem opsF1_fresh : ∀ op ∈ (opsF1 : List (HloOp τ sig (Elt F))), op.fresh = ∅ := by
  intro _ h; (repeat (cases h with | head => rfl | tail _ h => ?_)); exact nomatch h
/-- The buffers this stretch writes. -/
abbrev opsF1_W : List (Ref sig .tc) := [main_cst_21, main_v97, main_v98, main_v99]
set_option maxRecDepth 8192 in
theorem opsF1_writes : (opsF1 : List (HloOp τ sig (Elt F))).Forall fun op => op.writes ⊆ (opsF1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsF1_keep (V : Valuation τ sig (Elt F)) (r : Ref sig .tc) (h : r ∉ opsF1_W) :
    after opsF1 V (Proc.devRef .tc r) = V (Proc.devRef .tc r) :=
  after_of_writes_sub opsF1 V opsF1_writes h

abbrev opsG : List (HloOp τ sig (Elt F)) :=
  [ StableHlo.unary main_v30 main_v100 (broadcastInDim S1600000x1 ![0] bcast_S1600000_S1600000x1_0 : (⟨S1600000, .f32⟩ : BufTy).Contents (Elt F) → (⟨S1600000x1, .f32⟩ : BufTy).Contents (Elt F)),
    StableHlo.nullary main_c_22 (constantI S_ 32 0#32),
    StableHlo.unary main_c_22 main_v101 (broadcastInDim S1600000 ![] bcast_S_S1600000 : (⟨S_, .i32⟩ : BufTy).Contents (Elt F) → (⟨S1600000, .i32⟩ : BufTy).Contents (Elt F)),
    StableHlo.binary main_v1 main_v101 main_v102 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v103 (broadcastInDim S1600000 ![] bcast_S_S1600000 : (⟨S_, .i32⟩ : BufTy).Contents (Elt F) → (⟨S1600000, .i32⟩ : BufTy).Contents (Elt F)),
    StableHlo.binary main_v1 main_v103 main_v104 (addi : (⟨S1600000, .i32⟩ : BufTy).Contents (Elt F) → (⟨S1600000, .i32⟩ : BufTy).Contents (Elt F) → (⟨S1600000, .i32⟩ : BufTy).Contents (Elt F)),
    StableHlo.ternary main_v102 main_v104 main_v1 main_v105 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v105 main_v106 (broadcastInDim S1600000x1 ![0] bcast_S1600000_S1600000x1_0 : (⟨S1600000, .i32⟩ : BufTy).Contents (Elt F) → (⟨S1600000x1, .i32⟩ : BufTy).Contents (Elt F)),
    StableHlo.binary main_v99 main_v106 main_v107 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v100 main_v108 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v108 main_v107 main_v109 (mulf : (⟨S1600000x64, .f32⟩ : BufTy).Contents (Elt F) → (⟨S1600000x64, .f32⟩ : BufTy).Contents (Elt F) → (⟨S1600000x64, .f32⟩ : BufTy).Contents (Elt F)),
    StableHlo.nullary main_cst_24 (constant S_ .f32 0x00000000#32),
    StableHlo.unary main_cst_24 main_v110 (broadcastInDim S100000x64 ![] bcast_S_S100000x64 : (⟨S_, .f32⟩ : BufTy).Contents (Elt F) → (⟨S100000x64, .f32⟩ : BufTy).Contents (Elt F)),
    StableHlo.unary main_v3 main_v111 (broadcastInDim S1600000x1 ![0] bcast_S1600000_S1600000x1_0 : (⟨S1600000, .i32⟩ : BufTy).Contents (Elt F) → (⟨S1600000x1, .i32⟩ : BufTy).Contents (Elt F)),
    StableHlo.ternary main_v110 main_v111 main_v109 main_v112 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem opsG_sub : (opsG : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsG_fresh : ∀ op ∈ (opsG : List (HloOp τ sig (Elt F))), op.fresh = ∅ := by
  intro _ h; (repeat (cases h with | head => rfl | tail _ h => ?_)); exact nomatch h
/-- The buffers this stretch writes. -/
abbrev opsG_W : List (Ref sig .tc) := [main_v100, main_c_22, main_v101, main_v102, main_c_23, main_v103, main_v104, main_v105, main_v106, main_v107, main_v108, main_v109, main_cst_24, main_v110, main_v111, main_v112]
set_option maxRecDepth 8192 in
theorem opsG_writes : (opsG : List (HloOp τ sig (Elt F))).Forall fun op => op.writes ⊆ (opsG_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsG_keep (V : Valuation τ sig (Elt F)) (r : Ref sig .tc) (h : r ∉ opsG_W) :
    after opsG V (Proc.devRef .tc r) = V (Proc.devRef .tc r) :=
  after_of_writes_sub opsG V opsG_writes h

abbrev opsH : List (HloOp τ sig (Elt F)) :=
  [ StableHlo.nullary main_cst_25 (constant S_ .f32 0x40000000#32),
    StableHlo.unary main_cst_25 main_v113 (broadcastInDim S100000x64 ![] bcast_S_S100000x64 : (⟨S_, .f32⟩ : BufTy).Contents (Elt F) → (⟨S100000x64, .f32⟩ : BufTy).Contents (Elt F)),
    StableHlo.binary main_v113 main_v112 main_v114 (mulf : (⟨S100000x64, .f32⟩ : BufTy).Contents (Elt F) → (⟨S100000x64, .f32⟩ : BufTy).Contents (Elt F) → (⟨S100000x64, .f32⟩ : BufTy).Contents (Elt F)),
    StableHlo.binary main_v114 main_v86 main_v115 (subf : (⟨S100000x64, .f32⟩ : BufTy).Contents (Elt F) → (⟨S100000x64, .f32⟩ : BufTy).Contents (Elt F) → (⟨S100000x64, .f32⟩ : BufTy).Contents (Elt F)),
    StableHlo.unary main_arg4 main_v116 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v116 main_v117 rfl shapeCasts_S1x64x64_S64x64,
    StableHlo.binary main_v86 main_v117 main_v118 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v119 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v119 main_v120 rfl shapeCasts_S1x64x64_S64x64,
    StableHlo.binary main_v99 main_v120 main_v121 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v118 main_v121 main_v122 (addf : (⟨S100000x64, .f32⟩ : BufTy).Contents (Elt F) → (⟨S100000x64, .f32⟩ : BufTy).Contents (Elt F) → (⟨S100000x64, .f32⟩ : BufTy).Contents (Elt F)),
    StableHlo.unary main_arg4 main_v123 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v123 main_v124 rfl shapeCasts_S1x64x64_S64x64,
    StableHlo.binary main_v115 main_v124 main_v125 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v122 main_v125 main_v126 (addf : (⟨S100000x64, .f32⟩ : BufTy).Contents (Elt F) → (⟨S100000x64, .f32⟩ : BufTy).Contents (Elt F) → (⟨S100000x64, .f32⟩ : BufTy).Contents (Elt F)),
    StableHlo.unary main_arg5 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S100000x64 ![0, 1] bcast_S1x64_S100000x64_0_1 : (⟨S1x64, .f32⟩ : BufTy).Contents (Elt F) → (⟨S100000x64, .f32⟩ : BufTy).Contents (Elt F)),
    StableHlo.binary main_v126 main_v128 main_v129 (addf : (⟨S100000x64, .f32⟩ : BufTy).Contents (Elt F) → (⟨S100000x64, .f32⟩ : BufTy).Contents (Elt F) → (⟨S100000x64, .f32⟩ : BufTy).Contents (Elt F)),
    StableHlo.nullary main_call4_cst (constant S_ .f32 0x00000000#32),
    StableHlo.unary main_call4_cst main_call4_v0 (broadcastInDim S100000x64 ![] bcast_S_S100000x64 : (⟨S_, .f32⟩ : BufTy).Contents (Elt F) → (⟨S100000x64, .f32⟩ : BufTy).Contents (Elt F)),
    StableHlo.binary main_v129 main_call4_v0 main_v130 (maximumf : (⟨S100000x64, .f32⟩ : BufTy).Contents (Elt F) → (⟨S100000x64, .f32⟩ : BufTy).Contents (Elt F) → (⟨S100000x64, .f32⟩ : BufTy).Contents (Elt F)) ]
theorem opsH_sub : (opsH : List (HloOp τ sig (Elt F))).Forall fun op => op.bufs ⊆ tcRefs τ sig :=
  ⟨nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩
theorem opsH_fresh : ∀ op ∈ (opsH : List (HloOp τ sig (Elt F))), op.fresh = ∅ := by
  intro _ h; (repeat (cases h with | head => rfl | tail _ h => ?_)); exact nomatch h
/-- The buffers this stretch writes. -/
abbrev opsH_W : List (Ref sig .tc) := [main_cst_25, main_v113, main_v114, main_v115, main_v116, main_v117, main_v118, main_v119, main_v120, main_v121, main_v122, main_v123, main_v124, main_v125, main_v126, main_v127, main_v128, main_v129, main_call4_cst, main_call4_v0, main_v130]
set_option maxRecDepth 8192 in
theorem opsH_writes : (opsH : List (HloOp τ sig (Elt F))).Forall fun op => op.writes ⊆ (opsH_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsH_keep (V : Valuation τ sig (Elt F)) (r : Ref sig .tc) (h : r ∉ opsH_W) :
    after opsH V (Proc.devRef .tc r) = V (Proc.devRef .tc r) :=
  after_of_writes_sub opsH V opsH_writes h

abbrev opsI : List (HloOp τ sig (Elt F)) :=
  [ StableHlo.nullary main_cst_26 (constant S_ .f32 0x00000000#32),
    StableHlo.binary main_v130 main_cst_26 main_v131 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_v131 main_v132 (broadcastInDim S1x64 ![1] bcast_S64_S1x64_1 : (⟨S64, .f32⟩ : BufTy).Contents (Elt F) → (⟨S1x64, .f32⟩ : BufTy).Contents (Elt F)),
    StableHlo.nullary main_cst_27 (constant S_ .f32 0x47C35000#32),
    StableHlo.unary main_cst_27 main_v133 (broadcastInDim S1x64 ![] bcast_S_S1x64 : (⟨S_, .f32⟩ : BufTy).Contents (Elt F) → (⟨S1x64, .f32⟩ : BufTy).Contents (Elt F)),
    StableHlo.binary main_v132 main_v133 main_v134 (Host.divf : (⟨S1x64, .f32⟩ : BufTy).Contents (Elt F) → (⟨S1x64, .f32⟩ : BufTy).Contents (Elt F) → (⟨S1x64, .f32⟩ : BufTy).Contents (Elt F)),
    StableHlo.nullary main_c_28 (constantI S_ 32 0#32),
    StableHlo.nullary main_call5_cst (constant S_ .f32 0x00000000#32),
    StableHlo.binary main_v130 main_call5_cst main_call5_v0 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call5_v0 main_call5_v1 (broadcastInDim S1x64 ![1] bcast_S64_S1x64_1 : (⟨S64, .f32⟩ : BufTy).Contents (Elt F) → (⟨S1x64, .f32⟩ : BufTy).Contents (Elt F)),
    StableHlo.nullary main_call5_cst_0 (constant S_ .f32 0x47C35000#32),
    StableHlo.unary main_call5_cst_0 main_call5_v2 (broadcastInDim S1x64 ![] bcast_S_S1x64 : (⟨S_, .f32⟩ : BufTy).Contents (Elt F) → (⟨S1x64, .f32⟩ : BufTy).Contents (Elt F)),
    StableHlo.binary main_call5_v1 main_call5_v2 main_call5_v3 (Host.divf : (⟨S1x64, .f32⟩ : BufTy).Contents (Elt F) → (⟨S1x64, .f32⟩ : BufTy).Contents (Elt F) → (⟨S1x64, .f32⟩ : BufTy).Contents (Elt F)),
    StableHlo.unary main_call5_v3 main_call5_v4 (broadcastInDim S100000x64 ![0, 1] bcast_S1x64_S100000x64_0_1 : (⟨S1x64, .f32⟩ : BufTy).Contents (Elt F) → (⟨S100000x64, .f32⟩ : BufTy).Contents (Elt F)),
    StableHlo.binary main_v130 main_call5_v4 main_call5_v5 (subf : (⟨S100000x64, .f32⟩ : BufTy).Contents (Elt F) → (⟨S100000x64, .f32⟩ : BufTy).Contents (Elt F) → (⟨S100000x64, .f32⟩ : BufTy).Contents (Elt F)),
    StableHlo.binary main_call5_v5 main_call5_v5 main_call5_v6 (mulf : (⟨S100000x64, .f32⟩ : BufTy).Contents (Elt F) → (⟨S100000x64, .f32⟩ : BufTy).Contents (Elt F) → (⟨S100000x64, .f32⟩ : BufTy).Contents (Elt F)),
    StableHlo.unary main_c_28 main_call5_v7 (sitofp .f32 : (⟨S_, .i32⟩ : BufTy).Contents (Elt F) → (⟨S_, .f32⟩ : BufTy).Contents (Elt F)),
    StableHlo.nullary main_call5_cst_1 (constant S_ .f32 0x47C35000#32),
    StableHlo.binary main_call5_cst_1 main_call5_v7 main_call5_v8 (subf : (⟨S_, .f32⟩ : BufTy).Contents (Elt F) → (⟨S_, .f32⟩ : BufTy).Contents (Elt F) → (⟨S_, .f32⟩ : BufTy).Contents (Elt F)),
    StableHlo.nullary main_call5_cst_2 (constant S_ .f32 0x00000000#32),
    StableHlo.binary main_call5_v6 main_call5_cst_2 main_call5_v9 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call5_v9 main_call5_v10 (broadcastInDim S1x64 ![1] bcast_S64_S1x64_1 : (⟨S64, .f32⟩ : BufTy).Contents (Elt F) → (⟨S1x64, .f32⟩ : BufTy).Contents (Elt F)),
    StableHlo.unary main_call5_v8 main_call5_v11 (broadcastInDim S1x64 ![] bcast_S_S1x64 : (⟨S_, .f32⟩ : BufTy).Contents (Elt F) → (⟨S1x64, .f32⟩ : BufTy).Contents (Elt F)),
    StableHlo.binary main_call5_v10 main_call5_v11 main_call5_v12 (Host.divf : (⟨S1x64, .f32⟩ : BufTy).Contents (Elt F) → (⟨S1x64, .f32⟩ : BufTy).Contents (Elt F) → (⟨S1x64, .f32⟩ : BufTy).Contents (Elt F)),
    StableHlo.nullary main_call5_cst_3 (constant S_ .f32 0x00000000#32),
    StableHlo.binary main_call5_v8 main_call5_cst_3 main_call5_v13 (cmpf .ogt : (⟨S_, .f32⟩ : BufTy).Contents (Elt F) → (⟨S_, .f32⟩ : BufTy).Contents (Elt F) → (⟨S_, .i1⟩ : BufTy).Contents (Elt F)),
    StableHlo.nullary main_call5_cst_4 (constant S_ .f32 0x7FC00000#32),
    StableHlo.unary main_call5_cst_4 main_call5_call0_v0 (id : (⟨S_, .f32⟩ : BufTy).Contents (Elt F) → (⟨S_, .f32⟩ : BufTy).Contents (Elt F)),
    StableHlo.unary main_call5_call0_v0 main_call5_call0_v1 (broadcastInDim S1x64 ![] bcast_S_S1x64 : (⟨S_, .f32⟩ : BufTy).Contents (Elt F) → (⟨S1x64, .f32⟩ : BufTy).Contents (Elt F)),
    StableHlo.ternary main_call5_v13 main_call5_v12 main_call5_call0_v1 main_v135 ((fun p a b => select (broadcastInDim S1x64 ![] bcast_S_S1x64 p) a b) : (⟨S_, .i1⟩ : BufTy).Contents (Elt F) → (⟨S1x64, .f32⟩ : BufTy).Contents (Elt F) → (⟨S1x64, .f32⟩ : BufTy).Contents (Elt F) → (⟨S1x64, .f32⟩ : BufTy).Contents (Elt F)),
    StableHlo.unary main_v134 main_v136 (broadcastInDim S100000x64 ![0, 1] bcast_S1x64_S100000x64_0_1 : (⟨S1x64, .f32⟩ : BufTy).Contents (Elt F) → (⟨S100000x64, .f32⟩ : BufTy).Contents (Elt F)),
    StableHlo.binary main_v130 main_v136 main_v137 (subf : (⟨S100000x64, .f32⟩ : BufTy).Contents (Elt F) → (⟨S100000x64, .f32⟩ : BufTy).Contents (Elt F) → (⟨S100000x64, .f32⟩ : BufTy).Contents (Elt F)),
    StableHlo.nullary main_cst_29 (constant S_ .f32 0x3727C5AC#32),
    StableHlo.unary main_cst_29 main_v138 (broadcastInDim S1x64 ![] bcast_S_S1x64 : (⟨S_, .f32⟩ : BufTy).Contents (Elt F) → (⟨S1x64, .f32⟩ : BufTy).Contents (Elt F)),
    StableHlo.binary main_v135 main_v138 main_v139 (addf : (⟨S1x64, .f32⟩ : BufTy).Contents (Elt F) → (⟨S1x64, .f32⟩ : BufTy).Contents (Elt F) → (⟨S1x64, .f32⟩ : BufTy).Contents (Elt F)),
    StableHlo.unary main_v139 main_v140 (Host.rsqrt : (⟨S1x64, .f32⟩ : BufTy).Contents (Elt F) → (⟨S1x64, .f32⟩ : BufTy).Contents (Elt F)),
    StableHlo.unary main_v140 main_v141 (broadcastInDim S100000x64 ![0, 1] bcast_S1x64_S100000x64_0_1 : (⟨S1x64, .f32⟩ : BufTy).Contents (Elt F) → (⟨S100000x64, .f32⟩ : BufTy).Contents (Elt F)),
    StableHlo.binary main_v137 main_v141 main_v142 (mulf : (⟨S100000x64, .f32⟩ : BufTy).Contents (Elt F) → (⟨S100000x64, .f32⟩ : BufTy).Contents (Elt F) → (⟨S100000x64, .f32⟩ : BufTy).Contents (Elt F)) ]
theorem opsI_sub : (opsI : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub ..⟩
theorem opsI_fresh : ∀ op ∈ (opsI : List (HloOp τ sig (Elt F))), op.fresh = ∅ := by
  intro _ h; (repeat (cases h with | head => rfl | tail _ h => ?_)); exact nomatch h
/-- The buffers this stretch writes. -/
abbrev opsI_W : List (Ref sig .tc) := [main_cst_26, main_v131, main_v132, main_cst_27, main_v133, main_v134, main_c_28, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v135, main_v136, main_v137, main_cst_29, main_v138, main_v139, main_v140, main_v141, main_v142]
set_option maxRecDepth 8192 in
theorem opsI_writes : (opsI : List (HloOp τ sig (Elt F))).Forall fun op => op.writes ⊆ (opsI_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem opsI_keep (V : Valuation τ sig (Elt F)) (r : Ref sig .tc) (h : r ∉ opsI_W) :
    after opsI V (Proc.devRef .tc r) = V (Proc.devRef .tc r) :=
  after_of_writes_sub opsI V opsI_writes h

/-- The operations of @main's first window. -/
abbrev opsP0 : List (HloOp τ sig (Elt F)) := opsA1 ++ (opsA2 ++ (opsA3 ++ (opsB ++ (opsC0))))
theorem opsP0_sub : (opsP0 : List (HloOp τ sig (Elt F))).Forall fun op => op.bufs ⊆ tcRefs τ sig :=
  forall_append opsA1_sub (forall_append opsA2_sub (forall_append opsA3_sub (forall_append opsB_sub (opsC0_sub))))
theorem opsP0_fresh : ∀ op ∈ (opsP0 : List (HloOp τ sig (Elt F))), op.fresh = ∅ :=
  mem_append_all opsA1_fresh (mem_append_all opsA2_fresh (mem_append_all opsA3_fresh (mem_append_all opsB_fresh (opsC0_fresh))))
set_option maxRecDepth 8192 in
set_option maxHeartbeats 4000000 in
theorem main_part0_eq (c : Dev nD) : main_part0 (F := F) c = seq opsP0 := rfl

/-- The operations of @main's second window. -/
abbrev opsP1 : List (HloOp τ sig (Elt F)) := opsC1 ++ (opsD ++ (opsE ++ (opsF0)))
theorem opsP1_sub : (opsP1 : List (HloOp τ sig (Elt F))).Forall fun op => op.bufs ⊆ tcRefs τ sig :=
  forall_append opsC1_sub (forall_append opsD_sub (forall_append opsE_sub (opsF0_sub)))
theorem opsP1_fresh : ∀ op ∈ (opsP1 : List (HloOp τ sig (Elt F))), op.fresh = ∅ :=
  mem_append_all opsC1_fresh (mem_append_all opsD_fresh (mem_append_all opsE_fresh (opsF0_fresh)))
set_option maxRecDepth 8192 in
set_option maxHeartbeats 4000000 in
theorem main_part1_eq (c : Dev nD) : main_part1 (F := F) c = seq opsP1 := rfl

/-- The operations of @main's third window. -/
abbrev opsP2 : List (HloOp τ sig (Elt F)) := opsF1 ++ (opsG ++ (opsH ++ (opsI)))
theorem opsP2_sub : (opsP2 : List (HloOp τ sig (Elt F))).Forall fun op => op.bufs ⊆ tcRefs τ sig :=
  forall_append opsF1_sub (forall_append opsG_sub (forall_append opsH_sub (opsI_sub)))
theorem opsP2_fresh : ∀ op ∈ (opsP2 : List (HloOp τ sig (Elt F))), op.fresh = ∅ :=
  mem_append_all opsF1_fresh (mem_append_all opsG_fresh (mem_append_all opsH_fresh (opsI_fresh)))
set_option maxRecDepth 8192 in
set_option maxHeartbeats 4000000 in
theorem main_part2_eq (c : Dev nD) : main_part2 (F := F) c = seq opsP2 := rfl

/-- @main's operations, in order. -/
abbrev ops : List (HloOp τ sig (Elt F)) := opsP0 ++ (opsP1 ++ opsP2)
theorem ops_sub : (ops : List (HloOp τ sig (Elt F))).Forall fun op => op.bufs ⊆ tcRefs τ sig :=
  forall_append opsP0_sub (forall_append opsP1_sub opsP2_sub)
theorem ops_fresh : ∀ op ∈ (ops : List (HloOp τ sig (Elt F))), op.fresh = ∅ :=
  mem_append_all opsP0_fresh (mem_append_all opsP1_fresh opsP2_fresh)

/-- @main is that straight line: window by window, joined by `seq_append`. -/
theorem main_eq (c : Dev nD) : main (F := F) c = seq ops := by
  have h := seq_append (nD := nD) (Λ := Pipeline.Sig Λ₀ (Fin 0) fun p => (pcfgs (F := F) p).Adm) (opsP0 (F := F)) (opsP1 ++ opsP2)
  have h' := seq_append (nD := nD) (Λ := Pipeline.Sig Λ₀ (Fin 0) fun p => (pcfgs (F := F) p).Adm) (opsP1 (F := F)) opsP2
  show main c = seq (opsP0 ++ (opsP1 ++ opsP2))
  rw [h, h', ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- The fold over the whole line is the fold over the stretches, one after the other. -/
theorem after_ops (V : Valuation τ sig (Elt F)) :
    after ops V = after opsI (after opsH (after opsG (after opsF1 (after opsF0 (after opsE (after opsD (after opsC1 (after opsC0 (after opsB (after opsA3 (after opsA2 (after opsA1 (V))))))))))))) := by
  simp only [ops, opsP0, opsP1, opsP2, after_append]

/-- On every device, for any float values, from any memory with zero counters: every weakly fair execution of @main
    terminates, and every buffer ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- No operation writes `main_arg0`: it ends as it started. -/
theorem after_ops_main_arg0 (V : Valuation τ sig (Elt F)) : after ops V (Proc.devRef .tc main_arg0) = V (Proc.devRef .tc main_arg0) := by
  rw [after_ops, opsI_keep _ _ (by decide), opsH_keep _ _ (by decide), opsG_keep _ _ (by decide), opsF1_keep _ _ (by decide), opsF0_keep _ _ (by decide), opsE_keep _ _ (by decide), opsD_keep _ _ (by decide), opsC1_keep _ _ (by decide), opsC0_keep _ _ (by decide), opsB_keep _ _ (by decide), opsA3_keep _ _ (by decide), opsA2_keep _ _ (by decide), opsA1_keep _ _ (by decide)]

/-- No operation writes `main_arg1`: it ends as it started. -/
theorem after_ops_main_arg1 (V : Valuation τ sig (Elt F)) : after ops V (Proc.devRef .tc main_arg1) = V (Proc.devRef .tc main_arg1) := by
  rw [after_ops, opsI_keep _ _ (by decide), opsH_keep _ _ (by decide), opsG_keep _ _ (by decide), opsF1_keep _ _ (by decide), opsF0_keep _ _ (by decide), opsE_keep _ _ (by decide), opsD_keep _ _ (by decide), opsC1_keep _ _ (by decide), opsC0_keep _ _ (by decide), opsB_keep _ _ (by decide), opsA3_keep _ _ (by decide), opsA2_keep _ _ (by decide), opsA1_keep _ _ (by decide)]

/-- No operation writes `main_arg2`: it ends as it started. -/
theorem after_ops_main_arg2 (V : Valuation τ sig (Elt F)) : after ops V (Proc.devRef .tc main_arg2) = V (Proc.devRef .tc main_arg2) := by
  rw [after_ops, opsI_keep _ _ (by decide), opsH_keep _ _ (by decide), opsG_keep _ _ (by decide), opsF1_keep _ _ (by decide), opsF0_keep _ _ (by decide), opsE_keep _ _ (by decide), opsD_keep _ _ (by decide), opsC1_keep _ _ (by decide), opsC0_keep _ _ (by decide), opsB_keep _ _ (by decide), opsA3_keep _ _ (by decide), opsA2_keep _ _ (by decide), opsA1_keep _ _ (by decide)]

/-- No operation writes `main_arg3`: it ends as it started. -/
theorem after_ops_main_arg3 (V : Valuation τ sig (Elt F)) : after ops V (Proc.devRef .tc main_arg3) = V (Proc.devRef .tc main_arg3) := by
  rw [after_ops, opsI_keep _ _ (by decide), opsH_keep _ _ (by decide), opsG_keep _ _ (by decide), opsF1_keep _ _ (by decide), opsF0_keep _ _ (by decide), opsE_keep _ _ (by decide), opsD_keep _ _ (by decide), opsC1_keep _ _ (by decide), opsC0_keep _ _ (by decide), opsB_keep _ _ (by decide), opsA3_keep _ _ (by decide), opsA2_keep _ _ (by decide), opsA1_keep _ _ (by decide)]

/-- No operation writes `main_arg4`: it ends as it started. -/
theorem after_ops_main_arg4 (V : Valuation τ sig (Elt F)) : after ops V (Proc.devRef .tc main_arg4) = V (Proc.devRef .tc main_arg4) := by
  rw [after_ops, opsI_keep _ _ (by decide), opsH_keep _ _ (by decide), opsG_keep _ _ (by decide), opsF1_keep _ _ (by decide), opsF0_keep _ _ (by decide), opsE_keep _ _ (by decide), opsD_keep _ _ (by decide), opsC1_keep _ _ (by decide), opsC0_keep _ _ (by decide), opsB_keep _ _ (by decide), opsA3_keep _ _ (by decide), opsA2_keep _ _ (by decide), opsA1_keep _ _ (by decide)]

/-- No operation writes `main_arg5`: it ends as it started. -/
theorem after_ops_main_arg5 (V : Valuation τ sig (Elt F)) : after ops V (Proc.devRef .tc main_arg5) = V (Proc.devRef .tc main_arg5) := by
  rw [after_ops, opsI_keep _ _ (by decide), opsH_keep _ _ (by decide), opsG_keep _ _ (by decide), opsF1_keep _ _ (by decide), opsF0_keep _ _ (by decide), opsE_keep _ _ (by decide), opsD_keep _ _ (by decide), opsC1_keep _ _ (by decide), opsC0_keep _ _ (by decide), opsB_keep _ _ (by decide), opsA3_keep _ _ (by decide), opsA2_keep _ _ (by decide), opsA1_keep _ _ (by decide)]

/-- The reference's frame: it runs, and its argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_arg0).trans (after_ops_main_arg0 _), (h c main_arg1).trans (after_ops_main_arg1 _),
      (h c main_arg2).trans (after_ops_main_arg2 _), (h c main_arg3).trans (after_ops_main_arg3 _),
      (h c main_arg4).trans (after_ops_main_arg4 _), (h c main_arg5).trans (after_ops_main_arg5 _)⟩)
    (run_all m ρ)

end Cert.ReferenceIdeal.RefRun

end
-- ==== Proof.RefValue.lean ====
/-
  The reference's value. Its run (the straight line of host operations, stretch by stretch) ends with every buffer at the
  fold of the operations over the launch contents; read stretch by stretch, the result buffer is two layers of the
  reference's graph block (`Spec.layerR`: a Chebyshev graph convolution through the edge weights
  -deg^(-1/2)(source) deg^(-1/2)(target), a rectifier, a column normalisation) of the launch contents of the arguments.
  Each stretch's fold is the composition of its operations, and the named functions of the shared vocabulary are those
  compositions, so each stretch lemma ends by unfolding the names.
-/
import proofs.«133803_j9560597201237_2_alg».proof.Proof.Spec
import proofs.«133803_j9560597201237_2_alg».proof.Proof.RefRun

noncomputable section

namespace Cert.ReferenceIdeal.RefValue

open Idealize.ShloMosaic Idealize.SL.Sem Cert.ReferenceIdeal Idealize.ShloMosaic.StableHlo Cert.ReferenceIdeal.RefRun

/-! ## The stretches, one at a time

Each stretch's result buffer, after the stretch has run from any contents `W`, as the named function of what `W`
holds at the buffers the stretch reads. -/

/-- The sources: row 0 of the index array. -/
theorem sA1_v1 (W : Valuation τ sig (Elt Ideal)) :
    after opsA1 W (Proc.devRef .tc main_v1) = Cert.Spec.row0 (W (Proc.devRef .tc main_arg1)) := by
  simp only [opsA1]
  after_results_simp
  rfl

/-- The targets: row 1. -/
theorem sA1_v3 (W : Valuation τ sig (Elt Ideal)) :
    after opsA1 W (Proc.devRef .tc main_v3) = Cert.Spec.row1 (W (Proc.devRef .tc main_arg1)) := by
  simp only [opsA1]
  after_results_simp
  rfl

set_option maxRecDepth 8192 in
/-- The inverse square roots of the degrees. -/
theorem sA2 (W : Valuation τ sig (Elt Ideal)) (ei : IVec S2x1600000 32) (h3 : W (Proc.devRef .tc main_v3) = Cert.Spec.row1 ei) :
    after opsA2 W (Proc.devRef .tc main_v14) = Cert.Spec.dinv ei := by
  simp only [opsA2]
  after_results_simp
  rw [h3]
  rfl

set_option maxRecDepth 8192 in
/-- The edge weights. -/
theorem sA3 (W : Valuation τ sig (Elt Ideal)) (ei : IVec S2x1600000 32) (h14 : W (Proc.devRef .tc main_v14) = Cert.Spec.dinv ei)
    (h1 : W (Proc.devRef .tc main_v1) = Cert.Spec.row0 ei) (h3 : W (Proc.devRef .tc main_v3) = Cert.Spec.row1 ei) :
    after opsA3 W (Proc.devRef .tc main_v30) = Cert.Spec.wEdge ei := by
  simp only [opsA3]
  after_results_simp
  rw [h14, h1, h3]
  rfl

set_option maxRecDepth 8192 in
/-- Layer 1's first propagation step. -/
theorem sB (W : Valuation τ sig (Elt Ideal)) (ei : IVec S2x1600000 32) (h : FVec Ideal S100000x64 .f32) (h30 : W (Proc.devRef .tc main_v30) = Cert.Spec.wEdge ei) (h1 : W (Proc.devRef .tc main_v1) = Cert.Spec.row0 ei) (h3 : W (Proc.devRef .tc main_v3) = Cert.Spec.row1 ei)
    (hh : W (Proc.devRef .tc main_arg0) = h) :
    after opsB W (Proc.devRef .tc main_v43) = Cert.Spec.prop ei h := by
  simp only [opsB]
  after_results_simp
  rw [h30, h1, h3, hh]
  rfl

set_option maxRecDepth 8192 in
/-- Layer 1's second propagation step. -/
theorem sC (W : Valuation τ sig (Elt Ideal)) (ei : IVec S2x1600000 32) (h : FVec Ideal S100000x64 .f32) (h30 : W (Proc.devRef .tc main_v30) = Cert.Spec.wEdge ei) (h1 : W (Proc.devRef .tc main_v1) = Cert.Spec.row0 ei) (h3 : W (Proc.devRef .tc main_v3) = Cert.Spec.row1 ei)
    (hh : W (Proc.devRef .tc main_v43) = h) :
    after opsC1 (after opsC0 W) (Proc.devRef .tc main_v56) = Cert.Spec.prop ei h := by
  simp only [opsC0, opsC1]
  after_results_simp
  rw [h30, h1, h3, hh]
  rfl

set_option maxRecDepth 8192 in
/-- Layer 1's dense part with its rectifier. -/
theorem sD (W : Valuation τ sig (Elt Ideal)) (ei : IVec S2x1600000 32) (h : FVec Ideal S100000x64 .f32) (Wt : FVec Ideal S3x64x64 .f32)
    (b : FVec Ideal S64 .f32) (hh : W (Proc.devRef .tc main_arg0) = h) (hW : W (Proc.devRef .tc main_arg2) = Wt) (hb : W (Proc.devRef .tc main_arg3) = b)
    (hp1 : W (Proc.devRef .tc main_v43) = Cert.Spec.prop ei h) (hp2 : W (Proc.devRef .tc main_v56) = Cert.Spec.prop ei (Cert.Spec.prop ei h)) :
    after opsD W (Proc.devRef .tc main_v74) = Cert.Spec.denseR ei h Wt b := by
  simp only [opsD]
  after_results_simp
  rw [hp1, hp2, hh, hW, hb]
  rfl

set_option maxRecDepth 8192 in
/-- Layer 1's column statistics and normalisation. -/
theorem sE (W : Valuation τ sig (Elt Ideal)) (H : FVec Ideal S100000x64 .f32) (hH : W (Proc.devRef .tc main_v74) = H) :
    after opsE W (Proc.devRef .tc main_v86) = Cert.Spec.normR H := by
  simp only [opsE]
  after_results_simp
  rw [hH]
  rfl

set_option maxRecDepth 8192 in
/-- Layer 2's first propagation step. -/
theorem sF (W : Valuation τ sig (Elt Ideal)) (ei : IVec S2x1600000 32) (h : FVec Ideal S100000x64 .f32) (h30 : W (Proc.devRef .tc main_v30) = Cert.Spec.wEdge ei) (h1 : W (Proc.devRef .tc main_v1) = Cert.Spec.row0 ei) (h3 : W (Proc.devRef .tc main_v3) = Cert.Spec.row1 ei)
    (hh : W (Proc.devRef .tc main_v86) = h) :
    after opsF1 (after opsF0 W) (Proc.devRef .tc main_v99) = Cert.Spec.prop ei h := by
  simp only [opsF0, opsF1]
  after_results_simp
  rw [h30, h1, h3, hh]
  rfl

set_option maxRecDepth 8192 in
/-- Layer 2's second propagation step. -/
theorem sG (W : Valuation τ sig (Elt Ideal)) (ei : IVec S2x1600000 32) (h : FVec Ideal S100000x64 .f32) (h30 : W (Proc.devRef .tc main_v30) = Cert.Spec.wEdge ei) (h1 : W (Proc.devRef .tc main_v1) = Cert.Spec.row0 ei) (h3 : W (Proc.devRef .tc main_v3) = Cert.Spec.row1 ei)
    (hh : W (Proc.devRef .tc main_v99) = h) :
    after opsG W (Proc.devRef .tc main_v112) = Cert.Spec.prop ei h := by
  simp only [opsG]
  after_results_simp
  rw [h30, h1, h3, hh]
  rfl

set_option maxRecDepth 8192 in
/-- Layer 2's dense part with its rectifier. -/
theorem sH (W : Valuation τ sig (Elt Ideal)) (ei : IVec S2x1600000 32) (h : FVec Ideal S100000x64 .f32) (Wt : FVec Ideal S3x64x64 .f32)
    (b : FVec Ideal S64 .f32) (hh : W (Proc.devRef .tc main_v86) = h) (hW : W (Proc.devRef .tc main_arg4) = Wt) (hb : W (Proc.devRef .tc main_arg5) = b)
    (hp1 : W (Proc.devRef .tc main_v99) = Cert.Spec.prop ei h) (hp2 : W (Proc.devRef .tc main_v112) = Cert.Spec.prop ei (Cert.Spec.prop ei h)) :
    after opsH W (Proc.devRef .tc main_v130) = Cert.Spec.denseR ei h Wt b := by
  simp only [opsH]
  after_results_simp
  rw [hp1, hp2, hh, hW, hb]
  rfl

set_option maxRecDepth 8192 in
/-- Layer 2's column statistics and normalisation. -/
theorem sI (W : Valuation τ sig (Elt Ideal)) (H : FVec Ideal S100000x64 .f32) (hH : W (Proc.devRef .tc main_v130) = H) :
    after opsI W (Proc.devRef .tc main_v142) = Cert.Spec.normR H := by
  simp only [opsI]
  after_results_simp
  rw [hH]
  rfl

/-! ## The whole line

The stretches in order: what each live buffer holds after each, as the named function of the launch contents. -/

set_option maxRecDepth 8192 in
/-- The result buffer after the whole line, from any contents: two layers of the reference's graph block. -/
theorem value (V : Valuation τ sig (Elt Ideal)) (ei : IVec S2x1600000 32) (x : FVec Ideal S100000x64 .f32)
    (W1 : FVec Ideal S3x64x64 .f32) (b1 : FVec Ideal S64 .f32) (W2 : FVec Ideal S3x64x64 .f32) (b2 : FVec Ideal S64 .f32)
    (hei : V (Proc.devRef .tc main_arg1) = ei) (hx : V (Proc.devRef .tc main_arg0) = x) (hW1 : V (Proc.devRef .tc main_arg2) = W1)
    (hb1 : V (Proc.devRef .tc main_arg3) = b1) (hW2 : V (Proc.devRef .tc main_arg4) = W2) (hb2 : V (Proc.devRef .tc main_arg5) = b2) :
    after ops V (Proc.devRef .tc main_v142) = Cert.Spec.layerR ei (Cert.Spec.layerR ei x W1 b1) W2 b2 := by
  rw [after_ops]
  have f1_main_v1 : (after opsA1 V) (Proc.devRef .tc main_v1) = Cert.Spec.row0 ei := (sA1_v1 V).trans (congrArg Cert.Spec.row0 hei)
  have f1_main_v3 : (after opsA1 V) (Proc.devRef .tc main_v3) = Cert.Spec.row1 ei := (sA1_v3 V).trans (congrArg Cert.Spec.row1 hei)
  have f1_main_arg0 : (after opsA1 V) (Proc.devRef .tc main_arg0) = x := (opsA1_keep V main_arg0 (by decide)).trans (hx)
  have f1_main_arg2 : (after opsA1 V) (Proc.devRef .tc main_arg2) = W1 := (opsA1_keep V main_arg2 (by decide)).trans (hW1)
  have f1_main_arg3 : (after opsA1 V) (Proc.devRef .tc main_arg3) = b1 := (opsA1_keep V main_arg3 (by decide)).trans (hb1)
  have f1_main_arg4 : (after opsA1 V) (Proc.devRef .tc main_arg4) = W2 := (opsA1_keep V main_arg4 (by decide)).trans (hW2)
  have f1_main_arg5 : (after opsA1 V) (Proc.devRef .tc main_arg5) = b2 := (opsA1_keep V main_arg5 (by decide)).trans (hb2)
  have f2_main_v14 : (after opsA2 (after opsA1 V)) (Proc.devRef .tc main_v14) = Cert.Spec.dinv ei := sA2 (after opsA1 V) ei f1_main_v3
  have f2_main_v1 : (after opsA2 (after opsA1 V)) (Proc.devRef .tc main_v1) = Cert.Spec.row0 ei := (opsA2_keep (after opsA1 V) main_v1 (by decide)).trans (f1_main_v1)
  have f2_main_v3 : (after opsA2 (after opsA1 V)) (Proc.devRef .tc main_v3) = Cert.Spec.row1 ei := (opsA2_keep (after opsA1 V) main_v3 (by decide)).trans (f1_main_v3)
  have f2_main_arg0 : (after opsA2 (after opsA1 V)) (Proc.devRef .tc main_arg0) = x := (opsA2_keep (after opsA1 V) main_arg0 (by decide)).trans (f1_main_arg0)
  have f2_main_arg2 : (after opsA2 (after opsA1 V)) (Proc.devRef .tc main_arg2) = W1 := (opsA2_keep (after opsA1 V) main_arg2 (by decide)).trans (f1_main_arg2)
  have f2_main_arg3 : (after opsA2 (after opsA1 V)) (Proc.devRef .tc main_arg3) = b1 := (opsA2_keep (after opsA1 V) main_arg3 (by decide)).trans (f1_main_arg3)
  have f2_main_arg4 : (after opsA2 (after opsA1 V)) (Proc.devRef .tc main_arg4) = W2 := (opsA2_keep (after opsA1 V) main_arg4 (by decide)).trans (f1_main_arg4)
  have f2_main_arg5 : (after opsA2 (after opsA1 V)) (Proc.devRef .tc main_arg5) = b2 := (opsA2_keep (after opsA1 V) main_arg5 (by decide)).trans (f1_main_arg5)
  have f3_main_v30 : (after opsA3 (after opsA2 (after opsA1 V))) (Proc.devRef .tc main_v30) = Cert.Spec.wEdge ei := sA3 (after opsA2 (after opsA1 V)) ei f2_main_v14 f2_main_v1 f2_main_v3
  have f3_main_v1 : (after opsA3 (after opsA2 (after opsA1 V))) (Proc.devRef .tc main_v1) = Cert.Spec.row0 ei := (opsA3_keep (after opsA2 (after opsA1 V)) main_v1 (by decide)).trans (f2_main_v1)
  have f3_main_v3 : (after opsA3 (after opsA2 (after opsA1 V))) (Proc.devRef .tc main_v3) = Cert.Spec.row1 ei := (opsA3_keep (after opsA2 (after opsA1 V)) main_v3 (by decide)).trans (f2_main_v3)
  have f3_main_arg0 : (after opsA3 (after opsA2 (after opsA1 V))) (Proc.devRef .tc main_arg0) = x := (opsA3_keep (after opsA2 (after opsA1 V)) main_arg0 (by decide)).trans (f2_main_arg0)
  have f3_main_arg2 : (after opsA3 (after opsA2 (after opsA1 V))) (Proc.devRef .tc main_arg2) = W1 := (opsA3_keep (after opsA2 (after opsA1 V)) main_arg2 (by decide)).trans (f2_main_arg2)
  have f3_main_arg3 : (after opsA3 (after opsA2 (after opsA1 V))) (Proc.devRef .tc main_arg3) = b1 := (opsA3_keep (after opsA2 (after opsA1 V)) main_arg3 (by decide)).trans (f2_main_arg3)
  have f3_main_arg4 : (after opsA3 (after opsA2 (after opsA1 V))) (Proc.devRef .tc main_arg4) = W2 := (opsA3_keep (after opsA2 (after opsA1 V)) main_arg4 (by decide)).trans (f2_main_arg4)
  have f3_main_arg5 : (after opsA3 (after opsA2 (after opsA1 V))) (Proc.devRef .tc main_arg5) = b2 := (opsA3_keep (after opsA2 (after opsA1 V)) main_arg5 (by decide)).trans (f2_main_arg5)
  have f4_main_v43 : (after opsB (after opsA3 (after opsA2 (after opsA1 V)))) (Proc.devRef .tc main_v43) = Cert.Spec.prop ei x := sB (after opsA3 (after opsA2 (after opsA1 V))) ei x f3_main_v30 f3_main_v1 f3_main_v3 f3_main_arg0
  have f4_main_v30 : (after opsB (after opsA3 (after opsA2 (after opsA1 V)))) (Proc.devRef .tc main_v30) = Cert.Spec.wEdge ei := (opsB_keep (after opsA3 (after opsA2 (after opsA1 V))) main_v30 (by decide)).trans (f3_main_v30)
  have f4_main_v1 : (after opsB (after opsA3 (after opsA2 (after opsA1 V)))) (Proc.devRef .tc main_v1) = Cert.Spec.row0 ei := (opsB_keep (after opsA3 (after opsA2 (after opsA1 V))) main_v1 (by decide)).trans (f3_main_v1)
  have f4_main_v3 : (after opsB (after opsA3 (after opsA2 (after opsA1 V)))) (Proc.devRef .tc main_v3) = Cert.Spec.row1 ei := (opsB_keep (after opsA3 (after opsA2 (after opsA1 V))) main_v3 (by decide)).trans (f3_main_v3)
  have f4_main_arg0 : (after opsB (after opsA3 (after opsA2 (after opsA1 V)))) (Proc.devRef .tc main_arg0) = x := (opsB_keep (after opsA3 (after opsA2 (after opsA1 V))) main_arg0 (by decide)).trans (f3_main_arg0)
  have f4_main_arg2 : (after opsB (after opsA3 (after opsA2 (after opsA1 V)))) (Proc.devRef .tc main_arg2) = W1 := (opsB_keep (after opsA3 (after opsA2 (after opsA1 V))) main_arg2 (by decide)).trans (f3_main_arg2)
  have f4_main_arg3 : (after opsB (after opsA3 (after opsA2 (after opsA1 V)))) (Proc.devRef .tc main_arg3) = b1 := (opsB_keep (after opsA3 (after opsA2 (after opsA1 V))) main_arg3 (by decide)).trans (f3_main_arg3)
  have f4_main_arg4 : (after opsB (after opsA3 (after opsA2 (after opsA1 V)))) (Proc.devRef .tc main_arg4) = W2 := (opsB_keep (after opsA3 (after opsA2 (after opsA1 V))) main_arg4 (by decide)).trans (f3_main_arg4)
  have f4_main_arg5 : (after opsB (after opsA3 (after opsA2 (after opsA1 V)))) (Proc.devRef .tc main_arg5) = b2 := (opsB_keep (after opsA3 (after opsA2 (after opsA1 V))) main_arg5 (by decide)).trans (f3_main_arg5)
  have f5_main_v56 : (after opsC1 (after opsC0 (after opsB (after opsA3 (after opsA2 (after opsA1 V)))))) (Proc.devRef .tc main_v56) = Cert.Spec.prop ei (Cert.Spec.prop ei x) := sC (after opsB (after opsA3 (after opsA2 (after opsA1 V)))) ei (Cert.Spec.prop ei x) f4_main_v30 f4_main_v1 f4_main_v3 f4_main_v43
  have f5_main_v43 : (after opsC1 (after opsC0 (after opsB (after opsA3 (after opsA2 (after opsA1 V)))))) (Proc.devRef .tc main_v43) = Cert.Spec.prop ei x := (opsC1_keep (after opsC0 (after opsB (after opsA3 (after opsA2 (after opsA1 V))))) main_v43 (by decide)).trans ((opsC0_keep (after opsB (after opsA3 (after opsA2 (after opsA1 V)))) main_v43 (by decide)).trans (f4_main_v43))
  have f5_main_v30 : (after opsC1 (after opsC0 (after opsB (after opsA3 (after opsA2 (after opsA1 V)))))) (Proc.devRef .tc main_v30) = Cert.Spec.wEdge ei := (opsC1_keep (after opsC0 (after opsB (after opsA3 (after opsA2 (after opsA1 V))))) main_v30 (by decide)).trans ((opsC0_keep (after opsB (after opsA3 (after opsA2 (after opsA1 V)))) main_v30 (by decide)).trans (f4_main_v30))
  have f5_main_v1 : (after opsC1 (after opsC0 (after opsB (after opsA3 (after opsA2 (after opsA1 V)))))) (Proc.devRef .tc main_v1) = Cert.Spec.row0 ei := (opsC1_keep (after opsC0 (after opsB (after opsA3 (after opsA2 (after opsA1 V))))) main_v1 (by decide)).trans ((opsC0_keep (after opsB (after opsA3 (after opsA2 (after opsA1 V)))) main_v1 (by decide)).trans (f4_main_v1))
  have f5_main_v3 : (after opsC1 (after opsC0 (after opsB (after opsA3 (after opsA2 (after opsA1 V)))))) (Proc.devRef .tc main_v3) = Cert.Spec.row1 ei := (opsC1_keep (after opsC0 (after opsB (after opsA3 (after opsA2 (after opsA1 V))))) main_v3 (by decide)).trans ((opsC0_keep (after opsB (after opsA3 (after opsA2 (after opsA1 V)))) main_v3 (by decide)).trans (f4_main_v3))
  have f5_main_arg0 : (after opsC1 (after opsC0 (after opsB (after opsA3 (after opsA2 (after opsA1 V)))))) (Proc.devRef .tc main_arg0) = x := (opsC1_keep (after opsC0 (after opsB (after opsA3 (after opsA2 (after opsA1 V))))) main_arg0 (by decide)).trans ((opsC0_keep (after opsB (after opsA3 (after opsA2 (after opsA1 V)))) main_arg0 (by decide)).trans (f4_main_arg0))
  have f5_main_arg2 : (after opsC1 (after opsC0 (after opsB (after opsA3 (after opsA2 (after opsA1 V)))))) (Proc.devRef .tc main_arg2) = W1 := (opsC1_keep (after opsC0 (after opsB (after opsA3 (after opsA2 (after opsA1 V))))) main_arg2 (by decide)).trans ((opsC0_keep (after opsB (after opsA3 (after opsA2 (after opsA1 V)))) main_arg2 (by decide)).trans (f4_main_arg2))
  have f5_main_arg3 : (after opsC1 (after opsC0 (after opsB (after opsA3 (after opsA2 (after opsA1 V)))))) (Proc.devRef .tc main_arg3) = b1 := (opsC1_keep (after opsC0 (after opsB (after opsA3 (after opsA2 (after opsA1 V))))) main_arg3 (by decide)).trans ((opsC0_keep (after opsB (after opsA3 (after opsA2 (after opsA1 V)))) main_arg3 (by decide)).trans (f4_main_arg3))
  have f5_main_arg4 : (after opsC1 (after opsC0 (after opsB (after opsA3 (after opsA2 (after opsA1 V)))))) (Proc.devRef .tc main_arg4) = W2 := (opsC1_keep (after opsC0 (after opsB (after opsA3 (after opsA2 (after opsA1 V))))) main_arg4 (by decide)).trans ((opsC0_keep (after opsB (after opsA3 (after opsA2 (after opsA1 V)))) main_arg4 (by decide)).trans (f4_main_arg4))
  have f5_main_arg5 : (after opsC1 (after opsC0 (after opsB (after opsA3 (after opsA2 (after opsA1 V)))))) (Proc.devRef .tc main_arg5) = b2 := (opsC1_keep (after opsC0 (after opsB (after opsA3 (after opsA2 (after opsA1 V))))) main_arg5 (by decide)).trans ((opsC0_keep (after opsB (after opsA3 (after opsA2 (after opsA1 V)))) main_arg5 (by decide)).trans (f4_main_arg5))
  have f6_main_v74 : (after opsD (after opsC1 (after opsC0 (after opsB (after opsA3 (after opsA2 (after opsA1 V))))))) (Proc.devRef .tc main_v74) = Cert.Spec.denseR ei x W1 b1 := sD (after opsC1 (after opsC0 (after opsB (after opsA3 (after opsA2 (after opsA1 V)))))) ei x W1 b1 f5_main_arg0 f5_main_arg2 f5_main_arg3 f5_main_v43 f5_main_v56
  have f6_main_v30 : (after opsD (after opsC1 (after opsC0 (after opsB (after opsA3 (after opsA2 (after opsA1 V))))))) (Proc.devRef .tc main_v30) = Cert.Spec.wEdge ei := (opsD_keep (after opsC1 (after opsC0 (after opsB (after opsA3 (after opsA2 (after opsA1 V)))))) main_v30 (by decide)).trans (f5_main_v30)
  have f6_main_v1 : (after opsD (after opsC1 (after opsC0 (after opsB (after opsA3 (after opsA2 (after opsA1 V))))))) (Proc.devRef .tc main_v1) = Cert.Spec.row0 ei := (opsD_keep (after opsC1 (after opsC0 (after opsB (after opsA3 (after opsA2 (after opsA1 V)))))) main_v1 (by decide)).trans (f5_main_v1)
  have f6_main_v3 : (after opsD (after opsC1 (after opsC0 (after opsB (after opsA3 (after opsA2 (after opsA1 V))))))) (Proc.devRef .tc main_v3) = Cert.Spec.row1 ei := (opsD_keep (after opsC1 (after opsC0 (after opsB (after opsA3 (after opsA2 (after opsA1 V)))))) main_v3 (by decide)).trans (f5_main_v3)
  have f6_main_arg4 : (after opsD (after opsC1 (after opsC0 (after opsB (after opsA3 (after opsA2 (after opsA1 V))))))) (Proc.devRef .tc main_arg4) = W2 := (opsD_keep (after opsC1 (after opsC0 (after opsB (after opsA3 (after opsA2 (after opsA1 V)))))) main_arg4 (by decide)).trans (f5_main_arg4)
  have f6_main_arg5 : (after opsD (after opsC1 (after opsC0 (after opsB (after opsA3 (after opsA2 (after opsA1 V))))))) (Proc.devRef .tc main_arg5) = b2 := (opsD_keep (after opsC1 (after opsC0 (after opsB (after opsA3 (after opsA2 (after opsA1 V)))))) main_arg5 (by decide)).trans (f5_main_arg5)
  have f7_main_v86 : (after opsE (after opsD (after opsC1 (after opsC0 (after opsB (after opsA3 (after opsA2 (after opsA1 V)))))))) (Proc.devRef .tc main_v86) = Cert.Spec.layerR ei x W1 b1 := sE (after opsD (after opsC1 (after opsC0 (after opsB (after opsA3 (after opsA2 (after opsA1 V))))))) (Cert.Spec.denseR ei x W1 b1) f6_main_v74
  have f7_main_v30 : (after opsE (after opsD (after opsC1 (after opsC0 (after opsB (after opsA3 (after opsA2 (after opsA1 V)))))))) (Proc.devRef .tc main_v30) = Cert.Spec.wEdge ei := (opsE_keep (after opsD (after opsC1 (after opsC0 (after opsB (after opsA3 (after opsA2 (after opsA1 V))))))) main_v30 (by decide)).trans (f6_main_v30)
  have f7_main_v1 : (after opsE (after opsD (after opsC1 (after opsC0 (after opsB (after opsA3 (after opsA2 (after opsA1 V)))))))) (Proc.devRef .tc main_v1) = Cert.Spec.row0 ei := (opsE_keep (after opsD (after opsC1 (after opsC0 (after opsB (after opsA3 (after opsA2 (after opsA1 V))))))) main_v1 (by decide)).trans (f6_main_v1)
  have f7_main_v3 : (after opsE (after opsD (after opsC1 (after opsC0 (after opsB (after opsA3 (after opsA2 (after opsA1 V)))))))) (Proc.devRef .tc main_v3) = Cert.Spec.row1 ei := (opsE_keep (after opsD (after opsC1 (after opsC0 (after opsB (after opsA3 (after opsA2 (after opsA1 V))))))) main_v3 (by decide)).trans (f6_main_v3)
  have f7_main_arg4 : (after opsE (after opsD (after opsC1 (after opsC0 (after opsB (after opsA3 (after opsA2 (after opsA1 V)))))))) (Proc.devRef .tc main_arg4) = W2 := (opsE_keep (after opsD (after opsC1 (after opsC0 (after opsB (after opsA3 (after opsA2 (after opsA1 V))))))) main_arg4 (by decide)).trans (f6_main_arg4)
  have f7_main_arg5 : (after opsE (after opsD (after opsC1 (after opsC0 (after opsB (after opsA3 (after opsA2 (after opsA1 V)))))))) (Proc.devRef .tc main_arg5) = b2 := (opsE_keep (after opsD (after opsC1 (after opsC0 (after opsB (after opsA3 (after opsA2 (after opsA1 V))))))) main_arg5 (by decide)).trans (f6_main_arg5)
  have f8_main_v99 : (after opsF1 (after opsF0 (after opsE (after opsD (after opsC1 (after opsC0 (after opsB (after opsA3 (after opsA2 (after opsA1 V)))))))))) (Proc.devRef .tc main_v99) = Cert.Spec.prop ei (Cert.Spec.layerR ei x W1 b1) := sF (after opsE (after opsD (after opsC1 (after opsC0 (after opsB (after opsA3 (after opsA2 (after opsA1 V)))))))) ei (Cert.Spec.layerR ei x W1 b1) f7_main_v30 f7_main_v1 f7_main_v3 f7_main_v86
  have f8_main_v86 : (after opsF1 (after opsF0 (after opsE (after opsD (after opsC1 (after opsC0 (after opsB (after opsA3 (after opsA2 (after opsA1 V)))))))))) (Proc.devRef .tc main_v86) = Cert.Spec.layerR ei x W1 b1 := (opsF1_keep (after opsF0 (after opsE (after opsD (after opsC1 (after opsC0 (after opsB (after opsA3 (after opsA2 (after opsA1 V))))))))) main_v86 (by decide)).trans ((opsF0_keep (after opsE (after opsD (after opsC1 (after opsC0 (after opsB (after opsA3 (after opsA2 (after opsA1 V)))))))) main_v86 (by decide)).trans (f7_main_v86))
  have f8_main_v30 : (after opsF1 (after opsF0 (after opsE (after opsD (after opsC1 (after opsC0 (after opsB (after opsA3 (after opsA2 (after opsA1 V)))))))))) (Proc.devRef .tc main_v30) = Cert.Spec.wEdge ei := (opsF1_keep (after opsF0 (after opsE (after opsD (after opsC1 (after opsC0 (after opsB (after opsA3 (after opsA2 (after opsA1 V))))))))) main_v30 (by decide)).trans ((opsF0_keep (after opsE (after opsD (after opsC1 (after opsC0 (after opsB (after opsA3 (after opsA2 (after opsA1 V)))))))) main_v30 (by decide)).trans (f7_main_v30))
  have f8_main_v1 : (after opsF1 (after opsF0 (after opsE (after opsD (after opsC1 (after opsC0 (after opsB (after opsA3 (after opsA2 (after opsA1 V)))))))))) (Proc.devRef .tc main_v1) = Cert.Spec.row0 ei := (opsF1_keep (after opsF0 (after opsE (after opsD (after opsC1 (after opsC0 (after opsB (after opsA3 (after opsA2 (after opsA1 V))))))))) main_v1 (by decide)).trans ((opsF0_keep (after opsE (after opsD (after opsC1 (after opsC0 (after opsB (after opsA3 (after opsA2 (after opsA1 V)))))))) main_v1 (by decide)).trans (f7_main_v1))
  have f8_main_v3 : (after opsF1 (after opsF0 (after opsE (after opsD (after opsC1 (after opsC0 (after opsB (after opsA3 (after opsA2 (after opsA1 V)))))))))) (Proc.devRef .tc main_v3) = Cert.Spec.row1 ei := (opsF1_keep (after opsF0 (after opsE (after opsD (after opsC1 (after opsC0 (after opsB (after opsA3 (after opsA2 (after opsA1 V))))))))) main_v3 (by decide)).trans ((opsF0_keep (after opsE (after opsD (after opsC1 (after opsC0 (after opsB (after opsA3 (after opsA2 (after opsA1 V)))))))) main_v3 (by decide)).trans (f7_main_v3))
  have f8_main_arg4 : (after opsF1 (after opsF0 (after opsE (after opsD (after opsC1 (after opsC0 (after opsB (after opsA3 (after opsA2 (after opsA1 V)))))))))) (Proc.devRef .tc main_arg4) = W2 := (opsF1_keep (after opsF0 (after opsE (after opsD (after opsC1 (after opsC0 (after opsB (after opsA3 (after opsA2 (after opsA1 V))))))))) main_arg4 (by decide)).trans ((opsF0_keep (after opsE (after opsD (after opsC1 (after opsC0 (after opsB (after opsA3 (after opsA2 (after opsA1 V)))))))) main_arg4 (by decide)).trans (f7_main_arg4))
  have f8_main_arg5 : (after opsF1 (after opsF0 (after opsE (after opsD (after opsC1 (after opsC0 (after opsB (after opsA3 (after opsA2 (after opsA1 V)))))))))) (Proc.devRef .tc main_arg5) = b2 := (opsF1_keep (after opsF0 (after opsE (after opsD (after opsC1 (after opsC0 (after opsB (after opsA3 (after opsA2 (after opsA1 V))))))))) main_arg5 (by decide)).trans ((opsF0_keep (after opsE (after opsD (after opsC1 (after opsC0 (after opsB (after opsA3 (after opsA2 (after opsA1 V)))))))) main_arg5 (by decide)).trans (f7_main_arg5))
  have f9_main_v112 : (after opsG (after opsF1 (after opsF0 (after opsE (after opsD (after opsC1 (after opsC0 (after opsB (after opsA3 (after opsA2 (after opsA1 V))))))))))) (Proc.devRef .tc main_v112) = Cert.Spec.prop ei (Cert.Spec.prop ei (Cert.Spec.layerR ei x W1 b1)) := sG (after opsF1 (after opsF0 (after opsE (after opsD (after opsC1 (after opsC0 (after opsB (after opsA3 (after opsA2 (after opsA1 V)))))))))) ei (Cert.Spec.prop ei (Cert.Spec.layerR ei x W1 b1)) f8_main_v30 f8_main_v1 f8_main_v3 f8_main_v99
  have f9_main_v99 : (after opsG (after opsF1 (after opsF0 (after opsE (after opsD (after opsC1 (after opsC0 (after opsB (after opsA3 (after opsA2 (after opsA1 V))))))))))) (Proc.devRef .tc main_v99) = Cert.Spec.prop ei (Cert.Spec.layerR ei x W1 b1) := (opsG_keep (after opsF1 (after opsF0 (after opsE (after opsD (after opsC1 (after opsC0 (after opsB (after opsA3 (after opsA2 (after opsA1 V)))))))))) main_v99 (by decide)).trans (f8_main_v99)
  have f9_main_v86 : (after opsG (after opsF1 (after opsF0 (after opsE (after opsD (after opsC1 (after opsC0 (after opsB (after opsA3 (after opsA2 (after opsA1 V))))))))))) (Proc.devRef .tc main_v86) = Cert.Spec.layerR ei x W1 b1 := (opsG_keep (after opsF1 (after opsF0 (after opsE (after opsD (after opsC1 (after opsC0 (after opsB (after opsA3 (after opsA2 (after opsA1 V)))))))))) main_v86 (by decide)).trans (f8_main_v86)
  have f9_main_arg4 : (after opsG (after opsF1 (after opsF0 (after opsE (after opsD (after opsC1 (after opsC0 (after opsB (after opsA3 (after opsA2 (after opsA1 V))))))))))) (Proc.devRef .tc main_arg4) = W2 := (opsG_keep (after opsF1 (after opsF0 (after opsE (after opsD (after opsC1 (after opsC0 (after opsB (after opsA3 (after opsA2 (after opsA1 V)))))))))) main_arg4 (by decide)).trans (f8_main_arg4)
  have f9_main_arg5 : (after opsG (after opsF1 (after opsF0 (after opsE (after opsD (after opsC1 (after opsC0 (after opsB (after opsA3 (after opsA2 (after opsA1 V))))))))))) (Proc.devRef .tc main_arg5) = b2 := (opsG_keep (after opsF1 (after opsF0 (after opsE (after opsD (after opsC1 (after opsC0 (after opsB (after opsA3 (after opsA2 (after opsA1 V)))))))))) main_arg5 (by decide)).trans (f8_main_arg5)
  have f10_main_v130 : (after opsH (after opsG (after opsF1 (after opsF0 (after opsE (after opsD (after opsC1 (after opsC0 (after opsB (after opsA3 (after opsA2 (after opsA1 V)))))))))))) (Proc.devRef .tc main_v130) = Cert.Spec.denseR ei (Cert.Spec.layerR ei x W1 b1) W2 b2 := sH (after opsG (after opsF1 (after opsF0 (after opsE (after opsD (after opsC1 (after opsC0 (after opsB (after opsA3 (after opsA2 (after opsA1 V))))))))))) ei (Cert.Spec.layerR ei x W1 b1) W2 b2 f9_main_v86 f9_main_arg4 f9_main_arg5 f9_main_v99 f9_main_v112
  have f11_main_v142 : (after opsI (after opsH (after opsG (after opsF1 (after opsF0 (after opsE (after opsD (after opsC1 (after opsC0 (after opsB (after opsA3 (after opsA2 (after opsA1 V))))))))))))) (Proc.devRef .tc main_v142) = Cert.Spec.layerR ei (Cert.Spec.layerR ei x W1 b1) W2 b2 := sI (after opsH (after opsG (after opsF1 (after opsF0 (after opsE (after opsD (after opsC1 (after opsC0 (after opsB (after opsA3 (after opsA2 (after opsA1 V)))))))))))) (Cert.Spec.denseR ei (Cert.Spec.layerR ei x W1 b1) W2 b2) f10_main_v130
  exact f11_main_v142

/-- On every device, from any memory with zero counters: every weakly fair execution of the reference terminates with its
    result the two layers' value of the launch contents and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v142) =
          Cert.Spec.layerR (m ((c.tc : Thread nD τ).loc main_arg1))
            (Cert.Spec.layerR (m ((c.tc : Thread nD τ).loc main_arg1)) (m ((c.tc : Thread nD τ).loc main_arg0)) (m ((c.tc : Thread nD τ).loc main_arg2)) (m ((c.tc : Thread nD τ).loc main_arg3)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v142).trans (value (launchContents m c) _ _ _ _ _ _ rfl rfl rfl rfl rfl rfl),
      (h c main_arg0).trans (after_ops_main_arg0 _), (h c main_arg1).trans (after_ops_main_arg1 _),
      (h c main_arg2).trans (after_ops_main_arg2 _), (h c main_arg3).trans (after_ops_main_arg3 _),
      (h c main_arg4).trans (after_ops_main_arg4 _), (h c main_arg5).trans (after_ops_main_arg5 _)⟩)
    (run_all m ρ)

end Cert.ReferenceIdeal.RefValue

end
-- ==== Proof.PreFin.lean ====
/-
  From the precondition to finiteness. The precondition says that, on every device, the conjunction over the five float
  arguments of "every entry has absolute value below +∞" is the bit 1. A conjunction that is 1 has both parts 1; a
  conjunction over a whole array (a reduction by "and" into a single bit) that is 1 had a 1 at every entry; and an
  extended real x with max x (-x) below +∞ is neither +∞ nor -∞, so it is a real number.
-/
import proofs.«133803_j9560597201237_2_alg».proof.Defs
import proofs.«133803_j9560597201237_2_alg».proof.Proof.Gen.Pre_finite_inputs
import proofs.«133803_j9560597201237_2_alg».proof.Proof.Spec
import Idealize.ShloMosaic.Lib.ReduceAll
import Idealize.ShloMosaic.Lib.ValueIdx

noncomputable section

namespace Cert.Proof.PreFin

open Idealize.ShloMosaic Idealize.SL.Sem

/-- The scalar shape has one index. -/
instance : Subsingleton Cert.Pre_finite_inputs.S_.Idx := ⟨fun a b => funext fun d => d.elim0⟩

/-- The word 0x7F800000 is +∞. -/
theorem ofBits_inf : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [ofBits_inf] at h
  have h' : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  induction x using EReal.rec with
  | bot => simp at h'
  | coe r => exact ⟨r, rfl⟩
  | top => simp at h'

/-- An array for which "every entry has absolute value below +∞", as the precondition prints it, is the bit 1 is an
    array of reals. -/
theorem fin_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1) :
    Cert.Spec.Fin' x := by
  intro i
  have hi := Host.reduce_andi_all _ _ hr hu ValueIdx.ix0 e i
  exact real_of_abs_lt (x i) hi

/-- Under the precondition the five float arguments are arrays of reals, on every device. -/
theorem fin_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Fin' (m ((c.tc : Thread Cert.KernelIdeal.nD Cert.KernelIdeal.τ).loc Cert.KernelIdeal.main_arg0))
    ∧ Cert.Spec.Fin' (m ((c.tc : Thread Cert.KernelIdeal.nD Cert.KernelIdeal.τ).loc Cert.KernelIdeal.main_arg2))
    ∧ Cert.Spec.Fin' (m ((c.tc : Thread Cert.KernelIdeal.nD Cert.KernelIdeal.τ).loc Cert.KernelIdeal.main_arg3))
    ∧ Cert.Spec.Fin' (m ((c.tc : Thread Cert.KernelIdeal.nD Cert.KernelIdeal.τ).loc Cert.KernelIdeal.main_arg4))
    ∧ Cert.Spec.Fin' (m ((c.tc : Thread Cert.KernelIdeal.nD Cert.KernelIdeal.τ).loc Cert.KernelIdeal.main_arg5)) := by
  have e := congrFun (h c) ValueIdx.ix0
  unfold Cert.Pre_finite_inputs.fn Cert.Pre_finite_inputs.fn_part1 at e
  dsimp only at e
  obtain ⟨e1234, e5⟩ := IntOp.andi_eq_one.1 e
  obtain ⟨e123, e4⟩ := IntOp.andi_eq_one.1 e1234
  obtain ⟨e12, e3⟩ := IntOp.andi_eq_one.1 e123
  obtain ⟨e1, e2⟩ := IntOp.andi_eq_one.1 e12
  exact ⟨fin_of_all _ _ _ _ e1, fin_of_all _ _ _ _ e2, fin_of_all _ _ _ _ e3, fin_of_all _ _ _ _ e4,
    fin_of_all _ _ _ _ e5⟩

end Cert.Proof.PreFin

end
-- ==== Proof.LibCoe.lean ====
/-
  Real numbers inside the extended reals: the coercion commutes with finite sums, with the maximum of a nonempty
  finite family (taken as a fold from -∞), with the exponential, and with a quotient by a nonzero real.
-/
import Idealize.ShloMosaic.PureOps.Ideal
import Mathlib.Data.EReal.Basic
import Mathlib.Order.Fin.Basic

noncomputable section

namespace Cert.LibCoe

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, from -∞, of the coercions of a nonempty finite family of reals is the coercion of their maximum. -/
theorem fold_max_coe {ι : Type*} [Fintype ι] [Nonempty ι] (f : ι → ℝ) :
    (Finset.univ : Finset ι).fold max (⊥ : EReal) (fun k => (f k : EReal))
      = ((Finset.univ.sup' Finset.univ_nonempty f : ℝ) : EReal) := by
  have h1 : (Finset.univ : Finset ι).fold max (⊥ : EReal) (fun k => (f k : EReal))
      = Finset.univ.sup (fun k => (f k : EReal)) := rfl
  rw [h1, ← Finset.sup'_eq_sup Finset.univ_nonempty]
  exact (Finset.comp_sup'_eq_sup'_comp Finset.univ_nonempty (fun r : ℝ => (r : EReal)) (fun x y => EReal.coe_strictMono.monotone.map_sup x y)).symm

/-- The exponential of a real. -/
theorem exp_coe (r : ℝ) : Ideal.exp (r : EReal) = ((Real.exp r : ℝ) : EReal) := rfl

/-- The exponential of -∞ less a real is zero. -/
theorem exp_bot_sub_coe (r : ℝ) : Ideal.exp ((⊥ : EReal) - (r : EReal)) = 0 := by
  rw [EReal.bot_sub]
  rfl

/-- A quotient of reals by a nonzero real. -/
theorem div_coe_coe (a b : ℝ) (hb : b ≠ 0) : Ideal.div (a : EReal) (b : EReal) = ((a / b : ℝ) : EReal) := by
  rw [Ideal.div_coe hb, ← EReal.coe_mul]
  congr 1
  field_simp

/-- An extended real that is neither infinity is the coercion of a real. -/
theorem exists_real {x : EReal} (h1 : x ≠ ⊤) (h2 : x ≠ ⊥) : ∃ r : ℝ, x = (r : EReal) :=
  ⟨x.toReal, (EReal.coe_toReal h1 h2).symm⟩

/-- A float pattern whose exponent field is not all ones (neither an infinity nor a NaN) denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split
  · exact ⟨_, rfl⟩
  · exact ⟨_, rfl⟩

/-- The f32 word nearest 1/5 denotes a real number. -/
theorem scale_real : ∃ r : ℝ, Ideal.ofBits .f32 0x3E4CCCCD#32 = (r : EReal) :=
  ieee_real 8 23 (0x3E4CCCCD#32 : BitVec 32) (by decide)

/-- The f32 word nearest 10/9 denotes a real number. -/
theorem keep_real : ∃ r : ℝ, Ideal.ofBits .f32 0x3F8E38E4#32 = (r : EReal) :=
  ieee_real 8 23 (0x3F8E38E4#32 : BitVec 32) (by decide)

end Cert.LibCoe

end
-- ==== Proof.MathNorm.lean ====
/-
  The normalising part of a layer, index by index.

  The kernel re-lays the N x 64 array as N/2 x 128 (row-major: entry (r, l) of the re-laid array is entry
  (2 r + l / 64, l % 64) of the array), puts the two 1 x 64 statistics rows twice side by side (entry (0, l) of
  the doubled row is entry (0, l % 64) of the row), computes (h - mean) * inv entry by entry and lays the result back.
  The reference broadcasts the two rows over the N rows and computes the same expression. Entry (p, q) of either is
  (H (p, q) - mean (0, q)) * inv (0, q): no algebra, only indices, so the equality holds for every array.
-/
import proofs.«133803_j9560597201237_2_alg».proof.Proof.Spec
import proofs.«133803_j9560597201237_2_alg».proof.Proof.LibCoe
import Idealize.ShloMosaic.Lib.ValueLayout
import Idealize.ShloMosaic.Lib.IdealHost

noncomputable section

namespace Cert.Spec

open Idealize.ShloMosaic Idealize.ShloMosaic.ValueIdx
open Cert.KernelIdeal Cert.KernelIdeal.Facts₀

/-! ## The two re-layings read at an index -/

/-- The N x 64 array re-laid as N/2 x 128 reads, at (r, l), the entry (2 r + l / 64, l % 64). -/
theorem relay_apply {α : Type} (X : S100000x64.Idx → α) (r : Fin 50000) (l : Fin 128) (p : Fin 100000) (q : Fin 64)
    (hp : p.val = 2 * r.val + l.val / 64) (hq : q.val = l.val % 64) :
    shapeCast S50000x128 X shapeCasts_S100000x64_S50000x128 (ix2 r l) = X (ix2 p q) :=
  shapeCast_apply X shapeCasts_S100000x64_S50000x128 (ix2 r l) (ix2 p q) (by
    rw [Shape.rowMajor_val_two, Shape.rowMajor_val_two]
    show p.val * 64 + q.val = r.val * 128 + l.val
    omega)

/-- The N/2 x 128 array laid back as N x 64 reads, at (p, q), the entry (p / 2, (p % 2) * 64 + q). -/
theorem layback_apply {α : Type} (Y : S50000x128.Idx → α) (p : Fin 100000) (q : Fin 64) (r : Fin 50000) (l : Fin 128)
    (hr : r.val = p.val / 2) (hl : l.val = (p.val % 2) * 64 + q.val) :
    shapeCast S100000x64 Y shapeCasts_S50000x128_S100000x64 (ix2 p q) = Y (ix2 r l) :=
  shapeCast_apply Y shapeCasts_S50000x128_S100000x64 (ix2 p q) (ix2 r l) (by
    rw [Shape.rowMajor_val_two, Shape.rowMajor_val_two]
    show r.val * 128 + l.val = p.val * 64 + q.val
    omega)

/-! ## A row twice side by side, and a row broadcast over the N rows -/

/-- The doubled row reads, at lane l, the row at l % 64. -/
theorem twice_apply (v : FVec Ideal S1x64 .f32) (l : Fin 128) (q : Fin 64) (hq : q.val = l.val % 64) :
    twice v (ix2 (0 : Fin 1) l) = v (ix2 (0 : Fin 1) q) := by
  unfold twice
  by_cases hl : l.val < 64
  · refine concatenate_pair_apply_left _ v v concatenates_S1x64_S1x64_S1x128_d1 (ix2 (0 : Fin 1) l) rfl
      (ix2 (0 : Fin 1) q) (fun b => ?_)
    match b with
    | ⟨0, _⟩ => rfl
    | ⟨1, _⟩ =>
      show q.val = l.val
      omega
  · refine concatenate_pair_apply_right _ v v concatenates_S1x64_S1x64_S1x128_d1 (ix2 (0 : Fin 1) l) rfl rfl
      (ix2 (0 : Fin 1) q) (fun b hb => ?_) ?_
    · match b, hb with
      | ⟨0, _⟩, _ => rfl
      | ⟨1, _⟩, hb => exact absurd rfl hb
    · show q.val + 64 = l.val
      have := l.isLt
      omega

/-- A 1 x 64 row broadcast over the N rows reads, at (p, q), the row at q. -/
theorem bcastRow_apply (v : FVec Ideal S1x64 .f32) (p : Fin 100000) (q : Fin 64) :
    broadcastInDim S100000x64 ![0, 1] bcast_S1x64_S100000x64_0_1 v (ix2 p q) = v (ix2 (0 : Fin 1) q) :=
  broadcastInDim_apply ![0, 1] bcast_S1x64_S100000x64_0_1 v (ix2 p q) (ix2 (0 : Fin 1) q) (fun a => by
    match a with
    | ⟨0, _⟩ => rfl
    | ⟨1, _⟩ => rfl)

/-! ## The two normalisations at an index -/

/-- Entry (p, q) of the reference's normalisation. -/
theorem normR_apply (H : FVec Ideal S100000x64 .f32) (p : Fin 100000) (q : Fin 64) :
    normR H (ix2 p q) = (H (ix2 p q) - meanRow H (ix2 (0 : Fin 1) q)) * invRow H (ix2 (0 : Fin 1) q) := by
  unfold normR
  rw [mulf_apply, subf_apply, bcastRow_apply, bcastRow_apply]

/-- Entry (p, q) of the kernel's normalisation. -/
theorem normK_apply (H : FVec Ideal S100000x64 .f32) (p : Fin 100000) (q : Fin 64) :
    normK H (ix2 p q) = (H (ix2 p q) - meanRow H (ix2 (0 : Fin 1) q)) * invRow H (ix2 (0 : Fin 1) q) := by
  have hr : p.val / 2 < 50000 := by have := p.isLt; omega
  have hl : (p.val % 2) * 64 + q.val < 128 := by have := q.isLt; omega
  unfold normK
  refine (layback_apply _ p q ⟨p.val / 2, hr⟩ ⟨(p.val % 2) * 64 + q.val, hl⟩ rfl rfl).trans ?_
  show (shapeCast S50000x128 H shapeCasts_S100000x64_S50000x128 (ix2 ⟨p.val / 2, hr⟩ ⟨(p.val % 2) * 64 + q.val, hl⟩)
        - twice (meanRow H) (ix2 (0 : Fin 1) ⟨(p.val % 2) * 64 + q.val, hl⟩))
      * twice (invRow H) (ix2 (0 : Fin 1) ⟨(p.val % 2) * 64 + q.val, hl⟩) = _
  have hq : q.val = ((p.val % 2) * 64 + q.val) % 64 := by have := q.isLt; omega
  have hp : p.val = 2 * (p.val / 2) + ((p.val % 2) * 64 + q.val) / 64 := by have := q.isLt; omega
  rw [relay_apply H ⟨p.val / 2, hr⟩ ⟨(p.val % 2) * 64 + q.val, hl⟩ p q hp hq,
    twice_apply (meanRow H) ⟨(p.val % 2) * 64 + q.val, hl⟩ q hq,
    twice_apply (invRow H) ⟨(p.val % 2) * 64 + q.val, hl⟩ q hq]

/-- The kernel's re-laid normalisation is the reference's, for every array. -/
theorem norm_eq (H : FVec Ideal S100000x64 .f32) : normK H = normR H := by
  funext i
  obtain ⟨p, q, rfl⟩ : ∃ (p : Fin 100000) (q : Fin 64), i = ix2 p q := ⟨i 0, i 1, eq_ix2 i⟩
  exact (normK_apply H p q).trans (normR_apply H p q).symm

/-! ## Real numbers among the extended reals -/

theorem real_add {x y : EReal} (hx : ∃ a : ℝ, x = (a : EReal)) (hy : ∃ b : ℝ, y = (b : EReal)) :
    ∃ c : ℝ, x + y = (c : EReal) := by
  obtain ⟨a, rfl⟩ := hx
  obtain ⟨b, rfl⟩ := hy
  exact ⟨a + b, (EReal.coe_add a b).symm⟩

theorem real_sub {x y : EReal} (hx : ∃ a : ℝ, x = (a : EReal)) (hy : ∃ b : ℝ, y = (b : EReal)) :
    ∃ c : ℝ, x - y = (c : EReal) := by
  obtain ⟨a, rfl⟩ := hx
  obtain ⟨b, rfl⟩ := hy
  exact ⟨a - b, (EReal.coe_sub a b).symm⟩

theorem real_mul {x y : EReal} (hx : ∃ a : ℝ, x = (a : EReal)) (hy : ∃ b : ℝ, y = (b : EReal)) :
    ∃ c : ℝ, x * y = (c : EReal) := by
  obtain ⟨a, rfl⟩ := hx
  obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [Cert.LibCoe.coe_sum]; exact Finset.sum_congr rfl (fun i _ => hg i)⟩

/-- A finite sum of squares of reals is a real that is not negative. -/
theorem real_sum_sq {ι : Type} (s : Finset ι) (f : ι → EReal) (hf : ∀ i, ∃ r : ℝ, f i = (r : EReal)) :
    ∃ r : ℝ, 0 ≤ r ∧ ∑ i ∈ s, f i * f i = (r : EReal) := by
  choose g hg using hf
  refine ⟨∑ i ∈ s, g i * g i, Finset.sum_nonneg (fun i _ => mul_self_nonneg (g i)), ?_⟩
  rw [Cert.LibCoe.coe_sum]
  exact Finset.sum_congr rfl (fun i _ => by rw [hg i, EReal.coe_mul])

/-! ## The three constants -/

/-- The word 0x47C35000 is the real 100000: (2^23 + 4411392) * 2^(143 - 127 - 23). -/
theorem ofBits_N : Ideal.ofBits .f32 0x47C35000#32 = ((100000 : ℝ) : EReal) := by
  simp [Ideal.ofBits, Ideal.ieee, -EReal.coe_mul]; norm_num

/-- A word with a clear sign bit whose exponent field is neither all ones nor zero denotes a positive real. -/
theorem ieee_pos (e m : Nat) {w : Nat} (b : BitVec w) (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  unfold Ideal.ieee
  dsimp only
  rw [if_neg h1, if_neg h0, hs]
  simp only [Bool.false_eq_true, if_false]
  exact ⟨_, by positivity, rfl⟩

/-- The word 0x3727C5AC (about 1e-5) is a positive real. -/
theorem ofBits_eps : ∃ e : ℝ, 0 < e ∧ Ideal.ofBits .f32 0x3727C5AC#32 = (e : EReal) :=
  ieee_pos 8 23 (0x3727C5AC#32 : BitVec 32) (by decide) (by decide) (by decide)

/-! ## The column statistics at an index -/

/-- A 64-vector laid as a 1 x 64 row reads, at (0, q), the vector at q. -/
theorem bcastCol_apply (v : FVec Ideal S64 .f32) (q : Fin 64) :
    broadcastInDim S1x64 ![1] bcast_S64_S1x64_1 v (ix2 (0 : Fin 1) q) = v (ix1 q) :=
  broadcastInDim_apply ![1] bcast_S64_S1x64_1 v (ix2 (0 : Fin 1) q) (ix1 q) (fun a => by
    match a with
    | ⟨0, _⟩ => rfl)

/-- A column sum is the host's sum over the rows, from zero. -/
theorem colSum_apply0 (X : FVec Ideal S100000x64 .f32) (q : Fin 64) :
    colSum X (ix2 (0 : Fin 1) q) = Ideal.hostReduceAdd reducesTo_S100000x64_S64_d0 X 0 (ix1 q) := by
  unfold colSum
  rw [bcastCol_apply, hostReduceAdd_apply, constant_apply, Ideal.ofBits_zero_f32]

/-- A column sum is zero plus a finite sum of entries of the array. -/
theorem colSum_apply (X : FVec Ideal S100000x64 .f32) (q : Fin 64) :
    ∃ s : Finset S100000x64.Idx, colSum X (ix2 (0 : Fin 1) q) = 0 + ∑ i ∈ s, X i := by
  rw [colSum_apply0]
  unfold Ideal.hostReduceAdd
  exact ⟨_, rfl⟩

/-- The column mean is the column sum over 100000. -/
theorem meanRow_apply (X : FVec Ideal S100000x64 .f32) (q : Fin 64) :
    meanRow X (ix2 (0 : Fin 1) q) = Ideal.div (colSum X (ix2 (0 : Fin 1) q)) ((100000 : ℝ) : EReal) := by
  unfold meanRow
  rw [hostDivf_apply, broadcastInDim_scalar_apply, constant_apply, ofBits_N]

/-- The divisor of the variance is 100000 - 0. -/
theorem nrm_apply : nrm ix0 = ((100000 : ℝ) : EReal) := by
  unfold nrm
  rw [subf_apply, constant_apply, ofBits_N, sitofp_apply, constantI_apply]
  show ((100000 : ℝ) : EReal) - (((0#32 : BitVec 32).toInt : ℝ) : EReal) = _
  simp

/-- The divisor is positive: the comparison's bit is set. -/
theorem cond_apply : cmpf .ogt nrm (constant (F := Ideal) S_ .f32 0x00000000#32) ix0 = 1#1 := by
  rw [cmpf_apply, nrm_apply, constant_apply, Ideal.ofBits_zero_f32]
  have h : (0 : EReal) < ((100000 : ℝ) : EReal) := by exact_mod_cast (by norm_num : (0 : ℝ) < 100000)
  show BitVec.ofBool (decide ((0 : EReal) < ((100000 : ℝ) : EReal))) = 1#1
  rw [decide_eq_true h]
  rfl

/-- The deviations from the column means. -/
abbrev dev (X : FVec Ideal S100000x64 .f32) : FVec Ideal S100000x64 .f32 :=
  subf X (broadcastInDim S100000x64 ![0, 1] bcast_S1x64_S100000x64_0_1 (meanRow X))

/-- The column variance is the column sum of the squared deviations over 100000. -/
theorem varRow_apply (X : FVec Ideal S100000x64 .f32) (q : Fin 64) :
    varRow X (ix2 (0 : Fin 1) q)
      = Ideal.div (colSum (mulf (dev X) (dev X)) (ix2 (0 : Fin 1) q)) ((100000 : ℝ) : EReal) := by
  unfold varRow
  rw [select_apply, broadcastInDim_scalar_apply, cond_apply, select_one, hostDivf_apply, broadcastInDim_scalar_apply,
    nrm_apply]

/-- The inverse deviation is rsqrt of the variance plus the small constant. -/
theorem invRow_apply (X : FVec Ideal S100000x64 .f32) (q : Fin 64) :
    invRow X (ix2 (0 : Fin 1) q)
      = Ideal.rsqrt (varRow X (ix2 (0 : Fin 1) q) + Ideal.ofBits .f32 0x3727C5AC#32) := by
  unfold invRow
  show Ideal.rsqrt (addf (varRow X) (broadcastInDim S1x64 ![] bcast_S_S1x64
    (constant (F := Ideal) S_ .f32 0x3727C5AC#32)) (ix2 (0 : Fin 1) q)) = _
  rw [addf_apply, broadcastInDim_scalar_apply, constant_apply]

/-! ## On an array of reals the statistics are reals, and so is the result -/

theorem colSum_real (X : FVec Ideal S100000x64 .f32) (hX : Fin' X) (q : Fin 64) :
    ∃ r : ℝ, colSum X (ix2 (0 : Fin 1) q) = (r : EReal) := by
  obtain ⟨s, hs⟩ := colSum_apply X q
  obtain ⟨r, hr⟩ := real_sum s X hX
  exact ⟨r, by rw [hs, hr, zero_add]⟩

theorem meanRow_real (X : FVec Ideal S100000x64 .f32) (hX : Fin' X) (q : Fin 64) :
    ∃ r : ℝ, meanRow X (ix2 (0 : Fin 1) q) = (r : EReal) := by
  obtain ⟨r, hr⟩ := colSum_real X hX q
  exact ⟨r / 100000, by rw [meanRow_apply, hr, Cert.LibCoe.div_coe_coe r 100000 (by norm_num)]⟩

theorem dev_fin (X : FVec Ideal S100000x64 .f32) (hX : Fin' X) : Fin' (dev X) := by
  intro i
  obtain ⟨p, q, rfl⟩ : ∃ (p : Fin 100000) (q : Fin 64), i = ix2 p q := ⟨i 0, i 1, eq_ix2 i⟩
  show ∃ r : ℝ, X (ix2 p q) - broadcastInDim S100000x64 ![0, 1] bcast_S1x64_S100000x64_0_1 (meanRow X) (ix2 p q)
    = (r : EReal)
  rw [bcastRow_apply]
  exact real_sub (hX _) (meanRow_real X hX q)

/-- The variance is a real that is not negative. -/
theorem varRow_real (X : FVec Ideal S100000x64 .f32) (hX : Fin' X) (q : Fin 64) :
    ∃ v : ℝ, 0 ≤ v ∧ varRow X (ix2 (0 : Fin 1) q) = (v : EReal) := by
  obtain ⟨s, hs⟩ := colSum_apply (mulf (dev X) (dev X)) q
  obtain ⟨r, hr0, hr⟩ := real_sum_sq s (dev X) (dev_fin X hX)
  refine ⟨r / 100000, div_nonneg hr0 (by norm_num), ?_⟩
  rw [varRow_apply, hs]
  have h2 : ∑ i ∈ s, mulf (dev X) (dev X) i = ∑ i ∈ s, dev X i * dev X i := rfl
  rw [h2, hr, zero_add, Cert.LibCoe.div_coe_coe r 100000 (by norm_num)]

theorem invRow_real (X : FVec Ideal S100000x64 .f32) (hX : Fin' X) (q : Fin 64) :
    ∃ r : ℝ, invRow X (ix2 (0 : Fin 1) q) = (r : EReal) := by
  obtain ⟨v, hv0, hv⟩ := varRow_real X hX q
  obtain ⟨e, he0, he⟩ := ofBits_eps
  have hpos : 0 < v + e := by linarith
  refine ⟨(Real.sqrt (v + e))⁻¹, ?_⟩
  rw [invRow_apply, hv, he, ← EReal.coe_add, Ideal.rsqrt_coe, if_neg (not_lt.2 hpos.le), if_neg hpos.ne']

/-- On an array of reals the normalised array is an array of reals. -/
theorem normR_fin (H : FVec Ideal S100000x64 .f32) (hH : Fin' H) : Fin' (normR H) := by
  intro i
  obtain ⟨p, q, rfl⟩ : ∃ (p : Fin 100000) (q : Fin 64), i = ix2 p q := ⟨i 0, i 1, eq_ix2 i⟩
  rw [normR_apply]
  exact real_mul (real_sub (hH _) (meanRow_real H hH q)) (invRow_real H hH q)

end Cert.Spec

end
-- ==== Proof.MathDenseFin.lean ====
/-
  The dense part of a layer: every entry stays a real number, and the two ways of writing it agree.

  Part 1 (this section): the graph quantities keep every entry real. A gather, a broadcast, a slice or a reshape reads
  entries of its operand, so it keeps them real; a product, a difference and a negation of reals are real; a
  scatter-add's entry is the base entry plus a finite sum of update entries; the in-degree is a finite sum of ones
  added to zero; where the degree is positive its inverse square root is the real (sqrt deg)^(-1), elsewhere the
  value is zero. Nothing is assumed about the index words: a gather reads SOME entry, a scatter-add sums SOME updates.
-/
import proofs.«133803_j9560597201237_2_alg».proof.Proof.Spec
import proofs.«133803_j9560597201237_2_alg».proof.Proof.LibCoe
import Idealize.ShloMosaic.PureOps.Ideal.Laws

noncomputable section

namespace Cert.Spec

open Idealize.ShloMosaic Idealize.ShloMosaic.ValueIdx
open Cert.KernelIdeal Cert.KernelIdeal.Facts₀

/-! ## Operations that keep every entry real -/

/-- A gather reads entries of its operand. -/
theorem fin_gather {s si t : Shape} {w : Nat} (d : GatherDims s si t) (x : FVec Ideal s .f32) (idx : IVec si w)
    (hx : Fin' x) : Fin' (Host.gather d x idx : FVec Ideal t .f32) := fun _ => hx _

/-- A broadcast reads entries of its operand. -/
theorem fin_bcast {s t : Shape} (dims : Fin s.rank → Fin t.rank) (h : s.BroadcastsInDim t dims) (x : FVec Ideal s .f32)
    (hx : Fin' x) : Fin' (broadcastInDim t dims h x : FVec Ideal t .f32) := fun _ => hx _

/-- A reshape reads entries of its operand. -/
theorem fin_shapeCast {s t : Shape} (x : FVec Ideal s .f32) (h : s.ShapeCasts t) (hx : Fin' x) :
    Fin' (shapeCast t x h : FVec Ideal t .f32) := fun _ => hx _

/-- A slice reads entries of its operand. -/
theorem fin_slice {s t : Shape} (off : Fin s.rank → Nat) (x : FVec Ideal s .f32) (h : s.Slices off t) (hx : Fin' x) :
    Fin' (extractStridedSlice t off x h : FVec Ideal t .f32) := fun _ => hx _

theorem fin_mulf {s : Shape} (x y : FVec Ideal s .f32) (hx : Fin' x) (hy : Fin' y) : Fin' (mulf x y) := fun i => by
  obtain ⟨a, ha⟩ := hx i
  obtain ⟨b, hb⟩ := hy i
  exact ⟨a * b, by rw [mulf_apply, ha, hb, EReal.coe_mul]⟩

theorem fin_subf {s : Shape} (x y : FVec Ideal s .f32) (hx : Fin' x) (hy : Fin' y) : Fin' (subf x y) := fun i => by
  obtain ⟨a, ha⟩ := hx i
  obtain ⟨b, hb⟩ := hy i
  exact ⟨a - b, by rw [subf_apply, ha, hb, EReal.coe_sub]⟩

theorem fin_addf {s : Shape} (x y : FVec Ideal s .f32) (hx : Fin' x) (hy : Fin' y) : Fin' (addf x y) := fun i => by
  obtain ⟨a, ha⟩ := hx i
  obtain ⟨b, hb⟩ := hy i
  exact ⟨a + b, by rw [addf_apply, ha, hb, EReal.coe_add]⟩

theorem fin_hostNegf {s : Shape} (x : FVec Ideal s .f32) (hx : Fin' x) : Fin' (Host.negf x) := fun i => by
  obtain ⟨a, ha⟩ := hx i
  refine ⟨-a, ?_⟩
  show -(x i) = _
  rw [ha, EReal.coe_neg]

/-- A float constant whose exponent field is not all ones is a real at every entry. -/
theorem fin_const {s : Shape} (b : BitVec 32) (h : (b.extractLsb' 23 8).toNat ≠ 2 ^ 8 - 1) :
    Fin' (constant (F := Ideal) s .f32 b) := fun _ => Cert.LibCoe.ieee_real 8 23 b h

/-- A real plus a finite sum of reals, inside the extended reals. -/
theorem coe_add_sum {ι : Type*} (S : Finset ι) (x : EReal) (a : ℝ) (g : ι → EReal) (f : ι → ℝ) (ha : x = (a : EReal))
    (hf : ∀ j, g j = (f j : EReal)) : x + ∑ j ∈ S, g j = ((a + ∑ j ∈ S, f j : ℝ) : EReal) := by
  rw [ha, EReal.coe_add, Cert.LibCoe.coe_sum]
  congr 1
  exact Finset.sum_congr rfl fun j _ => hf j

/-- A scatter-add's entry is the base entry plus a finite sum of update entries. -/
theorem fin_scatterAdd {s si u : Shape} {w : Nat} (d : ScatterDims s si u) (x : FVec Ideal s .f32) (idx : IVec si w)
    (upd : FVec Ideal u .f32) (hx : Fin' x) (hu : Fin' upd) : Fin' (Host.scatterAdd d x idx upd) := fun i => by
  obtain ⟨a, ha⟩ := hx i
  choose f hf using hu
  have h : Host.scatterAdd d x idx upd i = Ideal.hostScatterAdd d x idx upd i := rfl
  rw [h]
  unfold Ideal.hostScatterAdd
  exact ⟨_, coe_add_sum _ (x i) a upd f ha hf⟩

/-! ## Degrees, edge weights, one propagation step -/

theorem zerosN_apply (i : S100000.Idx) : zerosN i = 0 := by
  show Ideal.ofBits .f32 0x00000000#32 = 0
  exact Ideal.ofBits_zero_f32

theorem zerosNC_apply (i : S100000x64.Idx) : zerosNC i = 0 := by
  show Ideal.ofBits .f32 0x00000000#32 = 0
  exact Ideal.ofBits_zero_f32

theorem zerosN_fin : Fin' zerosN := fun i => ⟨0, by rw [zerosN_apply, EReal.coe_zero]⟩
theorem zerosNC_fin : Fin' zerosNC := fun i => ⟨0, by rw [zerosNC_apply, EReal.coe_zero]⟩

/-- The in-degree is zero plus a finite sum of ones. -/
theorem deg_fin (ei : IVec S2x1600000 32) : Fin' (deg ei) :=
  fin_scatterAdd _ _ _ _ zerosN_fin (fin_bcast _ _ _ (fin_const _ (by decide)))

/-- The comparison "x > 0" answers 1 where 0 < x. -/
theorem cmp_ogt_pos {x : EReal} (h : 0 < x) : Ideal.cmp .ogt x 0 = 1#1 := by
  unfold Ideal.cmp
  simp only [h, decide_true]
  rfl

/-- The comparison "x > 0" answers 0 where not 0 < x. -/
theorem cmp_ogt_npos {x : EReal} (h : ¬ 0 < x) : Ideal.cmp .ogt x 0 = 0#1 := by
  unfold Ideal.cmp
  simp only [h, decide_false]
  rfl

/-- Where the degree is positive the value is (sqrt deg)^(-1), a real; elsewhere it is zero. -/
theorem dinv_fin (ei : IVec S2x1600000 32) : Fin' (dinv ei) := fun i => by
  obtain ⟨r, hr⟩ := deg_fin ei i
  unfold dinv safeDeg
  have hq : ∀ v : FVec Ideal S100000 .f32, Host.rsqrt v i = Ideal.rsqrt (v i) := fun _ => rfl
  rw [select_apply, hq, select_apply, cmpf_apply, Ideal.cmpf_def, zerosN_apply, hr]
  by_cases hpos : (0 : EReal) < (r : EReal)
  · have hr0 : 0 < r := EReal.coe_pos.mp hpos
    rw [cmp_ogt_pos hpos, select_one, select_one, Ideal.rsqrt_coe, if_neg (not_lt.mpr hr0.le), if_neg hr0.ne']
    exact ⟨_, rfl⟩
  · rw [cmp_ogt_npos hpos, select_zero]
    exact ⟨0, EReal.coe_zero.symm⟩

/-- An edge weight is minus a real times a real. -/
theorem wEdge_fin (ei : IVec S2x1600000 32) : Fin' (wEdge ei) :=
  fin_mulf _ _ (fin_hostNegf _ (fin_gather _ _ _ (dinv_fin ei))) (fin_gather _ _ _ (dinv_fin ei))

/-- A propagated entry is zero plus a finite sum of edge weights times gathered entries. -/
theorem prop_fin (ei : IVec S2x1600000 32) (h : FVec Ideal S100000x64 .f32) (hh : Fin' h) : Fin' (prop ei h) :=
  fin_scatterAdd _ _ _ _ zerosNC_fin
    (fin_mulf _ _ (fin_bcast _ _ _ (fin_bcast _ _ _ (wEdge_fin ei))) (fin_gather _ _ _ hh))

end Cert.Spec

end
-- ==== Proof.MathDense.lean ====
/-
  The dense part of a layer: the two ways of writing it agree on real data, and the result is real.

  The kernel multiplies (h, t, s) by (W0 - W2, W1, c W2) and the reference multiplies (h, t, c s - h) by (W0, W1, W2),
  where t and s are one and two propagation steps of h and c is the float constant 2. Entry (p, q) of either is
  max (three sums over k : Fin 64 + bias q, 0). When every entry involved is a real the sums can be taken in the
  reals, where
    sum h (W0 - W2) + sum t W1 + sum s (c W2) = sum h W0 + sum t W1 + sum (c s - h) W2
  by distributivity (no property of c beyond being a real is used). On the extended reals distributivity fails at the
  infinities, which is why the entries are required to be reals.
-/
import proofs.«133803_j9560597201237_2_alg».proof.Proof.MathDenseFin
import proofs.«133803_j9560597201237_2_alg».proof.Proof.LibDenseAt
import Idealize.ShloMosaic.Lib.ValueLayout

noncomputable section

namespace Cert.Spec

open Idealize.ShloMosaic Idealize.ShloMosaic.ValueIdx
open Cert.KernelIdeal Cert.KernelIdeal.Facts₀

/-! ## The algebra, on functions of k : Fin 64 -/

/-- The two dense expressions agree when every value is a real. -/
theorem cheb_algebra (A T S U V Z : Fin 64 → EReal) (c β : EReal)
    (hA : ∀ k, ∃ r : ℝ, A k = (r : EReal)) (hT : ∀ k, ∃ r : ℝ, T k = (r : EReal)) (hS : ∀ k, ∃ r : ℝ, S k = (r : EReal))
    (hU : ∀ k, ∃ r : ℝ, U k = (r : EReal)) (hV : ∀ k, ∃ r : ℝ, V k = (r : EReal)) (hZ : ∀ k, ∃ r : ℝ, Z k = (r : EReal))
    (hc : ∃ r : ℝ, c = (r : EReal)) (hβ : ∃ r : ℝ, β = (r : EReal)) :
    max ((((∑ k : Fin 64, A k * (U k - Z k)) + ∑ k : Fin 64, T k * V k) + ∑ k : Fin 64, S k * (c * Z k)) + β) 0
      = max ((((∑ k : Fin 64, A k * U k) + ∑ k : Fin 64, T k * V k) + ∑ k : Fin 64, (c * S k - A k) * Z k) + β) 0 := by
  choose a ha using hA
  choose t ht using hT
  choose s hs using hS
  choose u hu using hU
  choose v hv using hV
  choose z hz using hZ
  obtain ⟨c', rfl⟩ := hc
  obtain ⟨β', rfl⟩ := hβ
  have e1 : ∀ k, A k * (U k - Z k) = ((a k * (u k - z k) : ℝ) : EReal) := fun k => by
    rw [ha, hu, hz, EReal.coe_mul, EReal.coe_sub]
  have e2 : ∀ k, T k * V k = ((t k * v k : ℝ) : EReal) := fun k => by rw [ht, hv, EReal.coe_mul]
  have e3 : ∀ k, S k * ((c' : EReal) * Z k) = ((s k * (c' * z k) : ℝ) : EReal) := fun k => by
    rw [hs, hz, EReal.coe_mul, EReal.coe_mul]
  have e4 : ∀ k, A k * U k = ((a k * u k : ℝ) : EReal) := fun k => by rw [ha, hu, EReal.coe_mul]
  have e5 : ∀ k, ((c' : EReal) * S k - A k) * Z k = (((c' * s k - a k) * z k : ℝ) : EReal) := fun k => by
    rw [hs, ha, hz, EReal.coe_mul, EReal.coe_sub, EReal.coe_mul]
  rw [Finset.sum_congr rfl fun k _ => e1 k, Finset.sum_congr rfl fun k _ => e2 k, Finset.sum_congr rfl fun k _ => e3 k,
    Finset.sum_congr rfl fun k _ => e4 k, Finset.sum_congr rfl fun k _ => e5 k]
  rw [← Cert.LibCoe.coe_sum, ← Cert.LibCoe.coe_sum, ← Cert.LibCoe.coe_sum, ← Cert.LibCoe.coe_sum, ← Cert.LibCoe.coe_sum]
  rw [← EReal.coe_add, ← EReal.coe_add, ← EReal.coe_add, ← EReal.coe_add, ← EReal.coe_add, ← EReal.coe_add]
  refine congrArg (fun x : ℝ => max (x : EReal) 0) ?_
  refine congrArg (· + β') ?_
  rw [← Finset.sum_add_distrib, ← Finset.sum_add_distrib, ← Finset.sum_add_distrib, ← Finset.sum_add_distrib]
  exact Finset.sum_congr rfl fun k _ => by ring

/-- The reference's dense expression is a real when every value is a real. -/
theorem cheb_real (A T S U V Z : Fin 64 → EReal) (c β : EReal)
    (hA : ∀ k, ∃ r : ℝ, A k = (r : EReal)) (hT : ∀ k, ∃ r : ℝ, T k = (r : EReal)) (hS : ∀ k, ∃ r : ℝ, S k = (r : EReal))
    (hU : ∀ k, ∃ r : ℝ, U k = (r : EReal)) (hV : ∀ k, ∃ r : ℝ, V k = (r : EReal)) (hZ : ∀ k, ∃ r : ℝ, Z k = (r : EReal))
    (hc : ∃ r : ℝ, c = (r : EReal)) (hβ : ∃ r : ℝ, β = (r : EReal)) :
    ∃ r : ℝ, max ((((∑ k : Fin 64, A k * U k) + ∑ k : Fin 64, T k * V k) + ∑ k : Fin 64, (c * S k - A k) * Z k) + β) 0
      = (r : EReal) := by
  choose a ha using hA
  choose t ht using hT
  choose s hs using hS
  choose u hu using hU
  choose v hv using hV
  choose z hz using hZ
  obtain ⟨c', rfl⟩ := hc
  obtain ⟨β', rfl⟩ := hβ
  have e2 : ∀ k, T k * V k = ((t k * v k : ℝ) : EReal) := fun k => by rw [ht, hv, EReal.coe_mul]
  have e4 : ∀ k, A k * U k = ((a k * u k : ℝ) : EReal) := fun k => by rw [ha, hu, EReal.coe_mul]
  have e5 : ∀ k, ((c' : EReal) * S k - A k) * Z k = (((c' * s k - a k) * z k : ℝ) : EReal) := fun k => by
    rw [hs, ha, hz, EReal.coe_mul, EReal.coe_sub, EReal.coe_mul]
  rw [Finset.sum_congr rfl fun k _ => e2 k, Finset.sum_congr rfl fun k _ => e4 k, Finset.sum_congr rfl fun k _ => e5 k]
  rw [← Cert.LibCoe.coe_sum, ← Cert.LibCoe.coe_sum, ← Cert.LibCoe.coe_sum]
  rw [← EReal.coe_add, ← EReal.coe_add, ← EReal.coe_add, ← EReal.coe_zero]
  exact ⟨_, (EReal.coe_strictMono.monotone.map_max).symm⟩

/-! ## The weights and the constant -/

theorem w_0_fin (W : FVec Ideal S3x64x64 .f32) (hW : Fin' W) : Fin' (w_0 W) := fin_shapeCast _ _ (fin_slice _ _ _ hW)
theorem w_1_fin (W : FVec Ideal S3x64x64 .f32) (hW : Fin' W) : Fin' (w_1 W) := fin_shapeCast _ _ (fin_slice _ _ _ hW)
theorem w_2_fin (W : FVec Ideal S3x64x64 .f32) (hW : Fin' W) : Fin' (w_2 W) := fin_shapeCast _ _ (fin_slice _ _ _ hW)

/-- The float constant 2 is a real (its value is not needed). -/
theorem two_real : ∃ r : ℝ, Ideal.ofBits .f32 0x40000000#32 = (r : EReal) :=
  Cert.LibCoe.ieee_real 8 23 (0x40000000#32 : BitVec 32) (by decide)

/-! ## The two dense parts read at an entry -/

/-- The kernel's dense part at (p, q). -/
theorem denseK_at (ei : IVec S2x1600000 32) (h : FVec Ideal S100000x64 .f32) (W : FVec Ideal S3x64x64 .f32)
    (b : FVec Ideal S64 .f32) (p : Fin 100000) (q : Fin 64) :
    denseK ei h W b (ix2 p q)
      = max ((((∑ k : Fin 64, h (ix2 p k) * (w_0 W (ix2 k q) - w_2 W (ix2 k q)))
            + ∑ k : Fin 64, prop ei h (ix2 p k) * w_1 W (ix2 k q))
          + ∑ k : Fin 64, prop ei (prop ei h) (ix2 p k) * (Ideal.ofBits .f32 0x40000000#32 * w_2 W (ix2 k q)))
        + b (ix1 q)) 0 := by
  have h0 : denseK ei h W b (ix2 p q)
      = mmAt h (prop ei h) (prop ei (prop ei h)) (w0p W) (w_1 W) (w2p W) (brow b) p q := rfl
  have hb : brow b (ix2 (0 : Fin 1) q) = b (ix1 q) := shapeCast_a_1a_apply b _ 0 q
  have e1 : ∀ k : Fin 64, w0p W (ix2 k q) = w_0 W (ix2 k q) - w_2 W (ix2 k q) := fun _ => rfl
  have e2 : ∀ k : Fin 64, w2p W (ix2 k q) = Ideal.ofBits .f32 0x40000000#32 * w_2 W (ix2 k q) := fun _ => rfl
  rw [h0]
  unfold mmAt
  rw [hb, Finset.sum_congr rfl fun k _ => congrArg (h (ix2 p k) * ·) (e1 k),
    Finset.sum_congr rfl fun k _ => congrArg (prop ei (prop ei h) (ix2 p k) * ·) (e2 k)]

/-- The reference's third operand at an entry: c s - h. -/
theorem cheb_apply (s h : FVec Ideal S100000x64 .f32) (j : S100000x64.Idx) :
    subf (mulf (broadcastInDim S100000x64 ![] bcast_S_S100000x64 (constant (F := Ideal) S_ .f32 0x40000000#32)) s) h j
      = Ideal.ofBits .f32 0x40000000#32 * s j - h j := rfl

/-- The reference's dense part at (p, q). -/
theorem denseR_at (ei : IVec S2x1600000 32) (h : FVec Ideal S100000x64 .f32) (W : FVec Ideal S3x64x64 .f32)
    (b : FVec Ideal S64 .f32) (p : Fin 100000) (q : Fin 64) :
    denseR ei h W b (ix2 p q)
      = max ((((∑ k : Fin 64, h (ix2 p k) * w_0 W (ix2 k q))
            + ∑ k : Fin 64, prop ei h (ix2 p k) * w_1 W (ix2 k q))
          + ∑ k : Fin 64, (Ideal.ofBits .f32 0x40000000#32 * prop ei (prop ei h) (ix2 p k) - h (ix2 p k)) * w_2 W (ix2 k q))
        + b (ix1 q)) 0 := by
  unfold denseR zerosNC
  rw [Cert.DenseAt.relu_in_dim_at, addf_apply, addf_apply, addf_apply,
    Cert.DenseAt.dot_at Cert.ReferenceIdeal.dot_S100000x64_S64x64_S100000x64_1_0_0_1_n_n rfl rfl rfl rfl rfl rfl none h,
    Cert.DenseAt.dot_at Cert.ReferenceIdeal.dot_S100000x64_S64x64_S100000x64_1_0_0_1_n_n rfl rfl rfl rfl rfl rfl none (prop ei h),
    Cert.DenseAt.dot_at Cert.ReferenceIdeal.dot_S100000x64_S64x64_S100000x64_1_0_0_1_n_n rfl rfl rfl rfl rfl rfl none,
    Cert.DenseAt.bias_in_dim_at]
  rw [Finset.sum_congr rfl fun k _ => congrArg (· * w_2 W (ix2 k q)) (cheb_apply (prop ei (prop ei h)) h (ix2 p k))]

/-! ## The two dense parts agree on finite data, and stay finite -/

theorem dense_eq (ei : IVec S2x1600000 32) (h : FVec Ideal S100000x64 .f32) (W : FVec Ideal S3x64x64 .f32)
    (b : FVec Ideal S64 .f32) (hh : Fin' h) (hW : Fin' W) (hb : Fin' b) : denseK ei h W b = denseR ei h W b := by
  funext i
  obtain ⟨p, q, rfl⟩ : ∃ (p : Fin 100000) (q : Fin 64), i = ix2 p q := ⟨i 0, i 1, eq_ix2 i⟩
  rw [denseK_at, denseR_at]
  have ht := prop_fin ei h hh
  have hs := prop_fin ei _ ht
  exact cheb_algebra (fun k => h (ix2 p k)) (fun k => prop ei h (ix2 p k)) (fun k => prop ei (prop ei h) (ix2 p k))
    (fun k => w_0 W (ix2 k q)) (fun k => w_1 W (ix2 k q)) (fun k => w_2 W (ix2 k q)) _ _
    (fun _ => hh _) (fun _ => ht _) (fun _ => hs _) (fun _ => w_0_fin W hW _) (fun _ => w_1_fin W hW _)
    (fun _ => w_2_fin W hW _) two_real (hb _)

theorem denseR_fin (ei : IVec S2x1600000 32) (h : FVec Ideal S100000x64 .f32) (W : FVec Ideal S3x64x64 .f32)
    (b : FVec Ideal S64 .f32) (hh : Fin' h) (hW : Fin' W) (hb : Fin' b) : Fin' (denseR ei h W b) := fun i => by
  obtain ⟨p, q, rfl⟩ : ∃ (p : Fin 100000) (q : Fin 64), i = ix2 p q := ⟨i 0, i 1, eq_ix2 i⟩
  rw [denseR_at]
  have ht := prop_fin ei h hh
  have hs := prop_fin ei _ ht
  exact cheb_real (fun k => h (ix2 p k)) (fun k => prop ei h (ix2 p k)) (fun k => prop ei (prop ei h) (ix2 p k))
    (fun k => w_0 W (ix2 k q)) (fun k => w_1 W (ix2 k q)) (fun k => w_2 W (ix2 k q)) _ _
    (fun _ => hh _) (fun _ => ht _) (fun _ => hs _) (fun _ => w_0_fin W hW _) (fun _ => w_1_fin W hW _)
    (fun _ => w_2_fin W hW _) two_real (hb _)

end Cert.Spec

end
-- ==== Proof.MathLayers.lean ====
/-
  Two layers. A layer is the dense part followed by the normalisation. On arrays of reals the two programs' dense parts
  agree, and the normalisations agree on every array, so a layer of the kernel is a layer of the reference; the
  reference's layer takes arrays of reals to an array of reals (the dense part does, and the normalisation keeps it),
  so the argument applies again to the second layer.
-/
import proofs.«133803_j9560597201237_2_alg».proof.Proof.MathNorm
import proofs.«133803_j9560597201237_2_alg».proof.Proof.MathDense

noncomputable section

namespace Cert.Spec

open Idealize.ShloMosaic
open Cert.KernelIdeal

/-- A layer: the dense parts agree on arrays of reals, and the normalisations agree on every array. -/
theorem layer_eq (ei : IVec S2x1600000 32) (h : FVec Ideal S100000x64 .f32) (W : FVec Ideal S3x64x64 .f32)
    (b : FVec Ideal S64 .f32) (hh : Fin' h) (hW : Fin' W) (hb : Fin' b) : layerK ei h W b = layerR ei h W b := by
  unfold layerK layerR
  rw [dense_eq ei h W b hh hW hb, norm_eq]

/-- A layer of the reference takes arrays of reals to an array of reals. -/
theorem layerR_fin (ei : IVec S2x1600000 32) (h : FVec Ideal S100000x64 .f32) (W : FVec Ideal S3x64x64 .f32)
    (b : FVec Ideal S64 .f32) (hh : Fin' h) (hW : Fin' W) (hb : Fin' b) : Fin' (layerR ei h W b) :=
  normR_fin _ (denseR_fin ei h W b hh hW hb)

/-- Two layers: the first layers agree, the reference's first layer is an array of reals, so the second layers agree. -/
theorem layers_eq (ei : IVec S2x1600000 32) (x : FVec Ideal S100000x64 .f32) (W1 : FVec Ideal S3x64x64 .f32)
    (b1 : FVec Ideal S64 .f32) (W2 : FVec Ideal S3x64x64 .f32) (b2 : FVec Ideal S64 .f32)
    (hx : Fin' x) (hW1 : Fin' W1) (hb1 : Fin' b1) (hW2 : Fin' W2) (hb2 : Fin' b2) :
    layerK ei (layerK ei x W1 b1) W2 b2 = layerR ei (layerR ei x W1 b1) W2 b2 := by
  rw [layer_eq ei x W1 b1 hx hW1 hb1]
  exact layer_eq ei (layerR ei x W1 b1) W2 b2 (layerR_fin ei x W1 b1 hx hW1 hb1) hW2 hb2

end Cert.Spec

end
-- ==== Proof.lean ====
/-
  Two layers of a Chebyshev graph convolution (order 3), ReLU and instance normalisation over a graph of 100000 nodes
  and 1600000 edges, 64 channels: the Pallas program against its jnp reference, equal as extended reals.

  Per layer both programs compute, with the same host operations, the symmetric-normalised edge weights
  w = -dinv(src) dinv(dst) (dinv = deg^(-1/2) where deg > 0, else 0) and the propagation
  prop h = scatter-add at the targets of w times the source rows of h. The reference forms
  Tx0 = h, Tx1 = prop h, Tx2 = 2 prop Tx1 - Tx0 and relu (Tx0 W0 + Tx1 W1 + Tx2 W2 + b); the kernel feeds
  h, prop h, prop (prop h) to the reweighted matrices W0 - W2, W1, 2 W2. On the extended reals the two agree where every
  entry involved is a real number (distributing a product over a difference and cancelling fail at infinities), and
  finite inputs keep every intermediate finite: degrees are finite sums of ones, rsqrt of a positive real is real, a
  gather picks entries, a scatter-add sums finitely many, the variance plus eps is a positive real. The normalisation
  (h - mean) (var + eps)^(-1/2) is the same expression in both, the kernel's on the array re-laid as N/2 x 128 with the
  statistics rows doubled: an identity of indices. The two layers compose because the first layer's result is again
  finite.

  The three frames: the two kernel programs' are generated whole; the reference's comes from its run read as a
  straight line of host operations. The idealization rewrote nothing, so `preserves` is `True`.
-/
import proofs.«133803_j9560597201237_2_alg».proof.Defs
import proofs.«133803_j9560597201237_2_alg».proof.Proof.Gen.Kernel
import proofs.«133803_j9560597201237_2_alg».proof.Proof.Gen.Kernel.Frame
import proofs.«133803_j9560597201237_2_alg».proof.Proof.Gen.KernelIdeal
import proofs.«133803_j9560597201237_2_alg».proof.Proof.Gen.KernelIdeal.Frame
import proofs.«133803_j9560597201237_2_alg».proof.Proof.Gen.ReferenceIdeal
import proofs.«133803_j9560597201237_2_alg».proof.Proof.Gen.Pre_finite_inputs
import proofs.«133803_j9560597201237_2_alg».proof.Proof.KValue
import proofs.«133803_j9560597201237_2_alg».proof.Proof.RefValue
import proofs.«133803_j9560597201237_2_alg».proof.Proof.PreFin
import proofs.«133803_j9560597201237_2_alg».proof.Proof.MathLayers

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame (F := Ideal) m ρ

/-- Both runs end with the result at two layers applied to the arguments, the kernel's in its own form of a layer and the
    reference's in its; the arguments agree, the precondition makes them finite, and on finite data the two forms are one
    function. -/
theorem algebraic : Cert.algebraic_KernelIdeal_ReferenceIdeal := by
  intro m ρ m' ρ' hpre hagree
  refine ⟨_, Cert.KernelIdeal.KValue.run m ρ, ?_⟩
  refine (θ_run (Cert.ReferenceIdeal.defs (F := Ideal)) _ _).mono (fun r h c => ⟨(h c).1.trans ?_, (h c).2⟩)
    (Cert.ReferenceIdeal.RefValue.run m' ρ')
  obtain ⟨hx, hW1, hb1, hW2, hb2⟩ := Cert.Proof.PreFin.fin_of_pre m hpre c
  rw [(hagree c).1, (hagree c).2.1, (hagree c).2.2.1, (hagree c).2.2.2.1, (hagree c).2.2.2.2.1, (hagree c).2.2.2.2.2]
  exact (Cert.Spec.layers_eq _ _ _ _ _ _ hx hW1 hb1 hW2 hb2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
